-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S2x1x512 : Shape := ⟨3, ![2, 1, 512]⟩
abbrev S2x512x512 : Shape := ⟨3, ![2, 512, 512]⟩
abbrev S4096x512 : Shape := ⟨2, ![4096, 512]⟩
abbrev S1x1x512 : Shape := ⟨3, ![1, 1, 512]⟩
abbrev S1x512x512 : Shape := ⟨3, ![1, 512, 512]⟩
abbrev S512 : Shape := ⟨1, ![512]⟩
abbrev S1x1 : Shape := ⟨2, ![1, 1]⟩
abbrev S1x512 : Shape := ⟨2, ![1, 512]⟩
abbrev S512x1 : Shape := ⟨2, ![512, 1]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S2x1x512, .f32⟩
  | .hbm, ⟨3, _⟩ => ⟨S2x512x512, .f32⟩
  | .hbm, ⟨4, _⟩ => ⟨S1x1, .f32⟩
  | .hbm, ⟨5, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x1x512, .f32⟩
  | .local _ .vmem, ⟨3, _⟩ => ⟨S1x512x512, .f32⟩
  | .local _ .vmem, ⟨4, _⟩ => ⟨S2x1x512, .f32⟩
  | .local _ .vmem, ⟨5, _⟩ => ⟨S2x512x512, .f32⟩
  | .local _ .vmem, ⟨6, _⟩ => ⟨S512x512, .f32⟩
  | .local _ .vmem, ⟨7, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x1x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x1x512_S1x1x512_0_0_0 : ∀ a, (![0, 0, 0] : Fin 3 → Nat) a + S1x1x512.size a ≤ S1x1x512.size a
  h_S1x1x512 : 0 < S1x1x512.numel
  inb_S1x512x512_S1x512x512_0_0_0 : ∀ a, (![0, 0, 0] : Fin 3 → Nat) a + S1x512x512.size a ≤ S1x512x512.size a
  h_S1x512x512 : 0 < S1x512x512.numel
  inb_S4096x512_S4096x512_0_0 : ∀ a, (![0, 0] : Fin 2 → Nat) a + S4096x512.size a ≤ S4096x512.size a
  h_S4096x512 : 0 < S4096x512.numel
  shapeCasts_S1x1x512_S1x1x512 : S1x1x512.ShapeCasts S1x1x512
  reduces_S4096x512_S512 : S4096x512.Reduces [0] S512
  shapeCasts_S512_S1x1x512 : S512.ShapeCasts S1x1x512
  bitsLt_bf16_f32 : FTy.bits .bf16 < FTy.bits .f32
  shapeCasts_S1x512x512_S1x512x512 : S1x512x512.ShapeCasts S1x512x512
  shapeCasts_S512x512_S1x512x512 : S512x512.ShapeCasts S1x512x512
  inb_S2x1x512_S2x1x512_0_0_0 : ∀ a, (![0, 0, 0] : Fin 3 → Nat) a + S2x1x512.size a ≤ S2x1x512.size a
  h_S2x1x512 : 0 < S2x1x512.numel
  shapeCasts_S2x1x512_S2x1x512 : S2x1x512.ShapeCasts S2x1x512
  reduces_S2x1x512_S1x512 : S2x1x512.Reduces [0] S1x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  reduces_S2x512x512_S512x512 : S2x512x512.Reduces [0] S512x512
  transposes_S1x512_p1_0_S512x1 : S1x512.Transposes [1, 0] S512x1
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  inb_S512x512_S512x512_0_0 : ∀ a, (![0, 0] : Fin 2 → Nat) a + S512x512.size a ≤ S512x512.size a
  h_S512x512 : 0 < S512x512.numel
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S4096x512_S4096x512_S512x512_0_0_1_1_n_n_wf : DotDims.WF S4096x512 S4096x512 S512x512 [0] [0] [1] [1] [] []
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1x512.size a ≤ S2x1x512.size a
  hwx1_0 : ∀ i : grid1.Coords, EltTy.bits .f32 = 32 ∨ (Rect.block (s := S2x1x512) S2x1x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x512x512.size a ≤ S2x512x512.size a
  hwx1_1 : ∀ i : grid1.Coords, EltTy.bits .f32 = 32 ∨ (Rect.block (s := S2x512x512) S2x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S4096x512_S4096x512_S512x512_0_0_1_1_n_n : DotDims S4096x512 S4096x512 S512x512 where
  lhsContracting := [0]
  rhsContracting := [0]
  lhsNonContracting := [1]
  rhsNonContracting := [1]
  lhsBatch := []
  rhsBatch := []
  wf := dot_S4096x512_S4096x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S2x1x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x65536 : Shape := ⟨2, ![512, 65536]⟩

abbrev nBuf : Space → Nat
  | .hbm => 155
  | .vmem => 0
  | .smem => 0
  | _ => 0

abbrev hbmTy0_0 (i : Nat) : BufTy := match i % 128 with
  | 0 => ⟨S65536x512, .f32⟩
  | 1 => ⟨S512x512, .f32⟩
  | 2 => ⟨S_, .f32⟩
  | 3 => ⟨S_, .f32⟩
  | 4 => ⟨S_, .f32⟩
  | 5 => ⟨S_, .f32⟩
  | 6 => ⟨S_, .i32⟩
  | 7 => ⟨S_, .f32⟩
  | 8 => ⟨S512, .f32⟩
  | 9 => ⟨S1x512, .f32⟩
  | 10 => ⟨S_, .f32⟩
  | 11 => ⟨S1x512, .f32⟩
  | 12 => ⟨S1x512, .f32⟩
  | 13 => ⟨S65536x512, .f32⟩
  | 14 => ⟨S65536x512, .f32⟩
  | 15 => ⟨S65536x512, .f32⟩
  | 16 => ⟨S_, .f32⟩
  | 17 => ⟨S_, .f32⟩
  | 18 => ⟨S_, .f32⟩
  | 19 => ⟨S_, .f32⟩
  | 20 => ⟨S512, .f32⟩
  | 21 => ⟨S512, .f32⟩
  | 22 => ⟨S512, .f32⟩
  | 23 => ⟨S_, .f32⟩
  | 24 => ⟨S_, .i1⟩
  | 25 => ⟨S_, .f32⟩
  | 26 => ⟨S_, .f32⟩
  | 27 => ⟨S512, .f32⟩
  | 28 => ⟨S512, .f32⟩
  | 29 => ⟨S_, .f32⟩
  | 30 => ⟨S512, .f32⟩
  | 31 => ⟨S512, .f32⟩
  | 32 => ⟨S_, .f32⟩
  | 33 => ⟨S512, .f32⟩
  | 34 => ⟨S512, .f32⟩
  | 35 => ⟨S512, .f32⟩
  | 36 => ⟨S_, .f32⟩
  | 37 => ⟨S512, .f32⟩
  | 38 => ⟨S512, .f32⟩
  | 39 => ⟨S512x1, .f32⟩
  | 40 => ⟨S1x512, .f32⟩
  | 41 => ⟨S512x512, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S512x512, .f32⟩
  | 48 => ⟨S_, .f32⟩
  | 49 => ⟨S_, .f32⟩
  | 50 => ⟨S_, .f32⟩
  | 51 => ⟨S65536x512, .f32⟩
  | 52 => ⟨S65536x512, .f32⟩
  | 53 => ⟨S_, .f32⟩
  | 54 => ⟨S512, .f32⟩
  | 55 => ⟨S1x512, .f32⟩
  | 56 => ⟨S_, .f32⟩
  | 57 => ⟨S1x512, .f32⟩
  | 58 => ⟨S1x512, .f32⟩
  | 59 => ⟨S65536x512, .f32⟩
  | 60 => ⟨S65536x512, .f32⟩
  | 61 => ⟨S_, .f32⟩
  | 62 => ⟨S512, .f32⟩
  | 63 => ⟨S1x512, .f32⟩
  | 64 => ⟨S_, .f32⟩
  | 65 => ⟨S1x512, .f32⟩
  | 66 => ⟨S1x512, .f32⟩
  | 67 => ⟨S65536x512, .f32⟩
  | 68 => ⟨S65536x512, .f32⟩
  | 69 => ⟨S_, .i32⟩
  | 70 => ⟨S_, .f32⟩
  | 71 => ⟨S512, .f32⟩
  | 72 => ⟨S1x512, .f32⟩
  | 73 => ⟨S_, .f32⟩
  | 74 => ⟨S1x512, .f32⟩
  | 75 => ⟨S1x512, .f32⟩
  | 76 => ⟨S65536x512, .f32⟩
  | 77 => ⟨S65536x512, .f32⟩
  | 78 => ⟨S65536x512, .f32⟩
  | 79 => ⟨S_, .f32⟩
  | 80 => ⟨S_, .f32⟩
  | 81 => ⟨S_, .f32⟩
  | 82 => ⟨S_, .f32⟩
  | 83 => ⟨S512, .f32⟩
  | 84 => ⟨S512, .f32⟩
  | 85 => ⟨S512, .f32⟩
  | 86 => ⟨S_, .f32⟩
  | 87 => ⟨S_, .i1⟩
  | 88 => ⟨S_, .f32⟩
  | 89 => ⟨S_, .f32⟩
  | 90 => ⟨S512, .f32⟩
  | 91 => ⟨S512, .f32⟩
  | 92 => ⟨S512, .f32⟩
  | 93 => ⟨S_, .f32⟩
  | 94 => ⟨S512, .f32⟩
  | 95 => ⟨S512, .f32⟩
  | 96 => ⟨S_, .i32⟩
  | 97 => ⟨S_, .f32⟩
  | 98 => ⟨S512, .f32⟩
  | 99 => ⟨S1x512, .f32⟩
  | 100 => ⟨S_, .f32⟩
  | 101 => ⟨S1x512, .f32⟩
  | 102 => ⟨S1x512, .f32⟩
  | 103 => ⟨S65536x512, .f32⟩
  | 104 => ⟨S65536x512, .f32⟩
  | 105 => ⟨S65536x512, .f32⟩
  | 106 => ⟨S_, .f32⟩
  | 107 => ⟨S_, .f32⟩
  | 108 => ⟨S_, .f32⟩
  | 109 => ⟨S_, .f32⟩
  | 110 => ⟨S512, .f32⟩
  | 111 => ⟨S512, .f32⟩
  | 112 => ⟨S512, .f32⟩
  | 113 => ⟨S_, .f32⟩
  | 114 => ⟨S_, .i1⟩
  | 115 => ⟨S_, .f32⟩
  | 116 => ⟨S_, .f32⟩
  | 117 => ⟨S512, .f32⟩
  | 118 => ⟨S512, .f32⟩
  | 119 => ⟨S512, .f32⟩
  | 120 => ⟨S_, .f32⟩
  | 121 => ⟨S512, .f32⟩
  | 122 => ⟨S512, .f32⟩
  | 123 => ⟨S512x65536, .f32⟩
  | 124 => ⟨S512x512, .f32⟩
  | 125 => ⟨S_, .f32⟩
  | 126 => ⟨S512x512, .f32⟩
  | 127 => ⟨S512x512, .f32⟩
  | _ => ⟨S65536x512, .f32⟩

abbrev hbmTy0_1 (i : Nat) : BufTy := match i % 128 with
  | 0 => ⟨S512x1, .f32⟩
  | 1 => ⟨S1x512, .f32⟩
  | 2 => ⟨S512x512, .f32⟩
  | 3 => ⟨S512x512, .f32⟩
  | 4 => ⟨S512x512, .f32⟩
  | 5 => ⟨S512x512, .f32⟩
  | 6 => ⟨S512x512, .f32⟩
  | 7 => ⟨S512x512, .i32⟩
  | 8 => ⟨S512x512, .i32⟩
  | 9 => ⟨S_, .i32⟩
  | 10 => ⟨S512x512, .i32⟩
  | 11 => ⟨S512x512, .i32⟩
  | 12 => ⟨S512x512, .i1⟩
  | 13 => ⟨S512x512, .f32⟩
  | 14 => ⟨S_, .f32⟩
  | 15 => ⟨S512x512, .f32⟩
  | 16 => ⟨S512x512, .f32⟩
  | 17 => ⟨S512x512, .f32⟩
  | 18 => ⟨S512x512, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_cst_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_cst_2 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_cst_3 : Ref sig .tc := ⟨.hbm, 23, rfl⟩
abbrev main_call0_v12 : Ref sig .tc := ⟨.hbm, 24, rfl⟩
abbrev main_call0_cst_4 : Ref sig .tc := ⟨.hbm, 25, rfl⟩
abbrev main_call0_call0_v0 : Ref sig .tc := ⟨.hbm, 26, rfl⟩
abbrev main_call0_call0_v1 : Ref sig .tc := ⟨.hbm, 27, rfl⟩
abbrev main_v2 : Ref sig .tc := ⟨.hbm, 28, rfl⟩
abbrev main_cst_1 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call1_cst : Ref sig .tc := ⟨.hbm, 44, rfl⟩
abbrev main_call1_v0 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_9 : Ref sig .tc := ⟨.hbm, 69, rfl⟩
abbrev main_call2_call0_cst : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_call0_cst_0 : Ref sig .tc := ⟨.hbm, 73, rfl⟩
abbrev main_call2_call0_v2 : Ref sig .tc := ⟨.hbm, 74, rfl⟩
abbrev main_call2_call0_v3 : Ref sig .tc := ⟨.hbm, 75, rfl⟩
abbrev main_call2_call0_v4 : Ref sig .tc := ⟨.hbm, 76, rfl⟩
abbrev main_call2_call0_v5 : Ref sig .tc := ⟨.hbm, 77, rfl⟩
abbrev main_call2_call0_v6 : Ref sig .tc := ⟨.hbm, 78, rfl⟩
abbrev main_call2_call0_v7 : Ref sig .tc := ⟨.hbm, 79, rfl⟩
abbrev main_call2_call0_cst_1 : Ref sig .tc := ⟨.hbm, 80, rfl⟩
abbrev main_call2_call0_v8 : Ref sig .tc := ⟨.hbm, 81, rfl⟩
abbrev main_call2_call0_cst_2 : Ref sig .tc := ⟨.hbm, 82, rfl⟩
abbrev main_call2_call0_v9 : Ref sig .tc := ⟨.hbm, 83, rfl⟩
abbrev main_call2_call0_v10 : Ref sig .tc := ⟨.hbm, 84, rfl⟩
abbrev main_call2_call0_v11 : Ref sig .tc := ⟨.hbm, 85, rfl⟩
abbrev main_call2_call0_cst_3 : Ref sig .tc := ⟨.hbm, 86, rfl⟩
abbrev main_call2_call0_v12 : Ref sig .tc := ⟨.hbm, 87, rfl⟩
abbrev main_call2_call0_cst_4 : Ref sig .tc := ⟨.hbm, 88, rfl⟩
abbrev main_call2_call0_call0_v0 : Ref sig .tc := ⟨.hbm, 89, rfl⟩
abbrev main_call2_call0_call0_v1 : Ref sig .tc := ⟨.hbm, 90, rfl⟩
abbrev main_call2_v0 : Ref sig .tc := ⟨.hbm, 91, rfl⟩
abbrev main_v33 : Ref sig .tc := ⟨.hbm, 92, rfl⟩
abbrev main_cst_10 : Ref sig .tc := ⟨.hbm, 93, rfl⟩
abbrev main_v34 : Ref sig .tc := ⟨.hbm, 94, rfl⟩
abbrev main_v35 : Ref sig .tc := ⟨.hbm, 95, rfl⟩
abbrev main_c_11 : Ref sig .tc := ⟨.hbm, 96, rfl⟩
abbrev main_call3_call0_cst : Ref sig .tc := ⟨.hbm, 97, rfl⟩
abbrev main_call3_call0_v0 : Ref sig .tc := ⟨.hbm, 98, rfl⟩
abbrev main_call3_call0_v1 : Ref sig .tc := ⟨.hbm, 99, rfl⟩
abbrev main_call3_call0_cst_0 : Ref sig .tc := ⟨.hbm, 100, rfl⟩
abbrev main_call3_call0_v2 : Ref sig .tc := ⟨.hbm, 101, rfl⟩
abbrev main_call3_call0_v3 : Ref sig .tc := ⟨.hbm, 102, rfl⟩
abbrev main_call3_call0_v4 : Ref sig .tc := ⟨.hbm, 103, rfl⟩
abbrev main_call3_call0_v5 : Ref sig .tc := ⟨.hbm, 104, rfl⟩
abbrev main_call3_call0_v6 : Ref sig .tc := ⟨.hbm, 105, rfl⟩
abbrev main_call3_call0_v7 : Ref sig .tc := ⟨.hbm, 106, rfl⟩
abbrev main_call3_call0_cst_1 : Ref sig .tc := ⟨.hbm, 107, rfl⟩
abbrev main_call3_call0_v8 : Ref sig .tc := ⟨.hbm, 108, rfl⟩
abbrev main_call3_call0_cst_2 : Ref sig .tc := ⟨.hbm, 109, rfl⟩
abbrev main_call3_call0_v9 : Ref sig .tc := ⟨.hbm, 110, rfl⟩
abbrev main_call3_call0_v10 : Ref sig .tc := ⟨.hbm, 111, rfl⟩
abbrev main_call3_call0_v11 : Ref sig .tc := ⟨.hbm, 112, rfl⟩
abbrev main_call3_call0_cst_3 : Ref sig .tc := ⟨.hbm, 113, rfl⟩
abbrev main_call3_call0_v12 : Ref sig .tc := ⟨.hbm, 114, rfl⟩
abbrev main_call3_call0_cst_4 : Ref sig .tc := ⟨.hbm, 115, rfl⟩
abbrev main_call3_call0_call0_v0 : Ref sig .tc := ⟨.hbm, 116, rfl⟩
abbrev main_call3_call0_call0_v1 : Ref sig .tc := ⟨.hbm, 117, rfl⟩
abbrev main_call3_v0 : Ref sig .tc := ⟨.hbm, 118, rfl⟩
abbrev main_v36 : Ref sig .tc := ⟨.hbm, 119, rfl⟩
abbrev main_cst_12 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_cst_13 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_c_14 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_cst_15 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_16 : Ref sig .tc := ⟨.hbm, 147, rfl⟩
abbrev main_v60 : Ref sig .tc := ⟨.hbm, 148, rfl⟩
abbrev main_v61 : Ref sig .tc := ⟨.hbm, 149, rfl⟩
abbrev main_cst_17 : Ref sig .tc := ⟨.hbm, 150, rfl⟩
abbrev main_v62 : Ref sig .tc := ⟨.hbm, 151, rfl⟩
abbrev main_v63 : Ref sig .tc := ⟨.hbm, 152, rfl⟩
abbrev main_cst_18 : Ref sig .tc := ⟨.hbm, 153, rfl⟩
abbrev main_v64 : Ref sig .tc := ⟨.hbm, 154, rfl⟩

abbrev nD : Nat := 1
abbrev τ : Topo := Topo.v7x

variable {F : FTy → Type} [FloatOps F]

class Facts₀ : Prop where
  reducesTo_S512x512_S_d0_1 : S512x512.ReducesTo [0, 1] S_
  h_S_ : 0 < S_.numel
  reducesTo_S65536x512_S512_d0 : S65536x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S65536x512_S512x65536_1_0 : S65536x512.Transposes [1, 0] S512x65536
  dot_S65536x512_S512x512_S65536x512_1_0_0_1_n_n_wf : DotDims.WF S65536x512 S512x512 S65536x512 [1] [0] [0] [1] [] []
  dot_S512x65536_S65536x512_S512x512_1_0_0_1_n_n_wf : DotDims.WF S512x65536 S65536x512 S512x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.KernelRun.lean ====
/-
  The single-pass program's run with its result named.

  The program is two kernel regions followed by one host operation (the reshape of the second kernel's [1,1] output to
  a scalar). Its run is the chain of those three segments over the thread state "every unscoped buffer at the
  boundary's contents": launch contents, then the first region's arrays at what its write-backs leave, then the
  second region's, then the host operation's result. Every weakly fair execution terminates in a state whose unscoped
  buffers hold the last boundary's contents; read at the result buffer that is the value, read at the two argument
  buffers it is the launch contents, since no segment writes an argument.
-/
import proofs.«176857_j82240033784130_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_last : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c)⟩)

end Cert.KernelIdeal.ValueRun

end
-- ==== Proof.Spec.lean ====
/-
  The orientation penalty as one function of the sample matrix and the adjacency matrix, in the two
  arrangements the two programs compute.

  Both arrangements end in the same closing expression `tail`: from four variance vectors, a cross matrix `M` and the
  adjacency `A` it forms the entropy penalty `relu (e i - e j)` with `e = ½ log (2πe (v + ε))`, the residual
  penalty `|M i j / N / ((√vs i + ε) (√w j + ε))|` off the diagonal, weighs both by `A`, divides by `∑ A + ε` and
  returns `0.1 (L_entropy + ½ L_residual)`.

  The single-pass arrangement (`OnePass`) gets every statistic from the column sums `s1` and the Gram matrix `s2` of
  the samples: the scatter matrix `C = s2 - N μ μᵀ`, its diagonal as the variances, `C (I - A)` as the cross
  matrix and the diagonal of `(I - A)ᵀ C (I - A)` as the residuals' variances.

  The two-pass arrangement (`TwoPass`) centres the samples and the residuals `X - X A` first and takes the
  variances and the cross products of the centred arrays.

  On finite samples the two agree: `OnePass.result A X = TwoPass.result X A` (proved in the module that imports this one).
-/
import Idealize.ShloMosaic.PureOps.Ideal

noncomputable section

namespace Cert.Spec

open Idealize.ShloMosaic

/-! ## The float literals both programs spell, as the extended reals their patterns denote -/

/-- `1e-8` rounded to f32. -/
abbrev eps : EReal := Ideal.ofBits .f32 0x322BCC77#32
/-- `2πe` rounded to f32. -/
abbrev tpe : EReal := Ideal.ofBits .f32 0x4188A2C0#32
/-- `0.5`. -/
abbrev half : EReal := Ideal.ofBits .f32 0x3F000000#32
/-- `1.0`. -/
abbrev one : EReal := Ideal.ofBits .f32 0x3F800000#32
/-- `0.1` rounded to f32. -/
abbrev tenth : EReal := Ideal.ofBits .f32 0x3DCCCCCD#32
/-- `65536.0`, the number of samples. -/
abbrev nn : EReal := Ideal.ofBits .f32 0x47800000#32
/-- `65535.0`, the number of samples less one, as the single-pass program spells it. -/
abbrev nm1 : EReal := Ideal.ofBits .f32 0x477FFF00#32
/-- The number of samples less one as the two-pass program computes it: `65536.0` minus the integer `1` converted. -/
abbrev nm1' : EReal := nn - ((1 : ℝ) : EReal)

/-- The identity matrix's entry. -/
def eye (i j : Fin 512) : EReal := if i = j then 1 else 0

/-! ## The closing expression both arrangements share -/

/-- The entropy term of a variance: `½ log (2πe (v + ε))`. -/
def ent (v : EReal) : EReal := half * Ideal.log (tpe * (v + eps))

/-- The standard deviation with its guard: `√v + ε`. -/
def sdev (v : EReal) : EReal := Ideal.sqrt v + eps

/-- The normalised absolute cross term `|m / N / (sx · sr)|` (the absolute value as `max q (-q)`). -/
def corr (m sx sr : EReal) : EReal :=
  max (Ideal.div (Ideal.div m nn) (sx * sr)) (-(Ideal.div (Ideal.div m nn) (sx * sr)))

/-- The penalty from: `va`, `vb` the variances the entropy difference takes by row and by column index, `vs` the
    variances of the samples and `w` those of the residuals that normalise the cross matrix `M`, and the adjacency
    `A`. -/
def tail (va vb vs w : Fin 512 → EReal) (M A : Fin 512 → Fin 512 → EReal) : EReal :=
  tenth * (Ideal.div (∑ i : Fin 512, ∑ j : Fin 512, A i j * max (ent (va i) - ent (vb j)) 0)
              ((∑ i : Fin 512, ∑ j : Fin 512, A i j) + eps)
          + half * Ideal.div (∑ i : Fin 512, ∑ j : Fin 512,
                A i j * (corr (M i j) (sdev (vs i)) (sdev (w j)) * (one - eye i j)))
              ((∑ i : Fin 512, ∑ j : Fin 512, A i j) + eps))

/-! ## The single-pass arrangement -/

namespace OnePass

variable (s1 : Fin 512 → EReal) (s2 : Fin 512 → Fin 512 → EReal) (A : Fin 512 → Fin 512 → EReal)

/-- Column means, from the column sums. -/
def mu (j : Fin 512) : EReal := Ideal.div (s1 j) nn
/-- The scatter matrix `s2 - N μ μᵀ`. -/
def C (i j : Fin 512) : EReal := s2 i j - nn * (mu s1 i * mu s1 j)
/-- The variances read off the scatter matrix's diagonal along a row. -/
def vrow (i : Fin 512) : EReal := Ideal.div (∑ j : Fin 512, C s1 s2 i j * eye i j) nm1
/-- The variances read off the scatter matrix's diagonal along a column. -/
def vcol (j : Fin 512) : EReal := Ideal.div (∑ i : Fin 512, C s1 s2 i j * eye i j) nm1
/-- `I - A`. -/
def B (k j : Fin 512) : EReal := eye k j - A k j
/-- `C (I - A)`. -/
def CB (i j : Fin 512) : EReal := ∑ k : Fin 512, C s1 s2 i k * B A k j
/-- `(I - A)ᵀ C (I - A)`. -/
def BCB (i j : Fin 512) : EReal := ∑ k : Fin 512, B A k i * CB s1 s2 A k j
/-- The residuals' variances read off that matrix's diagonal along a column. -/
def wcol (j : Fin 512) : EReal := Ideal.div (∑ i : Fin 512, BCB s1 s2 A i j * eye i j) nm1
/-- The penalty from the column sums `s1` and the Gram matrix `s2`. -/
def resultOf : EReal := tail (vrow s1 s2) (vcol s1 s2) (vrow s1 s2) (wcol s1 s2 A) (CB s1 s2 A) A

/-- Column sums of the samples. -/
def colSum (X : Fin 65536 → Fin 512 → EReal) (j : Fin 512) : EReal := ∑ n : Fin 65536, X n j
/-- The Gram matrix of the samples. -/
def gram (X : Fin 65536 → Fin 512 → EReal) (i j : Fin 512) : EReal := ∑ n : Fin 65536, X n i * X n j
/-- The penalty, single pass over the samples. -/
def result (X : Fin 65536 → Fin 512 → EReal) : EReal := resultOf (colSum X) (gram X) A

end OnePass

/-! ## The two-pass arrangement -/

namespace TwoPass

variable (X : Fin 65536 → Fin 512 → EReal) (A : Fin 512 → Fin 512 → EReal)

/-- Column means of any array of samples. -/
def mean (Z : Fin 65536 → Fin 512 → EReal) (j : Fin 512) : EReal := Ideal.div (∑ n : Fin 65536, Z n j) nn
/-- The array centred by its column means. -/
def cen (Z : Fin 65536 → Fin 512 → EReal) (n : Fin 65536) (j : Fin 512) : EReal := Z n j - mean Z j
/-- Unbiased column variances: the centred squares summed, over `N - 1`. -/
def var (Z : Fin 65536 → Fin 512 → EReal) (j : Fin 512) : EReal :=
  Ideal.div (∑ n : Fin 65536, cen Z n j * cen Z n j) nm1'
/-- `X A`. -/
def XA (n : Fin 65536) (j : Fin 512) : EReal := ∑ k : Fin 512, X n k * A k j
/-- The residuals `X - X A`. -/
def res (n : Fin 65536) (j : Fin 512) : EReal := X n j - XA X A n j
/-- The cross products of the centred samples and the centred residuals. -/
def M (i j : Fin 512) : EReal := ∑ n : Fin 65536, cen X n i * cen (res X A) n j
/-- The penalty, two passes. -/
def result : EReal :=
  tail (var X) (var X) (var (cen X)) (var (cen (res X A))) (M X A) A

end TwoPass

end Cert.Spec

end
-- ==== Proof.LibHostFold.lean ====
/-
  A line of single-assignment host operations, read at one operation.

  A line of host operations runs in order from buffer contents `V` and ends with contents `after ops V`. When the line
  is `pre ++ op :: post`, the operation `op` writes the one buffer `y` and reads `a`, `b`, …, and the operations of
  `post` write none of `y`, `a`, `b`, … (every buffer is written once, and never after it has been read), then `op`'s
  defining equation holds of the FINAL contents `W = after ops V`:

      W y = f (W a) (W b) .

  For: `post` leaves `y`, `a`, `b` alone, so `W` there is what `op` left; `op` left `f` of what `pre` left at `a`, `b`
  in `y`, and (`a ≠ y`, `b ≠ y`) left `a`, `b` alone.

  "The operations of `post` do not write `r`" is stated through a LIST `Wl` of references that holds everything `post`
  writes (`WritesIn post Wl`) and `r ∉ Wl`: membership in a list of references is decided by computation. When `Wl` is
  the list of `post`'s result references in order, `WritesIn post Wl` is one `rfl` per operation
  (`WritesIn.cons_head`; the tactic `writes_in`). For a whole stretch of the program this is stated once (`Outs`), and an
  operation is then addressed by its position in the stretch (`binary_at` and its companions).
-/
import Idealize.ShloMosaic.Lib.StableHlo.Run
import Idealize.ShloMosaic.Lib.Pipeline.Frame

noncomputable section

namespace Cert.HostFold

open Idealize.ShloMosaic Idealize.ShloMosaic.StableHlo

variable {τ : Topo} {sig : RefSig} {Val : EltTy → Type}

/-! ## What a line writes -/

/-- Every buffer the line `ops` writes is the buffer of a reference in the list `Wl`. -/
def WritesIn (ops : List (HloOp τ sig Val)) (Wl : List (Ref sig .tc)) : Prop :=
  ∀ op ∈ ops, op.writes ⊆ (Wl.map (Proc.devRef (τ := τ) .tc)).toFinset

/-- The same as a `List.Forall`, the form the fold's own lemma takes. -/
theorem writesIn_iff_forall {ops : List (HloOp τ sig Val)} {Wl : List (Ref sig .tc)} :
    WritesIn ops Wl ↔ ops.Forall fun op => op.writes ⊆ (Wl.map (Proc.devRef (τ := τ) .tc)).toFinset :=
  List.forall_iff_forall_mem.symm

/-- The empty line writes nothing. -/
theorem WritesIn.nil {Wl : List (Ref sig .tc)} : WritesIn ([] : List (HloOp τ sig Val)) Wl :=
  fun _ h => absurd h List.not_mem_nil

/-- One more operation in front, its writes in the list. -/
theorem WritesIn.cons {op : HloOp τ sig Val} {ops : List (HloOp τ sig Val)} {Wl : List (Ref sig .tc)}
    (h : op.writes ⊆ (Wl.map (Proc.devRef (τ := τ) .tc)).toFinset) (hr : WritesIn ops Wl) : WritesIn (op :: ops) Wl :=
  fun o ho => by
    rcases List.mem_cons.mp ho with rfl | ho
    · exact h
    · exact hr o ho

/-- A longer list of references still holds the line's writes. -/
theorem WritesIn.mono {ops : List (HloOp τ sig Val)} {Wl Wl' : List (Ref sig .tc)} (h : WritesIn ops Wl)
    (hsub : Wl ⊆ Wl') : WritesIn ops Wl' :=
  fun o ho => (h o ho).trans fun _ hd => by
    obtain ⟨r, hr, he⟩ := List.mem_map.mp (List.mem_toFinset.mp hd)
    exact List.mem_toFinset.mpr (List.mem_map.mpr ⟨r, hsub hr, he⟩)

/-- One more operation in front that writes the one buffer `y`, `y` a member of the list. -/
theorem WritesIn.cons_of_mem {op : HloOp τ sig Val} {ops : List (HloOp τ sig Val)} {Wl : List (Ref sig .tc)}
    {y : Ref sig .tc} (h : op.writes = {Proc.devRef .tc y}) (hy : y ∈ Wl) (hr : WritesIn ops Wl) :
    WritesIn (op :: ops) Wl :=
  WritesIn.cons (by
    rw [h, Finset.singleton_subset_iff, List.mem_toFinset]
    exact List.mem_map_of_mem hy) hr

/-- One more operation in front that writes the one buffer `y`, and `y` put in front of the list: the list of the
    line's result references IN ORDER holds its writes, by one `rfl` per operation and no search. -/
theorem WritesIn.cons_head {op : HloOp τ sig Val} {ops : List (HloOp τ sig Val)} {Wl : List (Ref sig .tc)}
    {y : Ref sig .tc} (h : op.writes = {Proc.devRef .tc y}) (hr : WritesIn ops Wl) :
    WritesIn (op :: ops) (y :: Wl) :=
  WritesIn.cons_of_mem h List.mem_cons_self (hr.mono (List.subset_cons_self y Wl))

/-- Two lines in a row write what the two lists hold together. -/
theorem WritesIn.append {l₁ l₂ : List (HloOp τ sig Val)} {W₁ W₂ : List (Ref sig .tc)} (h₁ : WritesIn l₁ W₁)
    (h₂ : WritesIn l₂ W₂) : WritesIn (l₁ ++ l₂) (W₁ ++ W₂) :=
  fun o ho => by
    rcases List.mem_append.mp ho with ho | ho
    · exact (h₁.mono (List.subset_append_left W₁ W₂)) o ho
    · exact (h₂.mono (List.subset_append_right W₁ W₂)) o ho

/-- A reference in neither of two lists is not in their concatenation. -/
theorem not_mem_append {r : Ref sig .tc} {W₁ W₂ : List (Ref sig .tc)} (h₁ : r ∉ W₁) (h₂ : r ∉ W₂) : r ∉ W₁ ++ W₂ :=
  fun h => (List.mem_append.mp h).elim h₁ h₂

/-- Proves `WritesIn ops Wl` for a written-out line `ops` of operations that each write one buffer and the list `Wl`
    of their result references in the same order. -/
macro "writes_in" : tactic =>
  `(tactic| repeat (first | exact WritesIn.nil | refine WritesIn.cons_head rfl ?_))

/-- A REFERENCE THE LINE DOES NOT WRITE KEEPS ITS CONTENTS. -/
theorem after_keep {ops : List (HloOp τ sig Val)} {Wl : List (Ref sig .tc)} (hW : WritesIn ops Wl) {r : Ref sig .tc}
    (hr : r ∉ Wl) (V : Valuation τ sig Val) : after ops V (Proc.devRef .tc r) = V (Proc.devRef .tc r) :=
  after_of_writes_sub ops V (writesIn_iff_forall.mp hW) hr

/-! ## The fold at a split -/

/-- The fold of `pre ++ op :: post`: run `pre`, then `op`, then `post`. -/
theorem after_split (pre post : List (HloOp τ sig Val)) (op : HloOp τ sig Val) (V : Valuation τ sig Val) :
    after (pre ++ op :: post) V = after post (op.result (after pre V)) := by
  rw [StableHlo.after_append, after_cons]

/-- At a reference `post` does not write, the final contents are what `op` left. -/
theorem after_split_keep (pre post : List (HloOp τ sig Val)) (op : HloOp τ sig Val) (V : Valuation τ sig Val)
    {Wl : List (Ref sig .tc)} (hW : WritesIn post Wl) {r : Ref sig .tc} (hr : r ∉ Wl) :
    after (pre ++ op :: post) V (Proc.devRef .tc r) = op.result (after pre V) (Proc.devRef .tc r) := by
  rw [after_split, after_keep hW hr]

/-- At a reference neither `op` nor `post` writes, the final contents are what `pre` left. -/
theorem after_split_read (pre post : List (HloOp τ sig Val)) (op : HloOp τ sig Val) (V : Valuation τ sig Val)
    {Wl : List (Ref sig .tc)} (hW : WritesIn post Wl) {r : Ref sig .tc} (hr : r ∉ Wl)
    (hop : Proc.devRef .tc r ∉ op.writes) :
    after (pre ++ op :: post) V (Proc.devRef .tc r) = after pre V (Proc.devRef .tc r) := by
  rw [after_split_keep pre post op V hW hr, op.result_of_not_mem _ hop]

/-- A line split as `pre ++ op :: post`, followed by a later line, is split as `pre ++ op :: (post ++ later)`. -/
theorem split_append {ops pre post : List (HloOp τ sig Val)} {op : HloOp τ sig Val} (hops : ops = pre ++ op :: post)
    (later : List (HloOp τ sig Val)) : ops ++ later = pre ++ op :: (post ++ later) := by
  rw [hops, List.append_assoc, List.cons_append]

/-! ## An operation's defining equation on the final contents -/

section Final

variable {ops pre post : List (HloOp τ sig Val)} {Wl : List (Ref sig .tc)} (V : Valuation τ sig Val)

/-- NULLARY: `W y = v`. -/
theorem nullary_final {y : Ref sig .tc} {v : y.ty.Contents Val} {hy}
    (hops : ops = pre ++ nullary (τ := τ) y v hy :: post) (hW : WritesIn post Wl) (hyW : y ∉ Wl) :
    after ops V (Proc.devRef .tc y) = v := by
  subst hops
  rw [after_split_keep pre post _ V hW hyW, nullary_result]

/-- UNARY: `W y = f (W x)`. -/
theorem unary_final {x y : Ref sig .tc} {f : x.ty.Contents Val → y.ty.Contents Val} {hx hy}
    (hops : ops = pre ++ unary (τ := τ) x y f hx hy :: post) (hW : WritesIn post Wl)
    (hyW : y ∉ Wl) (hxW : x ∉ Wl) (hxy : x ≠ y) :
    after ops V (Proc.devRef .tc y) = f (after ops V (Proc.devRef .tc x)) := by
  subst hops
  rw [after_split_keep pre post _ V hW hyW, after_split_keep pre post _ V hW hxW, unary_result,
    unary_result_ne x y f hx hy _ hxy]

/-- BINARY: `W y = f (W a) (W b)`. -/
theorem binary_final {a b y : Ref sig .tc} {f : a.ty.Contents Val → b.ty.Contents Val → y.ty.Contents Val} {ha hb hy}
    (hops : ops = pre ++ binary (τ := τ) a b y f ha hb hy :: post) (hW : WritesIn post Wl)
    (hyW : y ∉ Wl) (haW : a ∉ Wl) (hbW : b ∉ Wl) (hay : a ≠ y) (hby : b ≠ y) :
    after ops V (Proc.devRef .tc y) = f (after ops V (Proc.devRef .tc a)) (after ops V (Proc.devRef .tc b)) := by
  subst hops
  rw [after_split_keep pre post _ V hW hyW, after_split_keep pre post _ V hW haW,
    after_split_keep pre post _ V hW hbW, binary_result, binary_result_ne a b y f ha hb hy _ hay,
    binary_result_ne a b y f ha hb hy _ hby]

/-- TERNARY: `W y = f (W c) (W a) (W b)`. -/
theorem ternary_final {c a b y : Ref sig .tc}
    {f : c.ty.Contents Val → a.ty.Contents Val → b.ty.Contents Val → y.ty.Contents Val} {hc ha hb hy}
    (hops : ops = pre ++ ternary (τ := τ) c a b y f hc ha hb hy :: post) (hW : WritesIn post Wl)
    (hyW : y ∉ Wl) (hcW : c ∉ Wl) (haW : a ∉ Wl) (hbW : b ∉ Wl) (hcy : c ≠ y) (hay : a ≠ y) (hby : b ≠ y) :
    after ops V (Proc.devRef .tc y)
      = f (after ops V (Proc.devRef .tc c)) (after ops V (Proc.devRef .tc a)) (after ops V (Proc.devRef .tc b)) := by
  subst hops
  rw [after_split_keep pre post _ V hW hyW, after_split_keep pre post _ V hW hcW,
    after_split_keep pre post _ V hW haW, after_split_keep pre post _ V hW hbW, ternary_result,
    ternary_result_ne a b c y f hc ha hb hy _ hcy, ternary_result_ne a b c y f hc ha hb hy _ hay,
    ternary_result_ne a b c y f hc ha hb hy _ hby]

/-- QUATERNARY: `W y = f (W a) (W b) (W c) (W e)`. -/
theorem quaternary_final {a b c e y : Ref sig .tc}
    {f : a.ty.Contents Val → b.ty.Contents Val → c.ty.Contents Val → e.ty.Contents Val → y.ty.Contents Val}
    {ha hb hc he hy}
    (hops : ops = pre ++ quaternary (τ := τ) a b c e y f ha hb hc he hy :: post) (hW : WritesIn post Wl)
    (hyW : y ∉ Wl) (haW : a ∉ Wl) (hbW : b ∉ Wl) (hcW : c ∉ Wl) (heW : e ∉ Wl)
    (hay : a ≠ y) (hby : b ≠ y) (hcy : c ≠ y) (hey : e ≠ y) :
    after ops V (Proc.devRef .tc y)
      = f (after ops V (Proc.devRef .tc a)) (after ops V (Proc.devRef .tc b)) (after ops V (Proc.devRef .tc c))
          (after ops V (Proc.devRef .tc e)) := by
  subst hops
  rw [after_split_keep pre post _ V hW hyW, after_split_keep pre post _ V hW haW,
    after_split_keep pre post _ V hW hbW, after_split_keep pre post _ V hW hcW,
    after_split_keep pre post _ V hW heW, quaternary_result,
    quaternary_result_ne a b c e y f ha hb hc he hy _ hay, quaternary_result_ne a b c e y f ha hb hc he hy _ hby,
    quaternary_result_ne a b c e y f ha hb hc he hy _ hcy, quaternary_result_ne a b c e y f ha hb hc he hy _ hey]

/-- RESHAPE: `W y` is `W x` recast to `y`'s shape. -/
theorem reshape_final {x y : Ref sig .tc} {he : x.ty.elt = y.ty.elt} {hn : x.ty.shape.ShapeCasts y.ty.shape} {hx hy}
    (hops : ops = pre ++ reshape (τ := τ) (Val := Val) x y he hn hx hy :: post) (hW : WritesIn post Wl)
    (hyW : y ∉ Wl) (hxW : x ∉ Wl) (hxy : x ≠ y) :
    after ops V (Proc.devRef .tc y)
      = fun i => he ▸ shapeCast y.ty.shape (after ops V (Proc.devRef .tc x)) hn i := by
  subst hops
  rw [after_split_keep pre post _ V hW hyW, after_split_keep pre post _ V hW hxW, reshape_result,
    reshape_result_ne x y he hn hx hy _ hxy]

end Final

/-! ## A stretch with its result references in order

For a stretch of the program state ONCE that its operations write, one each and in order, the buffers of the references
`Wl` (`Outs ops Wl`: one `rfl` per operation, the tactic `outs_in_order`). Then what follows position `p` writes
only `Wl.drop (p + 1)`, with no further pass over the operations, and an operation is addressed by its position. -/

/-- The operations of the line write one buffer each: the buffers of the references `Wl`, in order. -/
def Outs (ops : List (HloOp τ sig Val)) (Wl : List (Ref sig .tc)) : Prop :=
  List.Forall₂ (fun op y => op.writes = {Proc.devRef (τ := τ) .tc y}) ops Wl

/-- The empty line, the empty list. -/
theorem Outs.nil : Outs ([] : List (HloOp τ sig Val)) [] := List.Forall₂.nil

/-- One more operation in front, its result reference in front. -/
theorem Outs.cons {op : HloOp τ sig Val} {ops : List (HloOp τ sig Val)} {Wl : List (Ref sig .tc)} {y : Ref sig .tc}
    (h : op.writes = {Proc.devRef .tc y}) (hr : Outs ops Wl) : Outs (op :: ops) (y :: Wl) :=
  List.Forall₂.cons h hr

/-- The list of result references holds the line's writes. -/
theorem Outs.writesIn {ops : List (HloOp τ sig Val)} {Wl : List (Ref sig .tc)} (h : Outs ops Wl) : WritesIn ops Wl := by
  induction h with
  | nil => exact WritesIn.nil
  | cons h _ ih => exact WritesIn.cons_head h ih

/-- What follows position `k` writes the references that follow position `k`. -/
theorem Outs.drop {ops : List (HloOp τ sig Val)} {Wl : List (Ref sig .tc)} (h : Outs ops Wl) (k : Nat) :
    Outs (ops.drop k) (Wl.drop k) :=
  List.forall₂_drop k h

/-- The first `k` operations write the first `k` references. -/
theorem Outs.take {ops : List (HloOp τ sig Val)} {Wl : List (Ref sig .tc)} (h : Outs ops Wl) (k : Nat) :
    Outs (ops.take k) (Wl.take k) :=
  List.forall₂_take k h

/-- Two stretches in a row. -/
theorem Outs.append {l₁ l₂ : List (HloOp τ sig Val)} {W₁ W₂ : List (Ref sig .tc)} (h₁ : Outs l₁ W₁) (h₂ : Outs l₂ W₂) :
    Outs (l₁ ++ l₂) (W₁ ++ W₂) := by
  induction h₁ with
  | nil => exact h₂
  | cons h _ ih => exact Outs.cons h ih

/-- Proves `Outs ops Wl` for a written-out line `ops` of operations that each write one buffer and the list `Wl` of
    their result references in the same order. -/
macro "outs_in_order" : tactic =>
  `(tactic| repeat (first | exact Outs.nil | refine Outs.cons rfl ?_))

/-- A line split at the operation in position `p`. -/
theorem split_at {ops : List (HloOp τ sig Val)} {p : Nat} {op : HloOp τ sig Val} (hp : ops[p]? = some op) :
    ops = ops.take p ++ op :: ops.drop (p + 1) := by
  obtain ⟨h, rfl⟩ := List.getElem?_eq_some_iff.mp hp
  rw [← List.drop_eq_getElem_cons h, List.take_append_drop]

/-- In a list of references without repetition, the one at position `p` does not occur after position `p`: a stretch
    that writes every buffer once never writes an operation's result again. -/
theorem not_mem_drop_succ_of_nodup {Wl : List (Ref sig .tc)} (hn : Wl.Nodup) {p : Nat} {y : Ref sig .tc}
    (hy : Wl[p]? = some y) : y ∉ Wl.drop (p + 1) := by
  obtain ⟨h, rfl⟩ := List.getElem?_eq_some_iff.mp hy
  have hd : (Wl.drop p).Nodup := List.Nodup.sublist (List.drop_sublist p Wl) hn
  rw [List.drop_eq_getElem_cons h] at hd
  exact (List.nodup_cons.mp hd).1

section At

variable {ops : List (HloOp τ sig Val)} {Wl : List (Ref sig .tc)} (V : Valuation τ sig Val)

/-- NULLARY at position `p` of a stretch: `W y = v`. -/
theorem nullary_at (hO : Outs ops Wl) (p : Nat) {y : Ref sig .tc} {v : y.ty.Contents Val} {hy}
    (hp : ops[p]? = some (nullary (τ := τ) y v hy)) (hyW : y ∉ Wl.drop (p + 1)) :
    after ops V (Proc.devRef .tc y) = v :=
  nullary_final V (split_at hp) (hO.drop (p + 1)).writesIn hyW

/-- UNARY at position `p` of a stretch: `W y = f (W x)`. -/
theorem unary_at (hO : Outs ops Wl) (p : Nat) {x y : Ref sig .tc} {f : x.ty.Contents Val → y.ty.Contents Val} {hx hy}
    (hp : ops[p]? = some (unary (τ := τ) x y f hx hy)) (hyW : y ∉ Wl.drop (p + 1)) (hxW : x ∉ Wl.drop (p + 1))
    (hxy : x ≠ y) :
    after ops V (Proc.devRef .tc y) = f (after ops V (Proc.devRef .tc x)) :=
  unary_final V (split_at hp) (hO.drop (p + 1)).writesIn hyW hxW hxy

/-- BINARY at position `p` of a stretch: `W y = f (W a) (W b)`. -/
theorem binary_at (hO : Outs ops Wl) (p : Nat) {a b y : Ref sig .tc} {f : a.ty.Contents Val → b.ty.Contents Val → y.ty.Contents Val} {ha hb hy}
    (hp : ops[p]? = some (binary (τ := τ) a b y f ha hb hy)) (hyW : y ∉ Wl.drop (p + 1)) (haW : a ∉ Wl.drop (p + 1))
    (hbW : b ∉ Wl.drop (p + 1)) (hay : a ≠ y) (hby : b ≠ y) :
    after ops V (Proc.devRef .tc y) = f (after ops V (Proc.devRef .tc a)) (after ops V (Proc.devRef .tc b)) :=
  binary_final V (split_at hp) (hO.drop (p + 1)).writesIn hyW haW hbW hay hby

/-- TERNARY at position `p` of a stretch: `W y = f (W c) (W a) (W b)`. -/
theorem ternary_at (hO : Outs ops Wl) (p : Nat) {c a b y : Ref sig .tc}
    {f : c.ty.Contents Val → a.ty.Contents Val → b.ty.Contents Val → y.ty.Contents Val} {hc ha hb hy}
    (hp : ops[p]? = some (ternary (τ := τ) c a b y f hc ha hb hy)) (hyW : y ∉ Wl.drop (p + 1))
    (hcW : c ∉ Wl.drop (p + 1)) (haW : a ∉ Wl.drop (p + 1)) (hbW : b ∉ Wl.drop (p + 1))
    (hcy : c ≠ y) (hay : a ≠ y) (hby : b ≠ y) :
    after ops V (Proc.devRef .tc y)
      = f (after ops V (Proc.devRef .tc c)) (after ops V (Proc.devRef .tc a)) (after ops V (Proc.devRef .tc b)) :=
  ternary_final V (split_at hp) (hO.drop (p + 1)).writesIn hyW hcW haW hbW hcy hay hby

/-- RESHAPE at position `p` of a stretch. -/
theorem reshape_at (hO : Outs ops Wl) (p : Nat) {x y : Ref sig .tc} {he : x.ty.elt = y.ty.elt} {hn : x.ty.shape.ShapeCasts y.ty.shape} {hx hy}
    (hp : ops[p]? = some (reshape (τ := τ) (Val := Val) x y he hn hx hy)) (hyW : y ∉ Wl.drop (p + 1))
    (hxW : x ∉ Wl.drop (p + 1)) (hxy : x ≠ y) :
    after ops V (Proc.devRef .tc y)
      = fun i => he ▸ shapeCast y.ty.shape (after ops V (Proc.devRef .tc x)) hn i :=
  reshape_final V (split_at hp) (hO.drop (p + 1)).writesIn hyW hxW hxy

end At

/-! ## Through later lines

An equation between the contents at some references survives any later line that writes none of them: with
`W' = after later W`, `W' r = W r` at each. So an operation's equation proved for its own stretch of the program holds
for the stretch followed by the later stretches. Either restate the split with `split_append`, `WritesIn.append` and
`not_mem_append` and use the lemmas above at the whole line, or carry the equation over with the lemmas below. -/

section Later

variable {later : List (HloOp τ sig Val)} {Wl : List (Ref sig .tc)} {W : Valuation τ sig Val}

/-- NULLARY through a later line. -/
theorem nullary_later {y : Ref sig .tc} {v : y.ty.Contents Val} (h : W (Proc.devRef .tc y) = v)
    (hL : WritesIn later Wl) (hyW : y ∉ Wl) : after later W (Proc.devRef .tc y) = v := by
  rw [after_keep hL hyW, h]

/-- UNARY through a later line. -/
theorem unary_later {x y : Ref sig .tc} {f : x.ty.Contents Val → y.ty.Contents Val}
    (h : W (Proc.devRef .tc y) = f (W (Proc.devRef .tc x))) (hL : WritesIn later Wl) (hyW : y ∉ Wl) (hxW : x ∉ Wl) :
    after later W (Proc.devRef .tc y) = f (after later W (Proc.devRef .tc x)) := by
  rw [after_keep hL hyW, after_keep hL hxW, h]

/-- BINARY through a later line. -/
theorem binary_later {a b y : Ref sig .tc} {f : a.ty.Contents Val → b.ty.Contents Val → y.ty.Contents Val}
    (h : W (Proc.devRef .tc y) = f (W (Proc.devRef .tc a)) (W (Proc.devRef .tc b))) (hL : WritesIn later Wl)
    (hyW : y ∉ Wl) (haW : a ∉ Wl) (hbW : b ∉ Wl) :
    after later W (Proc.devRef .tc y)
      = f (after later W (Proc.devRef .tc a)) (after later W (Proc.devRef .tc b)) := by
  rw [after_keep hL hyW, after_keep hL haW, after_keep hL hbW, h]

/-- TERNARY through a later line. -/
theorem ternary_later {c a b y : Ref sig .tc}
    {f : c.ty.Contents Val → a.ty.Contents Val → b.ty.Contents Val → y.ty.Contents Val}
    (h : W (Proc.devRef .tc y) = f (W (Proc.devRef .tc c)) (W (Proc.devRef .tc a)) (W (Proc.devRef .tc b)))
    (hL : WritesIn later Wl) (hyW : y ∉ Wl) (hcW : c ∉ Wl) (haW : a ∉ Wl) (hbW : b ∉ Wl) :
    after later W (Proc.devRef .tc y)
      = f (after later W (Proc.devRef .tc c)) (after later W (Proc.devRef .tc a))
          (after later W (Proc.devRef .tc b)) := by
  rw [after_keep hL hyW, after_keep hL hcW, after_keep hL haW, after_keep hL hbW, h]

/-- The fold of a stretch followed by a later line is the later line's fold of the stretch's. -/
theorem after_stretch (ops later : List (HloOp τ sig Val)) (V : Valuation τ sig Val) :
    after (ops ++ later) V = after later (after ops V) :=
  StableHlo.after_append ops later V

/-- BINARY, for a stretch followed by a later line that writes none of `y`, `a`, `b`: the equation on the final
    contents of the whole. -/
theorem binary_final_append {ops pre post later : List (HloOp τ sig Val)} {Wl' : List (Ref sig .tc)}
    (V : Valuation τ sig Val) {a b y : Ref sig .tc}
    {f : a.ty.Contents Val → b.ty.Contents Val → y.ty.Contents Val} {ha hb hy}
    (hops : ops = pre ++ binary (τ := τ) a b y f ha hb hy :: post) (hW : WritesIn post Wl') (hL : WritesIn later Wl)
    (hyW : y ∉ Wl') (haW : a ∉ Wl') (hbW : b ∉ Wl') (hyL : y ∉ Wl) (haL : a ∉ Wl) (hbL : b ∉ Wl)
    (hay : a ≠ y) (hby : b ≠ y) :
    after (ops ++ later) V (Proc.devRef .tc y)
      = f (after (ops ++ later) V (Proc.devRef .tc a)) (after (ops ++ later) V (Proc.devRef .tc b)) := by
  rw [after_stretch]
  exact binary_later (binary_final V hops hW hyW haW hbW hay hby) hL hyL haL hbL

end Later

end Cert.HostFold
-- ==== Proof.KernelValue.lean ====
/-
  The second kernel region's output array, and the host reshape after it.

  The region has one grid point. Each of its three input windows is the whole array (every index map is zero), so
  the block the body loads is the array as the region finds it; its output window is the whole [1,1] array, written
  back at that point, so the array ends holding what the body stored. The host operation that follows recasts the
  [1,1] array to a scalar: the scalar is the array's one entry.
-/
import proofs.«176857_j82240033784130_2_alg».proof.Proof.KernelRun
import proofs.«176857_j82240033784130_2_alg».proof.Proof.Spec
import proofs.«176857_j82240033784130_2_alg».proof.Proof.LibHostFold
import Idealize.ShloMosaic.Lib.ValueIdx
import Idealize.ShloMosaic.Lib.Pipeline.Value

set_option maxRecDepth 16384

noncomputable section

namespace Cert.KernelIdeal.ValueChain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- A rank-2 array of extended reals read at its two coordinates. -/
abbrev at2 {n0 n1 : Nat} (x : (⟨2, ![n0, n1]⟩ : Shape).Idx → EReal) (a : Fin n0) (b : Fin n1) : EReal := x (ix2 a b)
/-- A rank-3 array of extended reals read at its three coordinates. -/
abbrev at3 {n0 n1 n2 : Nat} (x : (⟨3, ![n0, n1, n2]⟩ : Shape).Idx → EReal) (a : Fin n0) (b : Fin n1) (c : Fin n2) : EReal :=
  x (ix3 a b c)

variable (V : (c : Dev nD) → (b : Ref sig .tc) → Buf (Elt Ideal) ((c : Thread nD τ).loc b))

/-! ## The second region: one point, whole-array windows -/

/-- Every index map of the second region is zero at its one point. -/
theorem idx1 : ∀ t : Fin cfg1.N,
    (win1_0.index t (0 : Fin 3) = 0 ∧ win1_0.index t (1 : Fin 3) = 0 ∧ win1_0.index t (2 : Fin 3) = 0)
    ∧ (win1_1.index t (0 : Fin 3) = 0 ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 2) = 0 ∧ win1_3.index t (1 : Fin 2) = 0) :=
  (by decide +kernel : ∀ t : Fin grid1.N, _)

/-- The block of per-core column sums the body loads is the array. -/
theorem iblk1_0_apply (c : Dev nD) (t : Fin cfg1.N) (y : S2x1x512.Idx) : iblk1 V c 0 t y = V c main_v0_0 y := by
  show V c main_v0_0 (((cfg1.win 0).blk t).view.emb y) = V c main_v0_0 y
  refine congrArg (V c main_v0_0) ?_
  obtain ⟨⟨h0, h1, h2⟩, -, -, -⟩ := idx1 t
  funext a; apply Fin.ext
  match a with
  | ⟨0, _⟩ => show win1_0.index t (0 : Fin 3) * 2 + 1 * (y 0).val = (y 0).val; omega
  | ⟨1, _⟩ => show win1_0.index t (1 : Fin 3) * 1 + 1 * (y 1).val = (y 1).val; omega
  | ⟨2, _⟩ => show win1_0.index t (2 : Fin 3) * 512 + 1 * (y 2).val = (y 2).val; omega

/-- The block of per-core Gram matrices the body loads is the array. -/
theorem iblk1_1_apply (c : Dev nD) (t : Fin cfg1.N) (y : S2x512x512.Idx) : iblk1 V c 1 t y = V c main_v0_1 y := by
  show V c main_v0_1 (((cfg1.win 1).blk t).view.emb y) = V c main_v0_1 y
  refine congrArg (V c main_v0_1) ?_
  obtain ⟨-, ⟨h0, h1, h2⟩, -, -⟩ := idx1 t
  funext a; apply Fin.ext
  match a with
  | ⟨0, _⟩ => show win1_1.index t (0 : Fin 3) * 2 + 1 * (y 0).val = (y 0).val; omega
  | ⟨1, _⟩ => show win1_1.index t (1 : Fin 3) * 512 + 1 * (y 1).val = (y 1).val; omega
  | ⟨2, _⟩ => show win1_1.index t (2 : Fin 3) * 512 + 1 * (y 2).val = (y 2).val; omega

/-- The adjacency block the body loads is the array. -/
theorem iblk1_2_apply (c : Dev nD) (t : Fin cfg1.N) (y : S512x512.Idx) : iblk1 V c 2 t y = V c main_arg1 y := by
  show V c main_arg1 (((cfg1.win 2).blk t).view.emb y) = V c main_arg1 y
  refine congrArg (V c main_arg1) ?_
  obtain ⟨-, -, ⟨h0, h1⟩, -⟩ := idx1 t
  funext a; apply Fin.ext
  match a with
  | ⟨0, _⟩ => show win1_2.index t (0 : Fin 2) * 512 + 1 * (y 0).val = (y 0).val; omega
  | ⟨1, _⟩ => show win1_2.index t (1 : Fin 2) * 512 + 1 * (y 1).val = (y 1).val; omega

/-! ## What the second region leaves in its output array -/

/-- The penalty as the second kernel's body computes it from the arrays the region finds: the per-core column sums
    and Gram matrices added over the two cores, and the adjacency. -/
def epi (c : Dev nD) : EReal :=
  Cert.Spec.OnePass.resultOf (fun j => ∑ k : Fin 2, at3 (n0 := 2) (n1 := 1) (n2 := 512) (V c main_v0_0) k 0 j)
    (fun i j => ∑ k : Fin 2, at3 (n0 := 2) (n1 := 512) (n2 := 512) (V c main_v0_1) k i j)
    (fun i j => at2 (n0 := 512) (n1 := 512) (V c main_arg1) i j)

section SecondRegion

-- what the body stores, as a function of the three blocks it loads (proved in the module on the body's value)
variable (hEpi : ∀ (x0 : Vec Ideal S2x1x512 .f32) (x1 : Vec Ideal S2x512x512 .f32) (x2 : Vec Ideal S512x512 .f32),
    out1_3 (F := Ideal) x0 x1 x2
      = fun _ => Cert.Spec.OnePass.resultOf (fun j => ∑ k : Fin 2, x0 (ix3 k 0 j))
          (fun i j => ∑ k : Fin 2, x1 (ix3 k i j)) (fun i j => x2 (ix2 i j)))

include hEpi in
/-- What the one point writes back is the constant block at the penalty. -/
theorem flushed1_3_eq (c : Dev nD) (t : Fin cfg1.N) :
    (dat1 V c).flushed 3 t = ((cfg1.win 3).blk t).view.read (Elt Ideal) (fun _ => epi V c) := by
  show (cfg1.win 3).cut (grid1.coords t) ((dat1 V c).after 3 t) = _
  rw [after1_3, hEpi]
  funext y
  show Cert.Spec.OnePass.resultOf _ _ _ = epi V c
  unfold epi
  simp only [iblk1_0_apply, iblk1_1_apply, iblk1_2_apply]

/-- The one point's output block is the whole [1,1] array. -/
theorem cover1_3_arr (i : S1x1.Idx) :
    ∃ t : Fin cfg1.N, (cfg1.win 3).flush t = true ∧ i ∈ ((cfg1.win 3).blk t).view.set := by
  refine ⟨t1_0, flush1_3 t1_0, ?_⟩
  show i ∈ ((View.whole main_v1).slice (win1_3.rect t1_0)).set
  rw [View.set_slice_whole, Rect.mem_set_unit]
  obtain ⟨-, -, -, ⟨h0, h1⟩⟩ := idx1 t1_0
  intro a
  match a with
  | ⟨0, _⟩ =>
    show win1_3.index t1_0 (0 : Fin 2) * 1 ≤ (i 0).val ∧ (i 0).val < win1_3.index t1_0 (0 : Fin 2) * 1 + 1
    have hi : (i 0).val < 1 := (i 0).isLt
    omega
  | ⟨1, _⟩ =>
    show win1_3.index t1_0 (1 : Fin 2) * 1 ≤ (i 1).val ∧ (i 1).val < win1_3.index t1_0 (1 : Fin 2) * 1 + 1
    have hi : (i 1).val < 1 := (i 1).isLt
    omega

include hEpi in
/-- The second region's output array after the run: the penalty at its one entry. -/
theorem final1_3 (c : Dev nD) : (dat1 V c).arrAt 3 cfg1.N = fun _ => epi V c :=
  (dat1 V c).arrAt_eq_of_cover 3 (fun _ => epi V c) (fun t _ => flushed1_3_eq V hEpi c t) cover1_3_arr

end SecondRegion

/-! ## The host reshape after the regions -/

/-- The scalar the reshape writes is the [1,1] array's entry. -/
theorem reshape_last (W : Valuation τ sig (Elt Ideal)) :
    StableHlo.after (hostOps2 (F := Ideal)) W (Proc.devRef .tc main_v2)
      = fun _ => W (Proc.devRef .tc main_v1) (ix2 0 0) := by
  after_results
  funext i
  show shapeCast S_ (W (Proc.devRef .tc main_v1)) shapeCasts_S1x1_S_ i = W (Proc.devRef .tc main_v1) (ix2 0 0)
  exact shapeCast_apply (W (Proc.devRef .tc main_v1)) shapeCasts_S1x1_S_ i (ix2 0 0) (by first | rfl | decide | (simp [Shape.rowMajor_val_two]))

/-! ## From the result back to the launch memory -/

/-- A row of the sample matrix from its core, its step within the core's sweep and its row within the step's block. -/
theorem row_lt (k : Fin 2) (t : Fin 8) (r : Fin 4096) : (k.val * 8 + t.val) * 4096 + r.val < 65536 := by
  have := k.isLt; have := t.isLt; have := r.isLt; omega

section Chain

variable {F : FTy → Type} [FloatOps F]
variable (m : (ℓ : Loc nD τ sig) → Buf (Elt Ideal) ℓ) (ρ : Dev nD → PrngReg)

-- what the second kernel's body stores, as a function of the three blocks it loads
variable (hEpi : ∀ (x0 : Vec Ideal S2x1x512 .f32) (x1 : Vec Ideal S2x512x512 .f32) (x2 : Vec Ideal S512x512 .f32),
    out1_3 (F := Ideal) x0 x1 x2
      = fun _ => Cert.Spec.OnePass.resultOf (fun j => ∑ k : Fin 2, x0 (ix3 k 0 j))
          (fun i j => ∑ k : Fin 2, x1 (ix3 k i j)) (fun i j => x2 (ix2 i j)))
-- the first region's two output arrays: per core, the column sums and the Gram matrix of that core's rows
variable (hSums : ∀ (V : (c : Dev nD) → (b : Ref sig .tc) → Buf (Elt Ideal) ((c : Thread nD τ).loc b)) (c : Dev nD) (k : Fin 2) (j : Fin 512),
    at3 (n0 := 2) (n1 := 1) (n2 := 512) ((dat0 (F := Ideal) V c).arrAt 1 cfg0.N) k 0 j
      = ∑ t : Fin 8, ∑ r : Fin 4096, at2 (n0 := 65536) (n1 := 512) (V c main_arg0) ⟨(k.val * 8 + t.val) * 4096 + r.val, row_lt k t r⟩ j)
variable (hGram : ∀ (V : (c : Dev nD) → (b : Ref sig .tc) → Buf (Elt Ideal) ((c : Thread nD τ).loc b)) (c : Dev nD) (k : Fin 2) (i j : Fin 512),
    at3 (n0 := 2) (n1 := 512) (n2 := 512) ((dat0 (F := Ideal) V c).arrAt 2 cfg0.N) k i j
      = ∑ t : Fin 8, ∑ r : Fin 4096, at2 (n0 := 65536) (n1 := 512) (V c main_arg0) ⟨(k.val * 8 + t.val) * 4096 + r.val, row_lt k t r⟩ i
          * at2 (n0 := 65536) (n1 := 512) (V c main_arg0) ⟨(k.val * 8 + t.val) * 4096 + r.val, row_lt k t r⟩ j)
-- a sum over all rows, taken core by core, step by step, row by row
variable (hBlocks : ∀ f : Fin 65536 → EReal,
    ∑ n : Fin 65536, f n = ∑ k : Fin 2, ∑ t : Fin 8, ∑ r : Fin 4096, f ⟨(k.val * 8 + t.val) * 4096 + r.val, row_lt k t r⟩)

include hEpi hSums hGram hBlocks in
/-- The result buffer's last contents: the single-pass penalty of the launch contents of the two arguments. -/
theorem last_value (c : Dev nD) :
    W3 m ρ c (Proc.devRef .tc main_v2)
      = fun _ => Cert.Spec.OnePass.result (fun i j => at2 (n0 := 512) (n1 := 512) (m ((c : Thread nD τ).loc main_arg1)) i j)
          (fun n j => at2 (n0 := 65536) (n1 := 512) (m ((c : Thread nD τ).loc main_arg0)) n j) := by
  show StableHlo.after (hostOps2 (F := Ideal)) (W2 m ρ c) (Proc.devRef .tc main_v2) = _
  rw [reshape_last]
  have h2 : W2 m ρ c (Proc.devRef .tc main_v1) = fun _ => epi (V1 m ρ) c :=
    (W2_arr m ρ c 3).trans (final1_3 (V1 m ρ) hEpi c)
  rw [h2]
  funext _
  show epi (V1 m ρ) c = _
  unfold epi Cert.Spec.OnePass.result
  have hA : (V1 m ρ c main_arg1 : S512x512.Idx → EReal) = m ((c : Thread nD τ).loc main_arg1) :=
    W1_of_ne m ρ c main_arg1 (by decide)
  have h0 : (V1 m ρ c main_v0_0 : S2x1x512.Idx → EReal) = (dat0 (V0 m ρ) c).arrAt 1 cfg0.N := W1_arr m ρ c 1
  have h1 : (V1 m ρ c main_v0_1 : S2x512x512.Idx → EReal) = (dat0 (V0 m ρ) c).arrAt 2 cfg0.N := W1_arr m ρ c 2
  rw [hA, h0, h1]
  have hX : (V0 m ρ c main_arg0 : S65536x512.Idx → EReal) = m ((c : Thread nD τ).loc main_arg0) := rfl
  refine congrArg₂ (fun s1 s2 => Cert.Spec.OnePass.resultOf s1 s2 _) ?_ ?_
  · funext j
    unfold Cert.Spec.OnePass.colSum
    rw [hBlocks]
    exact Finset.sum_congr rfl fun k _ => hSums (V0 m ρ) c k j
  · funext i j
    unfold Cert.Spec.OnePass.gram
    rw [hBlocks]
    exact Finset.sum_congr rfl fun k _ => hGram (V0 m ρ) c k i j

end Chain

end Cert.KernelIdeal.ValueChain

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«176857_j82240033784130_2_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.Finite.lean ====
/-
  The precondition read back: when the "all inputs finite" predicate is constantly 1, every entry of both argument
  arrays is a real number.

  The predicate is the "and" of two scalars, one per argument; each is the reduction by "and", over both axes, of the
  entrywise comparison |x| < +infinity. A conjunction that is 1 has both conjuncts 1; a reduction by "and" that is 1 met
  only 1s; and |x| < +infinity says x is neither infinity.
-/
import proofs.«176857_j82240033784130_2_alg».proof.Pre_finite_inputs
import proofs.«176857_j82240033784130_2_alg».proof.Proof.LibPreDecode

noncomputable section

namespace Cert.FiniteInputs

open Idealize.ShloMosaic Cert.PreDecodeLib Cert.Finite Cert.Pre_finite_inputs

variable [hP : Cert.Pre_finite_inputs.Facts]

/-- Both argument arrays hold real numbers only. -/
theorem allReal_of_pre (x : FVec Ideal S65536x512 .f32) (a : FVec Ideal S512x512 .f32)
    (h : Cert.Pre_finite_inputs.fn (F := Ideal) x a = fun _ => 1#1) : AllReal x ∧ AllReal a := by
  dsimp only [Cert.Pre_finite_inputs.fn] at h
  obtain ⟨hx, ha⟩ := andi_eq_one h
  exact ⟨finite_of_all_eq x Facts.bcast_S_S65536x512 Facts.reducesTo_S65536x512_S_d0_1 Facts.h_S_ hx,
    finite_of_all_eq a Facts.bcast_S_S512x512 Facts.reducesTo_S512x512_S_d0_1 Facts.h_S_ ha⟩

end Cert.FiniteInputs

end
-- ==== Proof.BridgeAlg.lean ====
/-
  The scatter matrix of a sample, on the real numbers.

  For samples `x n j` (`n` over a finite type of `N` samples, `j` over the features), column means
  `μ j = (∑ₙ x n j) / N` and centred samples `c n j = x n j - μ j`:

  * `∑ₙ c n i · c n j = ∑ₙ x n i · x n j - N μ i μ j`: the scatter matrix from the Gram matrix and the column sums;
  * the centred samples have column sums zero, so centring them again changes nothing;
  * centring commutes with a linear map of the features: the centred residuals of `x (I - a)` are `c (I - a)`;

  hence `C (I - a) = cᵀ (c (I - a))`, and `(I - a)ᵀ C (I - a)` is the Gram matrix of the centred residuals, whose
  diagonal is their sums of squares.

  Every definition below mirrors, on the reals and over arbitrary finite index types, the definition of the same
  name over the extended reals that the two arrangements are written with.
-/
import Mathlib.Analysis.SpecialFunctions.Pow.Real
import Mathlib.Algebra.BigOperators.Group.Finset.Basic
import Mathlib.Algebra.BigOperators.Field

noncomputable section

open scoped BigOperators

namespace Cert.BridgeAlg

variable {ι κ : Type*} [Fintype ι] [Fintype κ] [DecidableEq κ]

/-! ## The identity matrix -/

/-- The identity matrix's entry. -/
def eye (i j : κ) : ℝ := if i = j then 1 else 0

/-- Summing a row against the identity's row `i` picks the entry `i`. -/
theorem sum_mul_eye_right (f : κ → ℝ) (i : κ) : ∑ j, f j * eye i j = f i := by
  simp [eye]

/-- Summing a column against the identity's column `j` picks the entry `j`. -/
theorem sum_mul_eye_left (f : κ → ℝ) (j : κ) : ∑ i, f i * eye i j = f j := by
  simp [eye]

/-! ## The single-pass arrangement -/

section OnePass

variable (N : ℝ) (s1 : κ → ℝ) (s2 : κ → κ → ℝ) (a : κ → κ → ℝ)

/-- Column means, from the column sums. -/
def mu (j : κ) : ℝ := s1 j / N
/-- The scatter matrix `s2 - N μ μᵀ`. -/
def C (i j : κ) : ℝ := s2 i j - N * (mu N s1 i * mu N s1 j)
/-- `I - a`. -/
def B (k j : κ) : ℝ := eye k j - a k j
/-- `C (I - a)`. -/
def CB (i j : κ) : ℝ := ∑ k, C N s1 s2 i k * B a k j
/-- `(I - a)ᵀ C (I - a)`. -/
def BCB (i j : κ) : ℝ := ∑ k, B a k i * CB N s1 s2 a k j

end OnePass

/-- Column sums of the samples. -/
def colSum (x : ι → κ → ℝ) (j : κ) : ℝ := ∑ n, x n j
/-- The Gram matrix of the samples. -/
def gram (x : ι → κ → ℝ) (i j : κ) : ℝ := ∑ n, x n i * x n j

/-! ## The two-pass arrangement -/

section TwoPass

variable (N : ℝ) (x : ι → κ → ℝ) (a : κ → κ → ℝ)

/-- Column means of an array of samples. -/
def mean (z : ι → κ → ℝ) (j : κ) : ℝ := (∑ n, z n j) / N
/-- The array centred by its column means. -/
def cen (z : ι → κ → ℝ) (n : ι) (j : κ) : ℝ := z n j - mean N z j
/-- The centred squares of a column, summed. -/
def ssq (z : ι → κ → ℝ) (j : κ) : ℝ := ∑ n, cen N z n j * cen N z n j
/-- `x a`. -/
def XA (n : ι) (j : κ) : ℝ := ∑ k, x n k * a k j
/-- The residuals `x - x a`. -/
def res (n : ι) (j : κ) : ℝ := x n j - XA x a n j
/-- The cross products of the centred samples and the centred residuals. -/
def M (i j : κ) : ℝ := ∑ n, cen N x n i * cen N (res x a) n j

end TwoPass

/-! ## Centring -/

section Laws

variable (N : ℝ) (hN : (Fintype.card ι : ℝ) = N) (hN0 : N ≠ 0)
include hN hN0

/-- A column less its mean sums to zero. -/
theorem sum_sub_mean (u : ι → ℝ) : ∑ n, (u n - (∑ m, u m) / N) = 0 := by
  rw [Finset.sum_sub_distrib, Finset.sum_const, Finset.card_univ, nsmul_eq_mul, hN, mul_div_cancel₀ _ hN0,
    sub_self]

/-- The products of two centred columns sum to the sum of the products less `N` times the product of the means. -/
theorem sum_cen_mul_cen (u v : ι → ℝ) :
    ∑ n, (u n - (∑ m, u m) / N) * (v n - (∑ m, v m) / N)
      = ∑ n, u n * v n - N * ((∑ m, u m) / N * ((∑ m, v m) / N)) := by
  have e : ∀ n, (u n - (∑ m, u m) / N) * (v n - (∑ m, v m) / N)
      = u n * v n - (∑ m, v m) / N * u n - (∑ m, u m) / N * v n + (∑ m, u m) / N * ((∑ m, v m) / N) := by
    intro n
    ring
  simp only [e]
  rw [Finset.sum_add_distrib, Finset.sum_sub_distrib, Finset.sum_sub_distrib, ← Finset.mul_sum, ← Finset.mul_sum,
    Finset.sum_const, Finset.card_univ, nsmul_eq_mul, hN]
  field_simp
  ring

/-- The scatter matrix of the single pass is the Gram matrix of the centred samples. -/
theorem scatter (x : ι → κ → ℝ) (i j : κ) :
    C N (colSum x) (gram x) i j = ∑ n, cen N x n i * cen N x n j := by
  unfold C mu colSum gram cen mean
  exact (sum_cen_mul_cen N hN hN0 _ _).symm

/-- A centred array has column means zero. -/
theorem mean_cen (z : ι → κ → ℝ) (j : κ) : mean N (cen N z) j = 0 := by
  unfold mean cen mean
  rw [sum_sub_mean N hN hN0, zero_div]

/-- Centring a centred array changes nothing. -/
theorem cen_cen (z : ι → κ → ℝ) : cen N (cen N z) = cen N z := by
  funext n j
  show cen N z n j - mean N (cen N z) j = cen N z n j
  rw [mean_cen N hN hN0, sub_zero]

end Laws

/-! ## The residuals -/

section Residuals

variable (N : ℝ) (x : ι → κ → ℝ) (a : κ → κ → ℝ)

/-- The residuals are the samples times `I - a`. -/
theorem res_eq (n : ι) (j : κ) : res x a n j = ∑ k, x n k * B a k j := by
  unfold res XA B
  simp only [mul_sub, Finset.sum_sub_distrib]
  rw [sum_mul_eye_left]

/-- The residuals' column means are the samples' column means times `I - a`. -/
theorem mean_res (j : κ) : mean N (res x a) j = ∑ k, mean N x k * B a k j := by
  unfold mean
  simp only [res_eq]
  rw [Finset.sum_comm, Finset.sum_div]
  refine Finset.sum_congr rfl fun k _ => ?_
  rw [← Finset.sum_mul]
  ring

/-- The centred residuals are the centred samples times `I - a`. -/
theorem cen_res (n : ι) (j : κ) : cen N (res x a) n j = ∑ k, cen N x n k * B a k j := by
  show res x a n j - mean N (res x a) j = ∑ k, cen N x n k * B a k j
  rw [res_eq, mean_res, ← Finset.sum_sub_distrib]
  refine Finset.sum_congr rfl fun k _ => ?_
  unfold cen
  ring

/-- Moving a row vector through a sum of products: `∑ₖ bₖ ∑ₙ cₙₖ wₙ = ∑ₙ (∑ₖ cₙₖ bₖ) wₙ`. -/
theorem sum_mul_sum_comm (c : ι → κ → ℝ) (b : κ → ℝ) (w : ι → ℝ) :
    ∑ k, b k * ∑ n, c n k * w n = ∑ n, (∑ k, c n k * b k) * w n := by
  simp only [Finset.mul_sum, Finset.sum_mul]
  rw [Finset.sum_comm]
  refine Finset.sum_congr rfl fun n _ => Finset.sum_congr rfl fun k _ => ?_
  ring

end Residuals

/-! ## The single pass's matrices are the two passes' -/

section Agree

variable (N : ℝ) (hN : (Fintype.card ι : ℝ) = N) (hN0 : N ≠ 0) (x : ι → κ → ℝ) (a : κ → κ → ℝ)
include hN hN0

/-- `C (I - a)` is the cross products of the centred samples and the centred residuals. -/
theorem CB_eq_M (i j : κ) : CB N (colSum x) (gram x) a i j = M N x a i j := by
  unfold CB M
  simp only [scatter N hN hN0, cen_res, Finset.mul_sum, Finset.sum_mul]
  rw [Finset.sum_comm]
  refine Finset.sum_congr rfl fun n _ => Finset.sum_congr rfl fun k _ => ?_
  ring

/-- `(I - a)ᵀ C (I - a)` is the Gram matrix of the centred residuals. -/
theorem BCB_eq (i j : κ) :
    BCB N (colSum x) (gram x) a i j = ∑ n, cen N (res x a) n i * cen N (res x a) n j := by
  unfold BCB
  simp only [CB_eq_M N hN hN0]
  unfold M
  refine (sum_mul_sum_comm (cen N x) (fun k => B a k i) (fun n => cen N (res x a) n j)).trans ?_
  refine Finset.sum_congr rfl fun n _ => ?_
  rw [← cen_res]

/-- The scatter matrix's diagonal, read along a row, is the centred squares summed. -/
theorem diag_row (i : κ) : ∑ j, C N (colSum x) (gram x) i j * eye i j = ssq N x i := by
  rw [sum_mul_eye_right, scatter N hN hN0]
  rfl

/-- The scatter matrix's diagonal, read along a column, is the centred squares summed. -/
theorem diag_col (j : κ) : ∑ i, C N (colSum x) (gram x) i j * eye i j = ssq N x j := by
  rw [sum_mul_eye_left (fun i => C N (colSum x) (gram x) i j), scatter N hN hN0]
  rfl

/-- The centred squares of a centred array are those of the array. -/
theorem ssq_cen (z : ι → κ → ℝ) : ssq N (cen N z) = ssq N z := by
  unfold ssq
  rw [cen_cen N hN hN0]

/-- The diagonal of `(I - a)ᵀ C (I - a)`, read along a column, is the centred squares of the centred residuals. -/
theorem diag_BCB (j : κ) :
    ∑ i, BCB N (colSum x) (gram x) a i j * eye i j = ssq N (cen N (res x a)) j := by
  rw [sum_mul_eye_left (fun i => BCB N (colSum x) (gram x) a i j), BCB_eq N hN hN0, ssq_cen N hN hN0]
  rfl

end Agree

end Cert.BridgeAlg

end
-- ==== Proof.BridgeSums.lean ====
/-
  A sum over `65536` consecutive indices, re-blocked as `2 × 8` blocks of `4096`.

  Addition of extended reals is commutative and associative with no finiteness needed, so a finite sum may be
  regrouped freely: a sum over `Fin (a * b)` is the sum over `i : Fin a` of the sums over `j : Fin b` of the
  terms at `i * b + j`.
-/
import proofs.«176857_j82240033784130_2_alg».proof.Proof.Spec
import Mathlib.Logic.Equiv.Fin.Basic
import Mathlib.Data.Fintype.BigOperators

open scoped BigOperators

namespace Cert.Bridge

/-- The position `i * b + j` of entry `j` of block `i` is below `a * b`. -/
theorem block_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- A sum over `N = a * b` consecutive indices is the sum over the `a` blocks of the sums within each block. -/
theorem sum_fin_blocks {M : Type*} [AddCommMonoid M] {N : ℕ} (a b : ℕ) (h : N = a * b) (f : Fin N → M) :
    ∑ n, f n = ∑ i : Fin a, ∑ j : Fin b, f ⟨i.val * b + j.val, h ▸ block_lt i j⟩ := by
  subst h
  rw [← Fintype.sum_prod_type (f := fun p : Fin a × Fin b => f ⟨p.1.val * b + p.2.val, block_lt p.1 p.2⟩),
    ← Equiv.sum_comp finProdFinEquiv f]
  refine Finset.sum_congr rfl fun p _ => congrArg f (Fin.ext ?_)
  show p.2.val + b * p.1.val = p.1.val * b + p.2.val
  rw [Nat.mul_comm, Nat.add_comm]

/-- The position of sample `r` of tile `t` of half `c`. -/
theorem row_lt (c : Fin 2) (t : Fin 8) (r : Fin 4096) : (c.val * 8 + t.val) * 4096 + r.val < 65536 := by
  omega

/-- The sum over the `65536` samples, as two halves of eight tiles of `4096` samples. -/
theorem sum_blocks (f : Fin 65536 → EReal) :
    ∑ n : Fin 65536, f n
      = ∑ c : Fin 2, ∑ t : Fin 8, ∑ r : Fin 4096, f ⟨(c.val * 8 + t.val) * 4096 + r.val, by omega⟩ := by
  rw [sum_fin_blocks 16 4096 (by norm_num) f,
    sum_fin_blocks 2 8 (by norm_num) (fun i : Fin 16 => ∑ j : Fin 4096, f ⟨i.val * 4096 + j.val, _⟩)]

end Cert.Bridge
-- ==== Proof.Bridge.lean ====
/-
  On finite samples the single-pass and the two-pass arrangements of the orientation penalty agree.

  Both arrangements end in the same closing expression, so it is enough that the statistics they hand to it agree:
  the variances read off the scatter matrix's diagonal (by row and by column) are the unbiased variances of the
  centred samples, centring an array that is already centred changes nothing, the diagonal of
  `(I - A)ᵀ C (I - A)` holds the centred residuals' sums of squares, and `C (I - A)` is the cross products of the
  centred samples and the centred residuals.

  Distributivity fails on the extended reals at the infinities, so each identity is an identity of real numbers
  (proved over arbitrary finite index types in the module of the real laws) carried over: with every entry finite,
  each quantity of either arrangement is the coercion of the real quantity of the same name.
-/
import proofs.«176857_j82240033784130_2_alg».proof.Proof.Spec
import proofs.«176857_j82240033784130_2_alg».proof.Proof.LibFinite
import proofs.«176857_j82240033784130_2_alg».proof.Proof.BridgeAlg
import proofs.«176857_j82240033784130_2_alg».proof.Proof.BridgeSums

noncomputable section

open scoped BigOperators

namespace Cert.Bridge

open Idealize.ShloMosaic Cert.Spec Cert.Finite

/-! ## The literals -/

/-- The pattern of `65536.0` is the real `65536`. -/
theorem nn_eq : nn = ((65536 : ℝ) : EReal) := by
  show Ideal.ofBits .f32 0x47800000#32 = ((65536 : ℝ) : EReal)
  simp [Ideal.ofBits, Ideal.ieee, -EReal.coe_mul]; norm_num

/-- The pattern of `65535.0` is the real `65535`. -/
theorem nm1_eq : nm1 = ((65535 : ℝ) : EReal) := by
  show Ideal.ofBits .f32 0x477FFF00#32 = ((65535 : ℝ) : EReal)
  simp [Ideal.ofBits, Ideal.ieee, -EReal.coe_mul]; norm_num

/-- `65536` less the integer one is the real `65535` too. -/
theorem nm1'_eq : nm1' = ((65535 : ℝ) : EReal) := by
  show nn - ((1 : ℝ) : EReal) = ((65535 : ℝ) : EReal)
  rw [nn_eq, ← EReal.coe_sub]
  norm_num

/-- There are `65536` samples. -/
theorem card_samples : ((Fintype.card (Fin 65536) : ℕ) : ℝ) = 65536 := by
  rw [Fintype.card_fin]
  norm_num

/-- The identity matrix's entry is the real one's. -/
theorem eye_coe (i j : Fin 512) : eye i j = ((BridgeAlg.eye i j : ℝ) : EReal) := by
  unfold eye BridgeAlg.eye
  split_ifs
  · exact EReal.coe_one.symm
  · exact EReal.coe_zero.symm

/-! ## The single-pass quantities on real entries -/

section OnePassCoe

variable (s1 : Fin 512 → ℝ) (s2 : Fin 512 → Fin 512 → ℝ) (a : Fin 512 → Fin 512 → ℝ)

theorem mu_coe (j : Fin 512) :
    OnePass.mu (fun j => (s1 j : EReal)) j = ((BridgeAlg.mu 65536 s1 j : ℝ) : EReal) := by
  show Ideal.div (s1 j : EReal) nn = ((s1 j / 65536 : ℝ) : EReal)
  rw [nn_eq]
  exact div_coe_coe _ (by norm_num)

theorem C_coe (i j : Fin 512) :
    OnePass.C (fun j => (s1 j : EReal)) (fun i j => (s2 i j : EReal)) i j
      = ((BridgeAlg.C 65536 s1 s2 i j : ℝ) : EReal) := by
  show (s2 i j : EReal) - nn * (OnePass.mu (fun j => (s1 j : EReal)) i * OnePass.mu (fun j => (s1 j : EReal)) j)
    = ((s2 i j - 65536 * (BridgeAlg.mu 65536 s1 i * BridgeAlg.mu 65536 s1 j) : ℝ) : EReal)
  rw [mu_coe, mu_coe, nn_eq, ← EReal.coe_mul, ← EReal.coe_mul, ← EReal.coe_sub]

theorem vrow_coe (i : Fin 512) :
    OnePass.vrow (fun j => (s1 j : EReal)) (fun i j => (s2 i j : EReal)) i
      = (((∑ j, BridgeAlg.C 65536 s1 s2 i j * BridgeAlg.eye i j) / 65535 : ℝ) : EReal) := by
  unfold OnePass.vrow
  simp only [C_coe, eye_coe, ← EReal.coe_mul]
  rw [← coe_sum, nm1_eq]
  exact div_coe_coe _ (by norm_num)

theorem vcol_coe (j : Fin 512) :
    OnePass.vcol (fun j => (s1 j : EReal)) (fun i j => (s2 i j : EReal)) j
      = (((∑ i, BridgeAlg.C 65536 s1 s2 i j * BridgeAlg.eye i j) / 65535 : ℝ) : EReal) := by
  unfold OnePass.vcol
  simp only [C_coe, eye_coe, ← EReal.coe_mul]
  rw [← coe_sum, nm1_eq]
  exact div_coe_coe _ (by norm_num)

theorem B_coe (k j : Fin 512) :
    OnePass.B (fun i j => (a i j : EReal)) k j = ((BridgeAlg.B a k j : ℝ) : EReal) := by
  show eye k j - (a k j : EReal) = ((BridgeAlg.eye k j - a k j : ℝ) : EReal)
  rw [eye_coe, ← EReal.coe_sub]

theorem CB_coe (i j : Fin 512) :
    OnePass.CB (fun j => (s1 j : EReal)) (fun i j => (s2 i j : EReal)) (fun i j => (a i j : EReal)) i j
      = ((BridgeAlg.CB 65536 s1 s2 a i j : ℝ) : EReal) := by
  unfold OnePass.CB BridgeAlg.CB
  simp only [C_coe, B_coe, ← EReal.coe_mul]
  exact (coe_sum _ _).symm

theorem BCB_coe (i j : Fin 512) :
    OnePass.BCB (fun j => (s1 j : EReal)) (fun i j => (s2 i j : EReal)) (fun i j => (a i j : EReal)) i j
      = ((BridgeAlg.BCB 65536 s1 s2 a i j : ℝ) : EReal) := by
  unfold OnePass.BCB BridgeAlg.BCB
  simp only [CB_coe, B_coe, ← EReal.coe_mul]
  exact (coe_sum _ _).symm

theorem wcol_coe (j : Fin 512) :
    OnePass.wcol (fun j => (s1 j : EReal)) (fun i j => (s2 i j : EReal)) (fun i j => (a i j : EReal)) j
      = (((∑ i, BridgeAlg.BCB 65536 s1 s2 a i j * BridgeAlg.eye i j) / 65535 : ℝ) : EReal) := by
  unfold OnePass.wcol
  simp only [BCB_coe, eye_coe, ← EReal.coe_mul]
  rw [← coe_sum, nm1_eq]
  exact div_coe_coe _ (by norm_num)

end OnePassCoe

/-! ## The sums over the samples, and the two-pass quantities, on real entries -/

section TwoPassCoe

variable (z x : Fin 65536 → Fin 512 → ℝ) (a : Fin 512 → Fin 512 → ℝ)

theorem colSum_coe :
    OnePass.colSum (fun n j => (x n j : EReal)) = fun j => ((BridgeAlg.colSum x j : ℝ) : EReal) := by
  funext j
  unfold OnePass.colSum BridgeAlg.colSum
  exact (coe_sum _ _).symm

theorem gram_coe :
    OnePass.gram (fun n j => (x n j : EReal)) = fun i j => ((BridgeAlg.gram x i j : ℝ) : EReal) := by
  funext i j
  unfold OnePass.gram BridgeAlg.gram
  simp only [← EReal.coe_mul]
  exact (coe_sum _ _).symm

theorem mean_coe (j : Fin 512) :
    TwoPass.mean (fun n j => (z n j : EReal)) j = ((BridgeAlg.mean 65536 z j : ℝ) : EReal) := by
  unfold TwoPass.mean BridgeAlg.mean
  rw [← coe_sum, nn_eq]
  exact div_coe_coe _ (by norm_num)

theorem cen_coe :
    TwoPass.cen (fun n j => (z n j : EReal)) = fun n j => ((BridgeAlg.cen 65536 z n j : ℝ) : EReal) := by
  funext n j
  show (z n j : EReal) - TwoPass.mean (fun n j => (z n j : EReal)) j
    = ((z n j - BridgeAlg.mean 65536 z j : ℝ) : EReal)
  rw [mean_coe, ← EReal.coe_sub]

theorem var_coe (j : Fin 512) :
    TwoPass.var (fun n j => (z n j : EReal)) j = ((BridgeAlg.ssq 65536 z j / 65535 : ℝ) : EReal) := by
  unfold TwoPass.var BridgeAlg.ssq
  rw [cen_coe]
  simp only [← EReal.coe_mul]
  rw [← coe_sum, nm1'_eq]
  exact div_coe_coe _ (by norm_num)

theorem XA_coe (n : Fin 65536) (j : Fin 512) :
    TwoPass.XA (fun n j => (x n j : EReal)) (fun i j => (a i j : EReal)) n j
      = ((BridgeAlg.XA x a n j : ℝ) : EReal) := by
  unfold TwoPass.XA BridgeAlg.XA
  simp only [← EReal.coe_mul]
  exact (coe_sum _ _).symm

theorem res_coe :
    TwoPass.res (fun n j => (x n j : EReal)) (fun i j => (a i j : EReal))
      = fun n j => ((BridgeAlg.res x a n j : ℝ) : EReal) := by
  funext n j
  show (x n j : EReal) - TwoPass.XA (fun n j => (x n j : EReal)) (fun i j => (a i j : EReal)) n j
    = ((x n j - BridgeAlg.XA x a n j : ℝ) : EReal)
  rw [XA_coe, ← EReal.coe_sub]

theorem M_coe (i j : Fin 512) :
    TwoPass.M (fun n j => (x n j : EReal)) (fun i j => (a i j : EReal)) i j
      = ((BridgeAlg.M 65536 x a i j : ℝ) : EReal) := by
  unfold TwoPass.M BridgeAlg.M
  rw [res_coe, cen_coe, cen_coe]
  simp only [← EReal.coe_mul]
  exact (coe_sum _ _).symm

end TwoPassCoe

/-! ## The statistics agree -/

section Agree

variable (x : Fin 65536 → Fin 512 → ℝ) (a : Fin 512 → Fin 512 → ℝ)

/-- The scatter matrix's diagonal read by row is the unbiased variance. -/
theorem vrow_eq_var :
    OnePass.vrow (OnePass.colSum (fun n j => (x n j : EReal))) (OnePass.gram (fun n j => (x n j : EReal)))
      = TwoPass.var (fun n j => (x n j : EReal)) := by
  funext i
  rw [colSum_coe, gram_coe, vrow_coe, var_coe, BridgeAlg.diag_row 65536 card_samples (by norm_num)]

/-- The scatter matrix's diagonal read by column is the unbiased variance. -/
theorem vcol_eq_var :
    OnePass.vcol (OnePass.colSum (fun n j => (x n j : EReal))) (OnePass.gram (fun n j => (x n j : EReal)))
      = TwoPass.var (fun n j => (x n j : EReal)) := by
  funext j
  rw [colSum_coe, gram_coe, vcol_coe, var_coe, BridgeAlg.diag_col 65536 card_samples (by norm_num)]

/-- The variance of the centred samples is the variance of the samples. -/
theorem var_cen :
    TwoPass.var (TwoPass.cen (fun n j => (x n j : EReal))) = TwoPass.var (fun n j => (x n j : EReal)) := by
  funext j
  rw [cen_coe, var_coe, var_coe, BridgeAlg.ssq_cen 65536 card_samples (by norm_num)]

/-- The diagonal of `(I - A)ᵀ C (I - A)` read by column is the variance of the centred residuals. -/
theorem wcol_eq_var :
    OnePass.wcol (OnePass.colSum (fun n j => (x n j : EReal))) (OnePass.gram (fun n j => (x n j : EReal)))
        (fun i j => (a i j : EReal))
      = TwoPass.var (TwoPass.cen (TwoPass.res (fun n j => (x n j : EReal)) (fun i j => (a i j : EReal)))) := by
  funext j
  rw [colSum_coe, gram_coe, wcol_coe, res_coe, cen_coe, var_coe,
    BridgeAlg.diag_BCB 65536 card_samples (by norm_num)]

/-- `C (I - A)` is the cross products of the centred samples and the centred residuals. -/
theorem CB_eq_M :
    OnePass.CB (OnePass.colSum (fun n j => (x n j : EReal))) (OnePass.gram (fun n j => (x n j : EReal)))
        (fun i j => (a i j : EReal))
      = TwoPass.M (fun n j => (x n j : EReal)) (fun i j => (a i j : EReal)) := by
  funext i j
  rw [colSum_coe, gram_coe, CB_coe, M_coe, BridgeAlg.CB_eq_M 65536 card_samples (by norm_num)]

end Agree

/-! ## The two arrangements agree -/

/-- On finite samples and a finite adjacency the single-pass penalty is the two-pass penalty. -/
theorem result_eq (X : Fin 65536 → Fin 512 → EReal) (A : Fin 512 → Fin 512 → EReal)
    (hX : ∀ n j, Cert.Finite.IsReal (X n j)) (hA : ∀ i j, Cert.Finite.IsReal (A i j)) :
    Cert.Spec.OnePass.result A X = Cert.Spec.TwoPass.result X A := by
  obtain ⟨x, rfl⟩ := exists_real_fun₂_eq X hX
  obtain ⟨a, rfl⟩ := exists_real_fun₂_eq A hA
  unfold OnePass.result OnePass.resultOf TwoPass.result
  rw [vrow_eq_var, vcol_eq_var, var_cen, wcol_eq_var, CB_eq_M]

end Cert.Bridge

end
-- ==== Proof.RefRun.lean ====
import proofs.«176857_j82240033784130_2_alg».proof.Proof.Gen.ReferenceIdeal
import proofs.«176857_j82240033784130_2_alg».proof.Proof.LibHostFold
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The reference program's @main as one line of host operations, the bodies of the functions it calls written out at
each call over that call's own buffers (a call is the callee's operations run on the operands' buffers and the call's
record of result buffers), and the run of that line: every buffer ends at the fold of the operations over the launch
contents. Every operation writes one buffer, and the buffers are written once each, in the order of the operations. -/

/-- @main's 153 operations, in order, the called functions' operations in place of the calls. -/
abbrev ops : List (HloOp τ sig (Elt F)) :=
  [ nullary main_cst (constant S_ .f32 0x00000000#32),
    binary main_arg1 main_cst main_v0 ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)),
    nullary main_cst_0 (constant S_ .f32 0x322BCC77#32),
    binary main_v0 main_cst_0 main_v1 (addf : (⟨S_, .f32⟩ : BufTy).Contents (Elt F) → (⟨S_, .f32⟩ : BufTy).Contents (Elt F) → (⟨S_, .f32⟩ : BufTy).Contents (Elt F)),
    nullary main_c (constantI S_ 32 1#32),
    nullary main_call0_cst (constant S_ .f32 0x00000000#32),
    binary main_arg0 main_call0_cst main_call0_v0 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call0_v0 main_call0_v1 (broadcastInDim S1x512 ![1] bcast_S512_S1x512_1 : (⟨S512, .f32⟩ : BufTy).Contents (Elt F) → (⟨S1x512, .f32⟩ : BufTy).Contents (Elt F)),
    nullary main_call0_cst_0 (constant S_ .f32 0x47800000#32),
    unary main_call0_cst_0 main_call0_v2 (broadcastInDim S1x512 ![] bcast_S_S1x512 : (⟨S_, .f32⟩ : BufTy).Contents (Elt F) → (⟨S1x512, .f32⟩ : BufTy).Contents (Elt F)),
    binary main_call0_v1 main_call0_v2 main_call0_v3 (Host.divf : (⟨S1x512, .f32⟩ : BufTy).Contents (Elt F) → (⟨S1x512, .f32⟩ : BufTy).Contents (Elt F) → (⟨S1x512, .f32⟩ : BufTy).Contents (Elt F)),
    unary main_call0_v3 main_call0_v4 (broadcastInDim S65536x512 ![0, 1] bcast_S1x512_S65536x512_0_1 : (⟨S1x512, .f32⟩ : BufTy).Contents (Elt F) → (⟨S65536x512, .f32⟩ : BufTy).Contents (Elt F)),
    binary main_arg0 main_call0_v4 main_call0_v5 (subf : (⟨S65536x512, .f32⟩ : BufTy).Contents (Elt F) → (⟨S65536x512, .f32⟩ : BufTy).Contents (Elt F) → (⟨S65536x512, .f32⟩ : BufTy).Contents (Elt F)),
    binary main_call0_v5 main_call0_v5 main_call0_v6 (mulf : (⟨S65536x512, .f32⟩ : BufTy).Contents (Elt F) → (⟨S65536x512, .f32⟩ : BufTy).Contents (Elt F) → (⟨S65536x512, .f32⟩ : BufTy).Contents (Elt F)),
    unary main_c main_call0_v7 (sitofp .f32 : (⟨S_, .i32⟩ : BufTy).Contents (Elt F) → (⟨S_, .f32⟩ : BufTy).Contents (Elt F)),
    nullary main_call0_cst_1 (constant S_ .f32 0x47800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call0_v8 main_call0_v10 (broadcastInDim S512 ![] bcast_S_S512 : (⟨S_, .f32⟩ : BufTy).Contents (Elt F) → (⟨S512, .f32⟩ : BufTy).Contents (Elt F)),
    binary main_call0_v9 main_call0_v10 main_call0_v11 (Host.divf : (⟨S512, .f32⟩ : BufTy).Contents (Elt F) → (⟨S512, .f32⟩ : BufTy).Contents (Elt F) → (⟨S512, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S512 ![] bcast_S_S512 : (⟨S_, .f32⟩ : BufTy).Contents (Elt F) → (⟨S512, .f32⟩ : BufTy).Contents (Elt F)),
    ternary main_call0_v12 main_call0_v11 main_call0_call0_v1 main_v2 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)),
    nullary main_cst_1 (constant S_ .f32 0x322BCC77#32),
    unary main_cst_1 main_v3 (broadcastInDim S512 ![] bcast_S_S512 : (⟨S_, .f32⟩ : BufTy).Contents (Elt F) → (⟨S512, .f32⟩ : BufTy).Contents (Elt F)),
    binary main_v2 main_v3 main_v4 (addf : (⟨S512, .f32⟩ : BufTy).Contents (Elt F) → (⟨S512, .f32⟩ : BufTy).Contents (Elt F) → (⟨S512, .f32⟩ : BufTy).Contents (Elt F)),
    nullary main_cst_2 (constant S_ .f32 0x4188A2C0#32),
    unary main_cst_2 main_v5 (broadcastInDim S512 ![] bcast_S_S512 : (⟨S_, .f32⟩ : BufTy).Contents (Elt F) → (⟨S512, .f32⟩ : BufTy).Contents (Elt F)),
    binary main_v5 main_v4 main_v6 (mulf : (⟨S512, .f32⟩ : BufTy).Contents (Elt F) → (⟨S512, .f32⟩ : BufTy).Contents (Elt F) → (⟨S512, .f32⟩ : BufTy).Contents (Elt F)),
    unary main_v6 main_v7 (Host.log : (⟨S512, .f32⟩ : BufTy).Contents (Elt F) → (⟨S512, .f32⟩ : BufTy).Contents (Elt F)),
    nullary main_cst_3 (constant S_ .f32 0x3F000000#32),
    unary main_cst_3 main_v8 (broadcastInDim S512 ![] bcast_S_S512 : (⟨S_, .f32⟩ : BufTy).Contents (Elt F) → (⟨S512, .f32⟩ : BufTy).Contents (Elt F)),
    binary main_v8 main_v7 main_v9 (mulf : (⟨S512, .f32⟩ : BufTy).Contents (Elt F) → (⟨S512, .f32⟩ : BufTy).Contents (Elt F) → (⟨S512, .f32⟩ : BufTy).Contents (Elt F)),
    unary main_v9 main_v10 (broadcastInDim S512x1 ![0] bcast_S512_S512x1_0 : (⟨S512, .f32⟩ : BufTy).Contents (Elt F) → (⟨S512x1, .f32⟩ : BufTy).Contents (Elt F)),
    unary main_v9 main_v11 (broadcastInDim S1x512 ![1] bcast_S512_S1x512_1 : (⟨S512, .f32⟩ : BufTy).Contents (Elt F) → (⟨S1x512, .f32⟩ : BufTy).Contents (Elt F)),
    unary main_v10 main_v12 (broadcastInDim S512x512 ![0, 1] bcast_S512x1_S512x512_0_1 : (⟨S512x1, .f32⟩ : BufTy).Contents (Elt F) → (⟨S512x512, .f32⟩ : BufTy).Contents (Elt F)),
    unary main_v11 main_v13 (broadcastInDim S512x512 ![0, 1] bcast_S1x512_S512x512_0_1 : (⟨S1x512, .f32⟩ : BufTy).Contents (Elt F) → (⟨S512x512, .f32⟩ : BufTy).Contents (Elt F)),
    binary main_v12 main_v13 main_v14 (subf : (⟨S512x512, .f32⟩ : BufTy).Contents (Elt F) → (⟨S512x512, .f32⟩ : BufTy).Contents (Elt F) → (⟨S512x512, .f32⟩ : BufTy).Contents (Elt F)),
    nullary main_call1_cst (constant S_ .f32 0x00000000#32),
    unary main_call1_cst main_call1_v0 (broadcastInDim S512x512 ![] bcast_S_S512x512 : (⟨S_, .f32⟩ : BufTy).Contents (Elt F) → (⟨S512x512, .f32⟩ : BufTy).Contents (Elt F)),
    binary main_v14 main_call1_v0 main_v15 (maximumf : (⟨S512x512, .f32⟩ : BufTy).Contents (Elt F) → (⟨S512x512, .f32⟩ : BufTy).Contents (Elt F) → (⟨S512x512, .f32⟩ : BufTy).Contents (Elt F)),
    binary main_arg1 main_v15 main_v16 (mulf : (⟨S512x512, .f32⟩ : BufTy).Contents (Elt F) → (⟨S512x512, .f32⟩ : BufTy).Contents (Elt F) → (⟨S512x512, .f32⟩ : BufTy).Contents (Elt F)),
    nullary main_cst_4 (constant S_ .f32 0x00000000#32),
    binary main_v16 main_cst_4 main_v17 ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)),
    binary main_v17 main_v1 main_v18 (Host.divf : (⟨S_, .f32⟩ : BufTy).Contents (Elt F) → (⟨S_, .f32⟩ : BufTy).Contents (Elt F) → (⟨S_, .f32⟩ : BufTy).Contents (Elt F)),
    binary main_arg0 main_arg1 main_v19 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_arg0 main_v19 main_v20 (subf : (⟨S65536x512, .f32⟩ : BufTy).Contents (Elt F) → (⟨S65536x512, .f32⟩ : BufTy).Contents (Elt F) → (⟨S65536x512, .f32⟩ : BufTy).Contents (Elt F)),
    nullary main_cst_5 (constant S_ .f32 0x00000000#32),
    binary main_arg0 main_cst_5 main_v21 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_v21 main_v22 (broadcastInDim S1x512 ![1] bcast_S512_S1x512_1 : (⟨S512, .f32⟩ : BufTy).Contents (Elt F) → (⟨S1x512, .f32⟩ : BufTy).Contents (Elt F)),
    nullary main_cst_6 (constant S_ .f32 0x47800000#32),
    unary main_cst_6 main_v23 (broadcastInDim S1x512 ![] bcast_S_S1x512 : (⟨S_, .f32⟩ : BufTy).Contents (Elt F) → (⟨S1x512, .f32⟩ : BufTy).Contents (Elt F)),
    binary main_v22 main_v23 main_v24 (Host.divf : (⟨S1x512, .f32⟩ : BufTy).Contents (Elt F) → (⟨S1x512, .f32⟩ : BufTy).Contents (Elt F) → (⟨S1x512, .f32⟩ : BufTy).Contents (Elt F)),
    unary main_v24 main_v25 (broadcastInDim S65536x512 ![0, 1] bcast_S1x512_S65536x512_0_1 : (⟨S1x512, .f32⟩ : BufTy).Contents (Elt F) → (⟨S65536x512, .f32⟩ : BufTy).Contents (Elt F)),
    binary main_arg0 main_v25 main_v26 (subf : (⟨S65536x512, .f32⟩ : BufTy).Contents (Elt F) → (⟨S65536x512, .f32⟩ : BufTy).Contents (Elt F) → (⟨S65536x512, .f32⟩ : BufTy).Contents (Elt F)),
    nullary main_cst_7 (constant S_ .f32 0x00000000#32),
    binary main_v20 main_cst_7 main_v27 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_v27 main_v28 (broadcastInDim S1x512 ![1] bcast_S512_S1x512_1 : (⟨S512, .f32⟩ : BufTy).Contents (Elt F) → (⟨S1x512, .f32⟩ : BufTy).Contents (Elt F)),
    nullary main_cst_8 (constant S_ .f32 0x47800000#32),
    unary main_cst_8 main_v29 (broadcastInDim S1x512 ![] bcast_S_S1x512 : (⟨S_, .f32⟩ : BufTy).Contents (Elt F) → (⟨S1x512, .f32⟩ : BufTy).Contents (Elt F)),
    binary main_v28 main_v29 main_v30 (Host.divf : (⟨S1x512, .f32⟩ : BufTy).Contents (Elt F) → (⟨S1x512, .f32⟩ : BufTy).Contents (Elt F) → (⟨S1x512, .f32⟩ : BufTy).Contents (Elt F)),
    unary main_v30 main_v31 (broadcastInDim S65536x512 ![0, 1] bcast_S1x512_S65536x512_0_1 : (⟨S1x512, .f32⟩ : BufTy).Contents (Elt F) → (⟨S65536x512, .f32⟩ : BufTy).Contents (Elt F)),
    binary main_v20 main_v31 main_v32 (subf : (⟨S65536x512, .f32⟩ : BufTy).Contents (Elt F) → (⟨S65536x512, .f32⟩ : BufTy).Contents (Elt F) → (⟨S65536x512, .f32⟩ : BufTy).Contents (Elt F)),
    nullary main_c_9 (constantI S_ 32 1#32),
    nullary main_call2_call0_cst (constant S_ .f32 0x00000000#32),
    binary main_v26 main_call2_call0_cst main_call2_call0_v0 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call2_call0_v0 main_call2_call0_v1 (broadcastInDim S1x512 ![1] bcast_S512_S1x512_1 : (⟨S512, .f32⟩ : BufTy).Contents (Elt F) → (⟨S1x512, .f32⟩ : BufTy).Contents (Elt F)),
    nullary main_call2_call0_cst_0 (constant S_ .f32 0x47800000#32),
    unary main_call2_call0_cst_0 main_call2_call0_v2 (broadcastInDim S1x512 ![] bcast_S_S1x512 : (⟨S_, .f32⟩ : BufTy).Contents (Elt F) → (⟨S1x512, .f32⟩ : BufTy).Contents (Elt F)),
    binary main_call2_call0_v1 main_call2_call0_v2 main_call2_call0_v3 (Host.divf : (⟨S1x512, .f32⟩ : BufTy).Contents (Elt F) → (⟨S1x512, .f32⟩ : BufTy).Contents (Elt F) → (⟨S1x512, .f32⟩ : BufTy).Contents (Elt F)),
    unary main_call2_call0_v3 main_call2_call0_v4 (broadcastInDim S65536x512 ![0, 1] bcast_S1x512_S65536x512_0_1 : (⟨S1x512, .f32⟩ : BufTy).Contents (Elt F) → (⟨S65536x512, .f32⟩ : BufTy).Contents (Elt F)),
    binary main_v26 main_call2_call0_v4 main_call2_call0_v5 (subf : (⟨S65536x512, .f32⟩ : BufTy).Contents (Elt F) → (⟨S65536x512, .f32⟩ : BufTy).Contents (Elt F) → (⟨S65536x512, .f32⟩ : BufTy).Contents (Elt F)),
    binary main_call2_call0_v5 main_call2_call0_v5 main_call2_call0_v6 (mulf : (⟨S65536x512, .f32⟩ : BufTy).Contents (Elt F) → (⟨S65536x512, .f32⟩ : BufTy).Contents (Elt F) → (⟨S65536x512, .f32⟩ : BufTy).Contents (Elt F)),
    unary main_c_9 main_call2_call0_v7 (sitofp .f32 : (⟨S_, .i32⟩ : BufTy).Contents (Elt F) → (⟨S_, .f32⟩ : BufTy).Contents (Elt F)),
    nullary main_call2_call0_cst_1 (constant S_ .f32 0x47800000#32),
    binary main_call2_call0_cst_1 main_call2_call0_v7 main_call2_call0_v8 (subf : (⟨S_, .f32⟩ : BufTy).Contents (Elt F) → (⟨S_, .f32⟩ : BufTy).Contents (Elt F) → (⟨S_, .f32⟩ : BufTy).Contents (Elt F)),
    nullary main_call2_call0_cst_2 (constant S_ .f32 0x00000000#32),
    binary main_call2_call0_v6 main_call2_call0_cst_2 main_call2_call0_v9 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call2_call0_v8 main_call2_call0_v10 (broadcastInDim S512 ![] bcast_S_S512 : (⟨S_, .f32⟩ : BufTy).Contents (Elt F) → (⟨S512, .f32⟩ : BufTy).Contents (Elt F)),
    binary main_call2_call0_v9 main_call2_call0_v10 main_call2_call0_v11 (Host.divf : (⟨S512, .f32⟩ : BufTy).Contents (Elt F) → (⟨S512, .f32⟩ : BufTy).Contents (Elt F) → (⟨S512, .f32⟩ : BufTy).Contents (Elt F)),
    nullary main_call2_call0_cst_3 (constant S_ .f32 0x00000000#32),
    binary main_call2_call0_v8 main_call2_call0_cst_3 main_call2_call0_v12 (cmpf .ogt : (⟨S_, .f32⟩ : BufTy).Contents (Elt F) → (⟨S_, .f32⟩ : BufTy).Contents (Elt F) → (⟨S_, .i1⟩ : BufTy).Contents (Elt F)),
    nullary main_call2_call0_cst_4 (constant S_ .f32 0x7FC00000#32),
    unary main_call2_call0_cst_4 main_call2_call0_call0_v0 (id : (⟨S_, .f32⟩ : BufTy).Contents (Elt F) → (⟨S_, .f32⟩ : BufTy).Contents (Elt F)),
    unary main_call2_call0_call0_v0 main_call2_call0_call0_v1 (broadcastInDim S512 ![] bcast_S_S512 : (⟨S_, .f32⟩ : BufTy).Contents (Elt F) → (⟨S512, .f32⟩ : BufTy).Contents (Elt F)),
    ternary main_call2_call0_v12 main_call2_call0_v11 main_call2_call0_call0_v1 main_call2_v0 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)),
    unary main_call2_v0 main_v33 (Host.sqrt : (⟨S512, .f32⟩ : BufTy).Contents (Elt F) → (⟨S512, .f32⟩ : BufTy).Contents (Elt F)),
    nullary main_cst_10 (constant S_ .f32 0x322BCC77#32),
    unary main_cst_10 main_v34 (broadcastInDim S512 ![] bcast_S_S512 : (⟨S_, .f32⟩ : BufTy).Contents (Elt F) → (⟨S512, .f32⟩ : BufTy).Contents (Elt F)),
    binary main_v33 main_v34 main_v35 (addf : (⟨S512, .f32⟩ : BufTy).Contents (Elt F) → (⟨S512, .f32⟩ : BufTy).Contents (Elt F) → (⟨S512, .f32⟩ : BufTy).Contents (Elt F)),
    nullary main_c_11 (constantI S_ 32 1#32),
    nullary main_call3_call0_cst (constant S_ .f32 0x00000000#32),
    binary main_v32 main_call3_call0_cst main_call3_call0_v0 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call3_call0_v0 main_call3_call0_v1 (broadcastInDim S1x512 ![1] bcast_S512_S1x512_1 : (⟨S512, .f32⟩ : BufTy).Contents (Elt F) → (⟨S1x512, .f32⟩ : BufTy).Contents (Elt F)),
    nullary main_call3_call0_cst_0 (constant S_ .f32 0x47800000#32),
    unary main_call3_call0_cst_0 main_call3_call0_v2 (broadcastInDim S1x512 ![] bcast_S_S1x512 : (⟨S_, .f32⟩ : BufTy).Contents (Elt F) → (⟨S1x512, .f32⟩ : BufTy).Contents (Elt F)),
    binary main_call3_call0_v1 main_call3_call0_v2 main_call3_call0_v3 (Host.divf : (⟨S1x512, .f32⟩ : BufTy).Contents (Elt F) → (⟨S1x512, .f32⟩ : BufTy).Contents (Elt F) → (⟨S1x512, .f32⟩ : BufTy).Contents (Elt F)),
    unary main_call3_call0_v3 main_call3_call0_v4 (broadcastInDim S65536x512 ![0, 1] bcast_S1x512_S65536x512_0_1 : (⟨S1x512, .f32⟩ : BufTy).Contents (Elt F) → (⟨S65536x512, .f32⟩ : BufTy).Contents (Elt F)),
    binary main_v32 main_call3_call0_v4 main_call3_call0_v5 (subf : (⟨S65536x512, .f32⟩ : BufTy).Contents (Elt F) → (⟨S65536x512, .f32⟩ : BufTy).Contents (Elt F) → (⟨S65536x512, .f32⟩ : BufTy).Contents (Elt F)),
    binary main_call3_call0_v5 main_call3_call0_v5 main_call3_call0_v6 (mulf : (⟨S65536x512, .f32⟩ : BufTy).Contents (Elt F) → (⟨S65536x512, .f32⟩ : BufTy).Contents (Elt F) → (⟨S65536x512, .f32⟩ : BufTy).Contents (Elt F)),
    unary main_c_11 main_call3_call0_v7 (sitofp .f32 : (⟨S_, .i32⟩ : BufTy).Contents (Elt F) → (⟨S_, .f32⟩ : BufTy).Contents (Elt F)),
    nullary main_call3_call0_cst_1 (constant S_ .f32 0x47800000#32),
    binary main_call3_call0_cst_1 main_call3_call0_v7 main_call3_call0_v8 (subf : (⟨S_, .f32⟩ : BufTy).Contents (Elt F) → (⟨S_, .f32⟩ : BufTy).Contents (Elt F) → (⟨S_, .f32⟩ : BufTy).Contents (Elt F)),
    nullary main_call3_call0_cst_2 (constant S_ .f32 0x00000000#32),
    binary main_call3_call0_v6 main_call3_call0_cst_2 main_call3_call0_v9 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_call3_call0_v8 main_call3_call0_v10 (broadcastInDim S512 ![] bcast_S_S512 : (⟨S_, .f32⟩ : BufTy).Contents (Elt F) → (⟨S512, .f32⟩ : BufTy).Contents (Elt F)),
    binary main_call3_call0_v9 main_call3_call0_v10 main_call3_call0_v11 (Host.divf : (⟨S512, .f32⟩ : BufTy).Contents (Elt F) → (⟨S512, .f32⟩ : BufTy).Contents (Elt F) → (⟨S512, .f32⟩ : BufTy).Contents (Elt F)),
    nullary main_call3_call0_cst_3 (constant S_ .f32 0x00000000#32),
    binary main_call3_call0_v8 main_call3_call0_cst_3 main_call3_call0_v12 (cmpf .ogt : (⟨S_, .f32⟩ : BufTy).Contents (Elt F) → (⟨S_, .f32⟩ : BufTy).Contents (Elt F) → (⟨S_, .i1⟩ : BufTy).Contents (Elt F)),
    nullary main_call3_call0_cst_4 (constant S_ .f32 0x7FC00000#32),
    unary main_call3_call0_cst_4 main_call3_call0_call0_v0 (id : (⟨S_, .f32⟩ : BufTy).Contents (Elt F) → (⟨S_, .f32⟩ : BufTy).Contents (Elt F)),
    unary main_call3_call0_call0_v0 main_call3_call0_call0_v1 (broadcastInDim S512 ![] bcast_S_S512 : (⟨S_, .f32⟩ : BufTy).Contents (Elt F) → (⟨S512, .f32⟩ : BufTy).Contents (Elt F)),
    ternary main_call3_call0_v12 main_call3_call0_v11 main_call3_call0_call0_v1 main_call3_v0 ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)),
    unary main_call3_v0 main_v36 (Host.sqrt : (⟨S512, .f32⟩ : BufTy).Contents (Elt F) → (⟨S512, .f32⟩ : BufTy).Contents (Elt F)),
    nullary main_cst_12 (constant S_ .f32 0x322BCC77#32),
    unary main_cst_12 main_v37 (broadcastInDim S512 ![] bcast_S_S512 : (⟨S_, .f32⟩ : BufTy).Contents (Elt F) → (⟨S512, .f32⟩ : BufTy).Contents (Elt F)),
    binary main_v36 main_v37 main_v38 (addf : (⟨S512, .f32⟩ : BufTy).Contents (Elt F) → (⟨S512, .f32⟩ : BufTy).Contents (Elt F) → (⟨S512, .f32⟩ : BufTy).Contents (Elt F)),
    unary main_v26 main_v39 ((transpose S512x65536 [1, 0] · transposes_S65536x512_S512x65536_1_0) : (⟨S65536x512, .f32⟩ : BufTy).Contents (Elt F) → (⟨S512x65536, .f32⟩ : BufTy).Contents (Elt F)),
    binary main_v39 main_v32 main_v40 ((fun l r => Host.dotGeneral dot_S512x65536_S65536x512_S512x512_1_0_0_1_n_n none l r) : (⟨S512x65536, .f32⟩ : BufTy).Contents (Elt F) → (⟨S65536x512, .f32⟩ : BufTy).Contents (Elt F) → (⟨S512x512, .f32⟩ : BufTy).Contents (Elt F)),
    nullary main_cst_13 (constant S_ .f32 0x47800000#32),
    unary main_cst_13 main_v41 (broadcastInDim S512x512 ![] bcast_S_S512x512 : (⟨S_, .f32⟩ : BufTy).Contents (Elt F) → (⟨S512x512, .f32⟩ : BufTy).Contents (Elt F)),
    binary main_v40 main_v41 main_v42 (Host.divf : (⟨S512x512, .f32⟩ : BufTy).Contents (Elt F) → (⟨S512x512, .f32⟩ : BufTy).Contents (Elt F) → (⟨S512x512, .f32⟩ : BufTy).Contents (Elt F)),
    unary main_v35 main_v43 (broadcastInDim S512x1 ![0] bcast_S512_S512x1_0 : (⟨S512, .f32⟩ : BufTy).Contents (Elt F) → (⟨S512x1, .f32⟩ : BufTy).Contents (Elt F)),
    unary main_v38 main_v44 (broadcastInDim S1x512 ![1] bcast_S512_S1x512_1 : (⟨S512, .f32⟩ : BufTy).Contents (Elt F) → (⟨S1x512, .f32⟩ : BufTy).Contents (Elt F)),
    unary main_v43 main_v45 (broadcastInDim S512x512 ![0, 1] bcast_S512x1_S512x512_0_1 : (⟨S512x1, .f32⟩ : BufTy).Contents (Elt F) → (⟨S512x512, .f32⟩ : BufTy).Contents (Elt F)),
    unary main_v44 main_v46 (broadcastInDim S512x512 ![0, 1] bcast_S1x512_S512x512_0_1 : (⟨S1x512, .f32⟩ : BufTy).Contents (Elt F) → (⟨S512x512, .f32⟩ : BufTy).Contents (Elt F)),
    binary main_v45 main_v46 main_v47 (mulf : (⟨S512x512, .f32⟩ : BufTy).Contents (Elt F) → (⟨S512x512, .f32⟩ : BufTy).Contents (Elt F) → (⟨S512x512, .f32⟩ : BufTy).Contents (Elt F)),
    binary main_v42 main_v47 main_v48 (Host.divf : (⟨S512x512, .f32⟩ : BufTy).Contents (Elt F) → (⟨S512x512, .f32⟩ : BufTy).Contents (Elt F) → (⟨S512x512, .f32⟩ : BufTy).Contents (Elt F)),
    unary main_v48 main_v49 (Host.absf : (⟨S512x512, .f32⟩ : BufTy).Contents (Elt F) → (⟨S512x512, .f32⟩ : BufTy).Contents (Elt F)),
    nullary main_v50 (iotaInDim S512x512 32 0),
    nullary main_v51 (iotaInDim S512x512 32 1),
    nullary main_c_14 (constantI S_ 32 0#32),
    unary main_c_14 main_v52 (broadcastInDim S512x512 ![] bcast_S_S512x512 : (⟨S_, .i32⟩ : BufTy).Contents (Elt F) → (⟨S512x512, .i32⟩ : BufTy).Contents (Elt F)),
    binary main_v50 main_v52 main_v53 (addi : (⟨S512x512, .i32⟩ : BufTy).Contents (Elt F) → (⟨S512x512, .i32⟩ : BufTy).Contents (Elt F) → (⟨S512x512, .i32⟩ : BufTy).Contents (Elt F)),
    binary main_v53 main_v51 main_v54 (cmpi .eq : (⟨S512x512, .i32⟩ : BufTy).Contents (Elt F) → (⟨S512x512, .i32⟩ : BufTy).Contents (Elt F) → (⟨S512x512, .i1⟩ : BufTy).Contents (Elt F)),
    unary main_v54 main_v55 (uitofp .f32 : (⟨S512x512, .i1⟩ : BufTy).Contents (Elt F) → (⟨S512x512, .f32⟩ : BufTy).Contents (Elt F)),
    nullary main_cst_15 (constant S_ .f32 0x3F800000#32),
    unary main_cst_15 main_v56 (broadcastInDim S512x512 ![] bcast_S_S512x512 : (⟨S_, .f32⟩ : BufTy).Contents (Elt F) → (⟨S512x512, .f32⟩ : BufTy).Contents (Elt F)),
    binary main_v56 main_v55 main_v57 (subf : (⟨S512x512, .f32⟩ : BufTy).Contents (Elt F) → (⟨S512x512, .f32⟩ : BufTy).Contents (Elt F) → (⟨S512x512, .f32⟩ : BufTy).Contents (Elt F)),
    binary main_v49 main_v57 main_v58 (mulf : (⟨S512x512, .f32⟩ : BufTy).Contents (Elt F) → (⟨S512x512, .f32⟩ : BufTy).Contents (Elt F) → (⟨S512x512, .f32⟩ : BufTy).Contents (Elt F)),
    binary main_arg1 main_v58 main_v59 (mulf : (⟨S512x512, .f32⟩ : BufTy).Contents (Elt F) → (⟨S512x512, .f32⟩ : BufTy).Contents (Elt F) → (⟨S512x512, .f32⟩ : BufTy).Contents (Elt F)),
    nullary main_cst_16 (constant S_ .f32 0x00000000#32),
    binary main_v59 main_cst_16 main_v60 ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)),
    binary main_v60 main_v1 main_v61 (Host.divf : (⟨S_, .f32⟩ : BufTy).Contents (Elt F) → (⟨S_, .f32⟩ : BufTy).Contents (Elt F) → (⟨S_, .f32⟩ : BufTy).Contents (Elt F)),
    nullary main_cst_17 (constant S_ .f32 0x3F000000#32),
    binary main_cst_17 main_v61 main_v62 (mulf : (⟨S_, .f32⟩ : BufTy).Contents (Elt F) → (⟨S_, .f32⟩ : BufTy).Contents (Elt F) → (⟨S_, .f32⟩ : BufTy).Contents (Elt F)),
    binary main_v18 main_v62 main_v63 (addf : (⟨S_, .f32⟩ : BufTy).Contents (Elt F) → (⟨S_, .f32⟩ : BufTy).Contents (Elt F) → (⟨S_, .f32⟩ : BufTy).Contents (Elt F)),
    nullary main_cst_18 (constant S_ .f32 0x3DCCCCCD#32),
    binary main_cst_18 main_v63 main_v64 (mulf : (⟨S_, .f32⟩ : BufTy).Contents (Elt F) → (⟨S_, .f32⟩ : BufTy).Contents (Elt F) → (⟨S_, .f32⟩ : BufTy).Contents (Elt F)) ]

set_option maxRecDepth 8192 in
/-- @main is that line: unfolding the called functions at their calls and reassociating the sequencing gives the same
    chain of steps, the typed references of a called function being the buffers of the call's record. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., nullary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., binary_bufs_sub ..,
    binary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., unary_bufs_sub .., unary_bufs_sub .., binary_bufs_sub .., binary_bufs_sub ..,
    unary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., binary_bufs_sub ..,
    binary_bufs_sub .., nullary_bufs_sub .., binary_bufs_sub .., binary_bufs_sub .., nullary_bufs_sub .., binary_bufs_sub ..,
    binary_bufs_sub .., nullary_bufs_sub .., binary_bufs_sub ..⟩

set_option maxRecDepth 8192 in
/-- At the compiled mesh, for any float values, from any memory with zero counters: every weakly fair execution of
    @main terminates, and every final state has each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- The result buffer of each operation, in the operations' order. -/
abbrev outs : List (Ref sig .tc) :=
  [ main_cst, main_v0, main_cst_0, main_v1, main_c, main_call0_cst, main_call0_v0, main_call0_v1,
    main_call0_cst_0, main_call0_v2, main_call0_v3, main_call0_v4, main_call0_v5, main_call0_v6, main_call0_v7, main_call0_cst_1,
    main_call0_v8, main_call0_cst_2, main_call0_v9, main_call0_v10, main_call0_v11, main_call0_cst_3, main_call0_v12, main_call0_cst_4,
    main_call0_call0_v0, main_call0_call0_v1, main_v2, main_cst_1, main_v3, main_v4, main_cst_2, main_v5,
    main_v6, main_v7, main_cst_3, main_v8, main_v9, main_v10, main_v11, main_v12,
    main_v13, main_v14, main_call1_cst, main_call1_v0, main_v15, main_v16, main_cst_4, main_v17,
    main_v18, main_v19, main_v20, main_cst_5, main_v21, main_v22, main_cst_6, main_v23,
    main_v24, main_v25, main_v26, main_cst_7, main_v27, main_v28, main_cst_8, main_v29,
    main_v30, main_v31, main_v32, main_c_9, main_call2_call0_cst, main_call2_call0_v0, main_call2_call0_v1, main_call2_call0_cst_0,
    main_call2_call0_v2, main_call2_call0_v3, main_call2_call0_v4, main_call2_call0_v5, main_call2_call0_v6, main_call2_call0_v7, main_call2_call0_cst_1, main_call2_call0_v8,
    main_call2_call0_cst_2, main_call2_call0_v9, main_call2_call0_v10, main_call2_call0_v11, main_call2_call0_cst_3, main_call2_call0_v12, main_call2_call0_cst_4, main_call2_call0_call0_v0,
    main_call2_call0_call0_v1, main_call2_v0, main_v33, main_cst_10, main_v34, main_v35, main_c_11, main_call3_call0_cst,
    main_call3_call0_v0, main_call3_call0_v1, main_call3_call0_cst_0, main_call3_call0_v2, main_call3_call0_v3, main_call3_call0_v4, main_call3_call0_v5, main_call3_call0_v6,
    main_call3_call0_v7, main_call3_call0_cst_1, main_call3_call0_v8, main_call3_call0_cst_2, main_call3_call0_v9, main_call3_call0_v10, main_call3_call0_v11, main_call3_call0_cst_3,
    main_call3_call0_v12, main_call3_call0_cst_4, main_call3_call0_call0_v0, main_call3_call0_call0_v1, main_call3_v0, main_v36, main_cst_12, main_v37,
    main_v38, main_v39, main_v40, main_cst_13, main_v41, main_v42, main_v43, main_v44,
    main_v45, main_v46, main_v47, main_v48, main_v49, main_v50, main_v51, main_c_14,
    main_v52, main_v53, main_v54, main_v55, main_cst_15, main_v56, main_v57, main_v58,
    main_v59, main_cst_16, main_v60, main_v61, main_cst_17, main_v62, main_v63, main_cst_18,
    main_v64 ]

set_option maxRecDepth 8192 in
/-- Operation by operation, the line writes exactly these buffers. -/
theorem ops_outs : Cert.HostFold.Outs (ops (F := F)) outs := by
  outs_in_order

/-- No buffer is written twice. -/
theorem outs_nodup : outs.Nodup := by decide

/-- The first argument's buffer is never written: it keeps its launch contents. -/
theorem arg0_kept (V : Valuation τ sig (Elt F)) :
    after ops V (Proc.devRef .tc main_arg0) = V (Proc.devRef .tc main_arg0) :=
  Cert.HostFold.after_keep ops_outs.writesIn (by decide) V

/-- The second argument's buffer is never written: it keeps its launch contents. -/
theorem arg1_kept (V : Valuation τ sig (Elt F)) :
    after ops V (Proc.devRef .tc main_arg1) = V (Proc.devRef .tc main_arg1) :=
  Cert.HostFold.after_keep ops_outs.writesIn (by decide) V

end Cert.ReferenceIdeal.HandRun

end
-- ==== Proof.Assembly.lean ====
/-
  The two programs' results agree.

  The single-pass program ends with its result buffer at the single-pass penalty of its argument arrays (the run with
  the result named, read back through the two kernel regions); the two-pass program ends with its result buffer at
  the two-pass penalty of its argument arrays (its host operations read back one by one). The precondition makes every
  entry of both arguments a real number, and on real entries the two arrangements agree. So from memories that agree on
  the arguments the two runs end with equal results.
-/
import proofs.«176857_j82240033784130_2_alg».proof.Defs
import proofs.«176857_j82240033784130_2_alg».proof.Proof.Gen.Kernel
import proofs.«176857_j82240033784130_2_alg».proof.Proof.Gen.KernelIdeal
import proofs.«176857_j82240033784130_2_alg».proof.Proof.Gen.ReferenceIdeal
import proofs.«176857_j82240033784130_2_alg».proof.Proof.Gen.Pre_finite_inputs
import proofs.«176857_j82240033784130_2_alg».proof.Proof.KernelValue
import proofs.«176857_j82240033784130_2_alg».proof.Proof.Finite
import proofs.«176857_j82240033784130_2_alg».proof.Proof.Bridge
import proofs.«176857_j82240033784130_2_alg».proof.Proof.RefRun

set_option maxRecDepth 16384

noncomputable section

namespace Cert.Proof.Assembly

open Idealize.ShloMosaic Idealize.ShloMosaic.TcCoe Idealize.ShloMosaic.ValueIdx Idealize.SL.Sem
open Cert.KernelIdeal.ValueChain (at2 at3 row_lt)

/-- The reference program's frame: its run with every buffer at the host operations' fold, read at the two argument
    buffers, which no operation writes. -/
theorem frame_reference : Cert.frame_ReferenceIdeal := fun m ρ _ =>
  (θ_run Cert.ReferenceIdeal.defs _ _).mono
    (fun _ h c => ⟨(h c Cert.ReferenceIdeal.main_arg0).trans (Cert.ReferenceIdeal.HandRun.arg0_kept _),
      (h c Cert.ReferenceIdeal.main_arg1).trans (Cert.ReferenceIdeal.HandRun.arg1_kept _)⟩)
    (Cert.ReferenceIdeal.HandRun.run_after (F := Ideal) m ρ)

section Algebraic

-- what the second kernel's body stores, as a function of the three blocks it loads
variable (hEpi : ∀ (x0 : Vec Ideal Cert.KernelIdeal.S2x1x512 .f32) (x1 : Vec Ideal Cert.KernelIdeal.S2x512x512 .f32) (x2 : Vec Ideal Cert.KernelIdeal.S512x512 .f32),
    Cert.KernelIdeal.Gen.out1_3 (F := Ideal) x0 x1 x2
      = fun _ => Cert.Spec.OnePass.resultOf (fun j => ∑ k : Fin 2, x0 (ix3 k 0 j))
          (fun i j => ∑ k : Fin 2, x1 (ix3 k i j)) (fun i j => x2 (ix2 i j)))
-- the first region's two output arrays
variable (hSums : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (k : Fin 2) (j : Fin 512),
    at3 (n0 := 2) (n1 := 1) (n2 := 512) ((Cert.KernelIdeal.Gen.dat0 (F := Ideal) V c).arrAt 1 Cert.KernelIdeal.cfg0.N) k 0 j
      = ∑ t : Fin 8, ∑ r : Fin 4096, at2 (n0 := 65536) (n1 := 512) (V c Cert.KernelIdeal.main_arg0) ⟨(k.val * 8 + t.val) * 4096 + r.val, row_lt k t r⟩ j)
variable (hGram : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (k : Fin 2) (i j : Fin 512),
    at3 (n0 := 2) (n1 := 512) (n2 := 512) ((Cert.KernelIdeal.Gen.dat0 (F := Ideal) V c).arrAt 2 Cert.KernelIdeal.cfg0.N) k i j
      = ∑ t : Fin 8, ∑ r : Fin 4096, at2 (n0 := 65536) (n1 := 512) (V c Cert.KernelIdeal.main_arg0) ⟨(k.val * 8 + t.val) * 4096 + r.val, row_lt k t r⟩ i
          * at2 (n0 := 65536) (n1 := 512) (V c Cert.KernelIdeal.main_arg0) ⟨(k.val * 8 + t.val) * 4096 + r.val, row_lt k t r⟩ j)
-- the reference's result buffer after its host operations
variable (hRef : ∀ V : Valuation Cert.ReferenceIdeal.τ Cert.ReferenceIdeal.sig (Elt Ideal),
    StableHlo.after (Cert.ReferenceIdeal.HandRun.ops (F := Ideal)) V (Proc.devRef .tc Cert.ReferenceIdeal.main_v64)
      = fun _ => Cert.Spec.TwoPass.result (fun n j => at2 (n0 := 65536) (n1 := 512) (V (Proc.devRef .tc Cert.ReferenceIdeal.main_arg0)) n j)
          (fun i j => at2 (n0 := 512) (n1 := 512) (V (Proc.devRef .tc Cert.ReferenceIdeal.main_arg1)) i j))

include hEpi hSums hGram hRef in
/-- From memories agreeing on the arguments both programs run, end with equal results and unchanged arguments. -/
theorem algebraic : Cert.algebraic_KernelIdeal_ReferenceIdeal := by
  intro m ρ m' ρ' hpre hagree
  refine ⟨fun c => fun _ => Cert.Spec.OnePass.result
      (fun i j => at2 (n0 := 512) (n1 := 512) (m ((c : Thread Cert.KernelIdeal.nD Cert.KernelIdeal.τ).loc Cert.KernelIdeal.main_arg1)) i j)
      (fun n j => at2 (n0 := 65536) (n1 := 512) (m ((c : Thread Cert.KernelIdeal.nD Cert.KernelIdeal.τ).loc Cert.KernelIdeal.main_arg0)) n j), ?_, ?_⟩
  · exact (θ_run Cert.KernelIdeal.defs _ _).mono
      (fun r h c => ⟨(h c).1.trans (Cert.KernelIdeal.ValueChain.last_value m ρ hEpi hSums hGram
          (fun f => Cert.Bridge.sum_blocks f) c), (h c).2.1, (h c).2.2⟩)
      (Cert.KernelIdeal.ValueRun.run_last (F := Ideal) m ρ)
  · refine (θ_run Cert.ReferenceIdeal.defs _ _).mono
      (fun r h c => ⟨?_, (h c Cert.ReferenceIdeal.main_arg0).trans (Cert.ReferenceIdeal.HandRun.arg0_kept _),
        (h c Cert.ReferenceIdeal.main_arg1).trans (Cert.ReferenceIdeal.HandRun.arg1_kept _)⟩)
      (Cert.ReferenceIdeal.HandRun.run_after (F := Ideal) m' ρ')
    rw [h c Cert.ReferenceIdeal.main_v64, hRef]
    funext _
    obtain ⟨hx, ha⟩ := Cert.FiniteInputs.allReal_of_pre _ _ (hpre c)
    have e0 : StableHlo.launchContents m' c (Proc.devRef .tc Cert.ReferenceIdeal.main_arg0)
        = m ((c : Thread Cert.KernelIdeal.nD Cert.KernelIdeal.τ).loc Cert.KernelIdeal.main_arg0) := (hagree c).1
    have e1 : StableHlo.launchContents m' c (Proc.devRef .tc Cert.ReferenceIdeal.main_arg1)
        = m ((c : Thread Cert.KernelIdeal.nD Cert.KernelIdeal.τ).loc Cert.KernelIdeal.main_arg1) := (hagree c).2
    rw [e0, e1]
    exact (Cert.Bridge.result_eq _ _ (fun n j => hx (ix2 n j)) (fun i j => ha (ix2 i j))).symm

end Algebraic

end Cert.Proof.Assembly

end
-- ==== Proof.EpiOps.lean ====
/-
  The closing block of the single-pass program, operation by operation, read at an index.

  First the layout and reduction operations the block uses, each at explicit coordinates: a sum along the rows or
  the columns of a matrix, a sum over the leading axis of a stack, a vector set as a column, a column spread over
  the columns of a matrix. Then one lemma for each named value of the block: the identity matrix, the scatter
  matrix, its diagonal read along a row and along a column, the entropy term, the guarded standard deviation, the
  sum of the adjacency, the entropy penalty, the normalised cross matrix and the closing combination.
-/
import proofs.«176857_j82240033784130_2_alg».proof.Proof.Gen.KernelIdeal.Skeleton
import proofs.«176857_j82240033784130_2_alg».proof.Proof.Spec
import Idealize.ShloMosaic.Lib.ValueIdx
import Idealize.ShloMosaic.Lib.ValueLayout
import Idealize.ShloMosaic.Lib.Pipeline.Value
import Idealize.ShloMosaic.PureOps.Ideal.Laws

open Idealize.ShloMosaic Idealize.ShloMosaic.ValueIdx
open scoped BigOperators

noncomputable section

namespace Cert.KernelIdeal.EpiOps

open Cert.KernelIdeal.Gen

/-! ## Sums along one axis, at coordinates -/

/-- A sum along the rows of a matrix: at `i`, the sum over the columns `k` of the entry `(i, k)`. -/
theorem rowSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ v 0x00000000#32 h hφ hacc (ix1 i) = ∑ k : Fin b, v (ix2 i k) := by
  refine (Ideal.multiReduction_add_single v 0x00000000#32 h hφ hacc (ix1 i)).trans ?_
  refine Finset.sum_congr rfl fun k _ => congrArg v ?_
  funext d
  match d with
  | ⟨0, _⟩ => rfl
  | ⟨1, _⟩ => rfl

/-- A sum along the columns of a matrix: at `j`, the sum over the rows `k` of the entry `(k, j)`. -/
theorem colSum_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ v 0x00000000#32 h hφ hacc (ix1 j) = ∑ k : Fin a, v (ix2 k j) := by
  refine (Ideal.multiReduction_add_single v 0x00000000#32 h hφ hacc (ix1 j)).trans ?_
  refine Finset.sum_congr rfl fun k _ => congrArg v ?_
  funext d
  match d with
  | ⟨0, _⟩ => rfl
  | ⟨1, _⟩ => rfl

/-- A sum over the leading axis of a stack of matrices: at `(i, j)`, the sum over the layers `k` of the entry
    `(k, i, j)`. -/
theorem stackSum_apply {c a b : ℕ} (v : FVec Ideal ⟨3, ![c, a, b]⟩ .f32)
    (h : (⟨3, ![c, a, b]⟩ : Shape).Reduces [0] ⟨2, ![a, b]⟩) (hφ : FKind.Formats .f32)
    (hacc : (0x00000000#32 : BitVec 32) = 0x00000000#32) (i : Fin a) (j : Fin b) :
    multiReduction .add [0] ⟨2, ![a, b]⟩ v 0x00000000#32 h hφ hacc (ix2 i j) = ∑ k : Fin c, v (ix3 k i j) := by
  refine (Ideal.multiReduction_add_single v 0x00000000#32 h hφ hacc (ix2 i j)).trans ?_
  refine Finset.sum_congr rfl fun k _ => congrArg v ?_
  funext d
  match d with
  | ⟨0, _⟩ => rfl
  | ⟨1, _⟩ => rfl
  | ⟨2, _⟩ => rfl

/-! ## A vector as a column, and a column over the columns of a matrix -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The identity matrix -/

/-- The converted comparison of the row number with the column number is the identity matrix's entry. -/
theorem pay3_apply (i j : Fin 512) : k1_pay3 (F := Ideal) (ix2 i j) = Cert.Spec.eye i j := by
  unfold k1_pay3
  show ((((IntOp.cmpi .eq (iota .tc S512x512 32 [0] iota_S512x512_d0_w32 (ix2 i j))
      (iota .tc S512x512 32 [1] iota_S512x512_d1_w32 (ix2 i j))).setWidth 32).toInt : ℝ) : EReal) = _
  rw [iota_single_apply, iota_single_apply]
  show ((((IntOp.cmpi .eq (BitVec.ofNat 32 i.val) (BitVec.ofNat 32 j.val)).setWidth 32).toInt : ℝ) : EReal) = _
  unfold Cert.Spec.eye IntOp.cmpi
  by_cases hij : i = j
  · subst hij
    simp
  · have hne : (BitVec.ofNat 32 i.val == BitVec.ofNat 32 j.val) = false := by
      rw [beq_eq_false_iff_ne]
      intro h
      have h' := congrArg BitVec.toNat h
      rw [BitVec.toNat_ofNat, BitVec.toNat_ofNat] at h'
      have hi := i.isLt
      have hj := j.isLt
      exact hij (Fin.ext (by omega))
    rw [if_neg hij]
    simp [hne]

/-! ## The scatter matrix -/

/-- The scatter matrix: the summed Gram matrices less `N` times the outer product of the column means. -/
theorem pay2_apply (v0 : Vec Ideal S2x1x512 .f32) (v3 : Vec Ideal S2x512x512 .f32) (i j : Fin 512) :
    k1_pay2 v0 v3 (ix2 i j)
      = Cert.Spec.OnePass.C (fun j => ∑ c : Fin 2, v0 (ix3 c 0 j)) (fun i j => ∑ c : Fin 2, v3 (ix3 c i j)) i j := by
  unfold k1_pay2
  dsimp only []
  rw [subf_apply, mulf_apply, mulf_apply, broadcast_apply, broadcastTo_a1_ab_apply, transpose_ix2_apply,
    broadcastTo_1b_ab_apply, divf_apply, divf_apply, broadcast_apply, broadcast_apply, stackSum_apply, stackSum_apply,
    stackSum_apply, shapeCast_self, shapeCast_self]
  rfl

/-! ## The variances: the scatter matrix's diagonal along a row and along a column -/

/-- The column sums and the Gram matrix the block works from: the two partial results added. -/
abbrev colSums (v0 : Vec Ideal S2x1x512 .f32) : Fin 512 → EReal := fun j => ∑ c : Fin 2, v0 (ix3 c 0 j)
abbrev gramSum (v3 : Vec Ideal S2x512x512 .f32) : Fin 512 → Fin 512 → EReal := fun i j => ∑ c : Fin 2, v3 (ix3 c i j)

/-- The diagonal read along a row, over `N - 1`, as a column. -/
theorem pay4_apply (v0 : Vec Ideal S2x1x512 .f32) (v3 : Vec Ideal S2x512x512 .f32) (i : Fin 512) (u : Fin 1) :
    k1_pay4 v0 v3 (ix2 i u) = Cert.Spec.OnePass.vrow (colSums v0) (gramSum v3) i := by
  unfold k1_pay4
  dsimp only []
  rw [divf_apply, broadcast_apply, shapeCast_a_a1_apply, rowSum_apply]
  simp only [mulf_apply, pay2_apply, pay3_apply]
  rfl

/-- The entropy term of that variance, as a column. -/
theorem pay5_apply (v0 : Vec Ideal S2x1x512 .f32) (v3 : Vec Ideal S2x512x512 .f32) (i : Fin 512) (u : Fin 1) :
    k1_pay5 v0 v3 (ix2 i u) = Cert.Spec.ent (Cert.Spec.OnePass.vrow (colSums v0) (gramSum v3) i) := by
  unfold k1_pay5
  show FloatOps.mulf _ (FloatOps.log (FloatOps.mulf _ (FloatOps.addf (k1_pay4 v0 v3 (ix2 i u)) _))) = _
  rw [pay4_apply]
  rfl

/-- The guarded standard deviation of that variance, as a column. -/
theorem pay6_apply (v0 : Vec Ideal S2x1x512 .f32) (v3 : Vec Ideal S2x512x512 .f32) (i : Fin 512) (u : Fin 1) :
    k1_pay6 v0 v3 (ix2 i u) = Cert.Spec.sdev (Cert.Spec.OnePass.vrow (colSums v0) (gramSum v3) i) := by
  unfold k1_pay6
  show FloatOps.addf (FloatOps.sqrt (k1_pay4 v0 v3 (ix2 i u))) _ = _
  rw [pay4_apply]
  rfl

/-- The diagonal read along a column, over `N - 1`, as a row. -/
theorem pay7_apply (v0 : Vec Ideal S2x1x512 .f32) (v3 : Vec Ideal S2x512x512 .f32) (u : Fin 1) (j : Fin 512) :
    k1_pay7 v0 v3 (ix2 u j) = Cert.Spec.OnePass.vcol (colSums v0) (gramSum v3) j := by
  unfold k1_pay7
  dsimp only []
  rw [divf_apply, broadcast_apply, shapeCast_a_1a_apply, colSum_apply]
  simp only [mulf_apply, pay2_apply, pay3_apply]
  rfl

/-! ## The remaining pointwise operations at an index -/

section Pointwise
variable {s : Shape} {φ : FTy}

/-- A logarithm at an index is the element's. -/
theorem log_apply (a : FVec Ideal s φ) (i : s.Idx) : log a i = Ideal.log (a i) := rfl
/-- A square root at an index is the element's. -/
theorem sqrt_apply (a : FVec Ideal s φ) (i : s.Idx) : sqrt a i = Ideal.sqrt (a i) := rfl
/-- An absolute value at an index is the larger of the element and its negation. -/
theorem absf_apply (a : FVec Ideal s φ) (i : s.Idx) : absf a i = max (a i) (-(a i)) := rfl

end Pointwise

/-! ## The sum of the adjacency -/

/-- The sum of a matrix over both axes, rows first, plus the guard. -/
theorem pay8_apply (v52 : Vec Ideal S512x512 .f32) (u u' : Fin 1) :
    k1_pay8 v52 (ix2 u u') = (∑ i : Fin 512, ∑ j : Fin 512, v52 (ix2 i j)) + Cert.Spec.eps := by
  unfold k1_pay8
  dsimp only []
  rw [addf_apply, broadcast_apply, shapeCast_a_1a_apply, colSum_apply]
  refine congrArg (· + Cert.Spec.eps) (Finset.sum_congr rfl fun k _ => ?_)
  rw [shapeCast_a_a1_apply]
  exact rowSum_apply v52 _ _ _ k

/-! ## The entropy penalty -/

/-- The adjacency-weighted sum of the positive parts of the entropy differences, over the guarded sum of the
    adjacency: `ea` the entropy terms by row, `vb` the variances by column. -/
theorem pay9_apply (v34 : FVec Ideal S512x1 .f32) (v39 : FVec Ideal S1x512 .f32) (v52 : Vec Ideal S512x512 .f32)
    (ea vb : Fin 512 → EReal) (h34 : ∀ (i : Fin 512) (u : Fin 1), v34 (ix2 i u) = ea i)
    (h39 : ∀ (u : Fin 1) (j : Fin 512), v39 (ix2 u j) = vb j) (u u' : Fin 1) :
    k1_pay9 v34 v39 (Scalar.ofBits .f32 0x322BCC77#32) v52 (ix2 u u')
      = Ideal.div (∑ i : Fin 512, ∑ j : Fin 512, v52 (ix2 i j) * max (ea i - Cert.Spec.ent (vb j)) 0)
          ((∑ i : Fin 512, ∑ j : Fin 512, v52 (ix2 i j)) + Cert.Spec.eps) := by
  unfold k1_pay9
  dsimp only []
  rw [divf_apply, pay8_apply, shapeCast_a_1a_apply, colSum_apply]
  refine congrArg (fun t => Ideal.div t _) (Finset.sum_congr rfl fun k _ => ?_)
  rw [shapeCast_a_a1_apply, rowSum_apply]
  refine Finset.sum_congr rfl fun l _ => ?_
  rw [mulf_apply, maximumf_apply, subf_apply, broadcastTo_a1_ab_apply, broadcastTo_1b_ab_apply, broadcast_apply,
    mulf_apply, broadcast_apply, log_apply, mulf_apply, broadcast_apply, addf_apply, broadcast_apply, h34, h39]
  simp only [Ideal.ofBits_def, Ideal.ofBits_zero_f32]
  rfl

/-! ## The two matrix products -/

/-- The product contracting the left operand's columns with the right operand's rows: `∑ c, A (a, c) * B (c, b)`. -/
theorem matmul_rc_apply (A B : FVec Ideal S512x512 .f32) (a b : Fin 512) :
    matmul dot_S512x512_S512x512_S512x512_1_0_0_1_n_n (some .fp32) A B (constant S512x512 .f32 0x00000000#32) (ix2 a b)
      = ∑ c : Fin 512, A (ix2 a c) * B (ix2 c b) := by
  show FloatOps.matmul _ _ A B (constant (F := Ideal) S512x512 .f32 0x00000000#32) (ix2 a b) = _
  rw [Ideal.matmul_constant_zero_apply,
    ← Equiv.sum_comp (contrEquiv1 dot_S512x512_S512x512_S512x512_1_0_0_1_n_n 512 rfl rfl).symm]
  refine Finset.sum_congr rfl fun c _ => ?_
  have c2 := contrEquiv1_symm_val dot_S512x512_S512x512_S512x512_1_0_0_1_n_n 512 rfl rfl c
  have l2 : dot_S512x512_S512x512_S512x512_1_0_0_1_n_n.lhsIdx (ix2 a b) ((contrEquiv1 _ 512 rfl rfl).symm c)
      = ix2 a c := by
    funext ax; apply Fin.ext
    match ax with
    | ⟨0, _⟩ => simp [DotDims.lhsIdx, dot_S512x512_S512x512_S512x512_1_0_0_1_n_n]; rfl
    | ⟨1, _⟩ => simp [DotDims.lhsIdx, dot_S512x512_S512x512_S512x512_1_0_0_1_n_n]; exact c2
  have r2 : dot_S512x512_S512x512_S512x512_1_0_0_1_n_n.rhsIdx (ix2 a b) ((contrEquiv1 _ 512 rfl rfl).symm c)
      = ix2 c b := by
    funext ax; apply Fin.ext
    match ax with
    | ⟨0, _⟩ => simp [DotDims.rhsIdx, dot_S512x512_S512x512_S512x512_1_0_0_1_n_n]; exact c2
    | ⟨1, _⟩ => simp [DotDims.rhsIdx, dot_S512x512_S512x512_S512x512_1_0_0_1_n_n]; rfl
  rw [l2, r2]

/-- The product contracting the rows of both operands: `∑ c, A (c, a) * B (c, b)`. -/
theorem matmul_rr_apply (A B : FVec Ideal S512x512 .f32) (a b : Fin 512) :
    matmul dot_S512x512_S512x512_S512x512_0_0_1_1_n_n (some .fp32) A B (constant S512x512 .f32 0x00000000#32) (ix2 a b)
      = ∑ c : Fin 512, A (ix2 c a) * B (ix2 c b) := by
  show FloatOps.matmul _ _ A B (constant (F := Ideal) S512x512 .f32 0x00000000#32) (ix2 a b) = _
  rw [Ideal.matmul_constant_zero_apply,
    ← Equiv.sum_comp (contrEquiv1 dot_S512x512_S512x512_S512x512_0_0_1_1_n_n 512 rfl rfl).symm]
  refine Finset.sum_congr rfl fun c _ => ?_
  have c2 := contrEquiv1_symm_val dot_S512x512_S512x512_S512x512_0_0_1_1_n_n 512 rfl rfl c
  have l2 : dot_S512x512_S512x512_S512x512_0_0_1_1_n_n.lhsIdx (ix2 a b) ((contrEquiv1 _ 512 rfl rfl).symm c)
      = ix2 c a := by
    funext ax; apply Fin.ext
    match ax with
    | ⟨0, _⟩ => simp [DotDims.lhsIdx, dot_S512x512_S512x512_S512x512_0_0_1_1_n_n]; exact c2
    | ⟨1, _⟩ => simp [DotDims.lhsIdx, dot_S512x512_S512x512_S512x512_0_0_1_1_n_n]; rfl
  have r2 : dot_S512x512_S512x512_S512x512_0_0_1_1_n_n.rhsIdx (ix2 a b) ((contrEquiv1 _ 512 rfl rfl).symm c)
      = ix2 c b := by
    funext ax; apply Fin.ext
    match ax with
    | ⟨0, _⟩ => simp [DotDims.rhsIdx, dot_S512x512_S512x512_S512x512_0_0_1_1_n_n]; exact c2
    | ⟨1, _⟩ => simp [DotDims.rhsIdx, dot_S512x512_S512x512_S512x512_0_0_1_1_n_n]; rfl
  rw [l2, r2]

/-! ## The normalised cross matrix -/

/-- The cross matrix `C (I - A)` over `N`, over the product of the row's guarded deviation `sx` and the guarded
    deviation of the residual variance read off the diagonal of `(I - A)ᵀ C (I - A)`, in absolute value. -/
theorem pay10_apply (v14 v19 : FVec Ideal S512x512 .f32) (v37 : FVec Ideal S512x1 .f32)
    (v52 : Vec Ideal S512x512 .f32) (s1 : Fin 512 → EReal) (s2 : Fin 512 → Fin 512 → EReal) (sx : Fin 512 → EReal)
    (h14 : ∀ i j : Fin 512, v14 (ix2 i j) = Cert.Spec.OnePass.C s1 s2 i j)
    (h19 : ∀ i j : Fin 512, v19 (ix2 i j) = Cert.Spec.eye i j)
    (h37 : ∀ (i : Fin 512) (u : Fin 1), v37 (ix2 i u) = sx i) (i j : Fin 512) :
    k1_pay10 v14 v19 v37 v52 (ix2 i j)
      = Cert.Spec.corr (Cert.Spec.OnePass.CB s1 s2 (fun a b => v52 (ix2 a b)) i j) (sx i)
          (Cert.Spec.sdev (Cert.Spec.OnePass.wcol s1 s2 (fun a b => v52 (ix2 a b)) j)) := by
  have hCB : ∀ a b : Fin 512,
      matmul dot_S512x512_S512x512_S512x512_1_0_0_1_n_n (some .fp32) v14 (subf v19 v52)
          (constant S512x512 .f32 0x00000000#32) (ix2 a b)
        = Cert.Spec.OnePass.CB s1 s2 (fun a b => v52 (ix2 a b)) a b := by
    intro a b
    rw [matmul_rc_apply]
    refine Finset.sum_congr rfl fun c _ => ?_
    rw [subf_apply, h14, h19]
    rfl
  unfold k1_pay10
  dsimp only []
  rw [absf_apply, divf_apply, divf_apply, broadcast_apply, mulf_apply, broadcastTo_a1_ab_apply, broadcastTo_1b_ab_apply,
    addf_apply, broadcast_apply, sqrt_apply, divf_apply, broadcast_apply, shapeCast_a_1a_apply, colSum_apply, hCB, h37]
  have hW : (∑ k : Fin 512, mulf (matmul dot_S512x512_S512x512_S512x512_0_0_1_1_n_n (some .fp32) (subf v19 v52)
        (matmul dot_S512x512_S512x512_S512x512_1_0_0_1_n_n (some .fp32) v14 (subf v19 v52)
          (constant S512x512 .f32 0x00000000#32)) (constant S512x512 .f32 0x00000000#32)) v19 (ix2 k j))
      = ∑ k : Fin 512, Cert.Spec.OnePass.BCB s1 s2 (fun a b => v52 (ix2 a b)) k j * Cert.Spec.eye k j := by
    refine Finset.sum_congr rfl fun k _ => ?_
    rw [mulf_apply, h19, matmul_rr_apply]
    refine congrArg (· * Cert.Spec.eye k j) (Finset.sum_congr rfl fun c _ => ?_)
    rw [hCB, subf_apply, h19]
    rfl
  rw [hW]
  simp only [Ideal.ofBits_def]
  rfl

/-! ## The closing combination -/

/-- The penalty from its parts: `den` the guarded sum of the adjacency, `lent` the entropy penalty, `R` the
    normalised cross matrix. -/
theorem pay1_apply (v19 : FVec Ideal S512x512 .f32) (v52 : Vec Ideal S512x512 .f32) (v63 v64 : FVec Ideal S1x1 .f32)
    (v82 : FVec Ideal S512x512 .f32) (den lent : EReal) (R : Fin 512 → Fin 512 → EReal)
    (h19 : ∀ i j : Fin 512, v19 (ix2 i j) = Cert.Spec.eye i j)
    (h63 : ∀ u u' : Fin 1, v63 (ix2 u u') = den) (h64 : ∀ u u' : Fin 1, v64 (ix2 u u') = lent)
    (h82 : ∀ i j : Fin 512, v82 (ix2 i j) = R i j) (u u' : Fin 1) :
    k1_pay1 v19 v52 v63 v64 v82 (Scalar.ofBits .f32 0x3F800000#32) (ix2 u u')
      = Cert.Spec.tenth * (lent + Cert.Spec.half * Ideal.div
          (∑ i : Fin 512, ∑ j : Fin 512, v52 (ix2 i j) * (R i j * (Cert.Spec.one - Cert.Spec.eye i j))) den) := by
  unfold k1_pay1
  dsimp only []
  rw [mulf_apply, broadcast_apply, addf_apply, mulf_apply, broadcast_apply, divf_apply, shapeCast_a_1a_apply,
    colSum_apply, h63, h64]
  have hS : (∑ k : Fin 512, shapeCast S512x1 (multiReduction .add [1] S512
        (mulf v52 (mulf v82 (subf (broadcast S512x512 (Scalar.ofBits (F := Ideal) .f32 0x3F800000#32)) v19)))
        0x00000000#32 reduces_S512x512_S512 (.inl rfl) rfl) shapeCasts_S512_S512x1 (ix2 k u'))
      = ∑ i : Fin 512, ∑ j : Fin 512, v52 (ix2 i j) * (R i j * (Cert.Spec.one - Cert.Spec.eye i j)) := by
    refine Finset.sum_congr rfl fun k _ => ?_
    rw [shapeCast_a_a1_apply, rowSum_apply]
    refine Finset.sum_congr rfl fun l _ => ?_
    rw [mulf_apply, mulf_apply, subf_apply, broadcast_apply, h82, h19]
    rfl
  rw [hS]
  rfl

end Cert.KernelIdeal.EpiOps

end
-- ==== Proof.EpiValue.lean ====
/-
  The value the closing block stores: the single-pass penalty of the summed column sums, the summed Gram matrices
  and the adjacency.

  The block loads its three whole operands, so each load reads the operand itself and its one store leaves the
  closing combination. Its named values, read at an index, are the terms of the penalty: the scatter matrix, the
  variances read off its diagonal by row and by column, their entropy terms and guarded deviations, the cross
  matrix `C (I - A)`, the residual variances off the diagonal of `(I - A)ᵀ C (I - A)`, and the two weighted sums
  over the guarded sum of the adjacency.
-/
import proofs.«176857_j82240033784130_2_alg».proof.Proof.EpiOps
import proofs.«176857_j82240033784130_2_alg».proof.Proof.Gen.KernelIdeal.Frame

open Idealize.ShloMosaic Idealize.ShloMosaic.ValueIdx
open scoped BigOperators

noncomputable section

namespace Cert.KernelIdeal.EpiValue

open Cert.KernelIdeal.Gen Cert.KernelIdeal.EpiOps

/-- The rank-2 whole-operand offsets are zero. -/
theorem hz2 : (![0, 0] : Fin 2 → Nat) = fun _ => 0 := funext fun a => by fin_cases a <;> rfl
/-- The rank-3 whole-operand offsets are zero. -/
theorem hz3 : (![0, 0, 0] : Fin 3 → Nat) = fun _ => 0 := funext fun a => by fin_cases a <;> rfl

/-- What the block stores is the single-pass penalty of the two partial column sums added, the two partial Gram
    matrices added, and the adjacency. -/
theorem out1_3_value (x0 : Vec Ideal S2x1x512 .f32) (x1 : Vec Ideal S2x512x512 .f32) (x2 : Vec Ideal S512x512 .f32) :
    Cert.KernelIdeal.Gen.out1_3 (F := Ideal) x0 x1 x2
      = fun _ => Cert.Spec.OnePass.resultOf (fun j => ∑ c : Fin 2, x0 (ValueIdx.ix3 c 0 j))
          (fun i j => ∑ c : Fin 2, x1 (ValueIdx.ix3 c i j)) (fun i j => x2 (ValueIdx.ix2 i j)) := by
  unfold Cert.KernelIdeal.Gen.out1_3
  rw [View.canon_unit_zero hz2]
  simp only [View.ld_unit_zero (S := S2x1x512) hz3, View.ld_unit_zero (S := S2x512x512) hz3,
    View.ld_unit_zero (S := S512x512) hz2]
  funext y
  obtain ⟨u, u', rfl⟩ : ∃ (u : Fin 1) (u' : Fin 1), y = ix2 u u' := ⟨y 0, y 1, eq_ix2 y⟩
  rw [pay1_apply (k1_pay3 (F := Ideal)) x2 _ _ _
    ((∑ i : Fin 512, ∑ j : Fin 512, x2 (ix2 i j)) + Cert.Spec.eps)
    (Ideal.div (∑ i : Fin 512, ∑ j : Fin 512, x2 (ix2 i j)
        * max (Cert.Spec.ent (Cert.Spec.OnePass.vrow (colSums x0) (gramSum x1) i)
          - Cert.Spec.ent (Cert.Spec.OnePass.vcol (colSums x0) (gramSum x1) j)) 0)
      ((∑ i : Fin 512, ∑ j : Fin 512, x2 (ix2 i j)) + Cert.Spec.eps))
    (fun i j => Cert.Spec.corr (Cert.Spec.OnePass.CB (colSums x0) (gramSum x1) (fun a b => x2 (ix2 a b)) i j)
      (Cert.Spec.sdev (Cert.Spec.OnePass.vrow (colSums x0) (gramSum x1) i))
      (Cert.Spec.sdev (Cert.Spec.OnePass.wcol (colSums x0) (gramSum x1) (fun a b => x2 (ix2 a b)) j)))
    pay3_apply (pay8_apply x2)
    (pay9_apply _ _ x2 _ _ (fun i u => pay5_apply x0 x1 i u) (fun u j => pay7_apply x0 x1 u j))
    (pay10_apply _ _ _ x2 (colSums x0) (gramSum x1) _ (pay2_apply x0 x1) pay3_apply
      (fun i u => pay6_apply x0 x1 i u)) u u']
  rfl

end Cert.KernelIdeal.EpiValue

end
-- ==== Proof.StatsOps.lean ====
/-
  The first region's body, case by case, read back as values: what each case leaves in the two output blocks is the
  body's payload of the input block and of the block's previous contents (the reset case: of the zero block).
-/
import proofs.«176857_j82240033784130_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsOps

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 400000 in
/-- The accumulating case, output 1: the payload of the input block and the block's previous contents. -/
theorem out_B_1 (c : Dev nD) (i : grid0.Coords) (a2 : Memref sig .tc .vmem S4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x : Vec F S4096x512 .f32) (xo1 : Vec F S1x1x512 .f32) (xo2 : Vec F S1x512x512 .f32) :
    out0_B_1 c i a2 h2 a3 h3 a4 h4 hc x xo1 xo2 = k0_pay3 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S4096x512) hz2,
    View.ld_unit_zero (S := S1x1x512) hz3]

set_option maxHeartbeats 400000 in
/-- The accumulating case, output 2. -/
theorem out_B_2 (c : Dev nD) (i : grid0.Coords) (a2 : Memref sig .tc .vmem S4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x : Vec F S4096x512 .f32) (xo1 : Vec F S1x1x512 .f32) (xo2 : Vec F S1x512x512 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S4096x512) hz2,
    View.ld_unit_zero (S := S1x512x512) hz3]

set_option maxHeartbeats 400000 in
/-- The reset case, output 1: the payload of the input block and the zero block the reset stores. -/
theorem out_A_1 (c : Dev nD) (i : grid0.Coords) (a2 : Memref sig .tc .vmem S4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x : Vec F S4096x512 .f32) :
    out0_A_1 c i a2 h2 a3 h3 a4 h4 hc x = k0_pay3 x k0_pay1 := by
  unfold out0_A_1
  rw [View.read_writes_eq_canon _ _ _ (cover0_A_1 c i a2 h2 a3 h3 a4 h4 hc x)]
  unfold kernelRun0_A
  dsimp only
  sl_unfold_words
  rw [View.canon_cons_unit_zero (S := S1x1x512) hz3, View.readCov_unit_zero (S := S1x1x512) _ hz3]
  simp only [View.readAt_eq_ld, h2.read_unread, View.ld_unit_zero (S := S4096x512) hz2]

set_option maxHeartbeats 400000 in
/-- The reset case, output 2. -/
theorem out_A_2 (c : Dev nD) (i : grid0.Coords) (a2 : Memref sig .tc .vmem S4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x : Vec F S4096x512 .f32) :
    out0_A_2 c i a2 h2 a3 h3 a4 h4 hc x = k0_pay4 x k0_pay2 := by
  unfold out0_A_2
  rw [View.read_writes_eq_canon _ _ _ (cover0_A_2 c i a2 h2 a3 h3 a4 h4 hc x)]
  unfold kernelRun0_A
  dsimp only
  sl_unfold_words
  rw [View.canon_cons_unit_zero (S := S1x512x512) hz3, View.readCov_unit_zero (S := S1x512x512) _ hz3]
  simp only [View.readAt_eq_ld, h2.read_unread, View.ld_unit_zero (S := S4096x512) hz2]

end Cert.KernelIdeal.StatsOps

end
-- ==== Proof.StatsPay.lean ====
/-
  The first region's payloads read at an index, over the extended reals: the zero blocks are zero, the column-sum
  payload adds the input block's column sum to the block's previous contents, the Gram payload adds the input block's
  products summed over its rows.
-/
import proofs.«176857_j82240033784130_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.StatsPay

open Cert.KernelIdeal Cert.KernelIdeal.Gen

/-- The zero block the reset stores in output 1 is zero everywhere. -/
theorem pay1_apply (y : S1x1x512.Idx) : k0_pay1 (F := Ideal) y = 0 := by
  unfold k0_pay1
  exact Ideal.ofBits_zero_f32

/-- The zero block the reset stores in output 2 is zero everywhere. -/
theorem pay2_apply (y : S1x512x512.Idx) : k0_pay2 (F := Ideal) y = 0 := by
  unfold k0_pay2
  exact Ideal.ofBits_zero_f32

/-- The index a column sum inserts its row at. -/
theorem lift_row (r : Fin 4096) (j : Fin 512) :
    reduces_S4096x512_S512.lift (ix1 j) r = ix2 r j := by
  funext a; apply Fin.ext
  match a with
  | ⟨0, _⟩ => rfl
  | ⟨1, _⟩ => rfl

set_option maxHeartbeats 400000 in
/-- The column-sum payload at a lane: the previous contents there plus the sum of the input block's column. -/
theorem pay3_apply (x : Vec Ideal S4096x512 .f32) (acc : Vec Ideal S1x1x512 .f32) (j : Fin 512) :
    k0_pay3 (F := Ideal) x acc (ix3 (0 : Fin 1) (0 : Fin 1) j)
      = acc (ix3 (0 : Fin 1) (0 : Fin 1) j) + ∑ r : Fin 4096, x (ix2 r j) := by
  unfold k0_pay3
  show shapeCast S1x1x512 acc shapeCasts_S1x1x512_S1x1x512 (ix3 (0 : Fin 1) (0 : Fin 1) j)
      + shapeCast S1x1x512 (multiReduction (F := Ideal) .add [0] S512 x 0x00000000#32 reduces_S4096x512_S512 (.inl rfl) rfl)
          shapeCasts_S512_S1x1x512 (ix3 (0 : Fin 1) (0 : Fin 1) j) = _
  rw [shapeCast_self]
  refine congrArg (acc (ix3 (0 : Fin 1) (0 : Fin 1) j) + ·) ?_
  refine (shapeCast_apply _ shapeCasts_S512_S1x1x512 (ix3 (0 : Fin 1) (0 : Fin 1) j) (ix1 j) ?_).trans ?_
  · rw [Shape.rowMajor_val_one, Shape.rowMajor_val_three]
    show j.val = ((0 : Fin 1).val * 1 + (0 : Fin 1).val) * 512 + j.val
    simp
  · refine (Ideal.multiReduction_add_single x 0x00000000#32 reduces_S4096x512_S512 (.inl rfl) rfl (ix1 j)).trans ?_
    exact Finset.sum_congr rfl fun r _ => congrArg x (lift_row r j)

/-- The Gram product contracts the one row axis of extent 4096. -/
abbrev gramEquiv : dot_S4096x512_S4096x512_S512x512_0_0_1_1_n_n.contr.Idx ≃ Fin 4096 :=
  contrEquiv1 dot_S4096x512_S4096x512_S512x512_0_0_1_1_n_n 4096 rfl rfl

/-- The left operand's index at output (i, j) and row r is (r, i). -/
theorem gram_lhsIdx (i j : Fin 512) (r : Fin 4096) :
    dot_S4096x512_S4096x512_S512x512_0_0_1_1_n_n.lhsIdx (ix2 i j) (gramEquiv.symm r) = ix2 r i := by
  have c2 := contrEquiv1_symm_val dot_S4096x512_S4096x512_S512x512_0_0_1_1_n_n 4096 rfl rfl r
  funext ax; apply Fin.ext
  match ax with
  | ⟨0, _⟩ => simp [DotDims.lhsIdx, dot_S4096x512_S4096x512_S512x512_0_0_1_1_n_n]; exact c2
  | ⟨1, _⟩ => simp [DotDims.lhsIdx, dot_S4096x512_S4096x512_S512x512_0_0_1_1_n_n]; rfl

/-- The right operand's index at output (i, j) and row r is (r, j). -/
theorem gram_rhsIdx (i j : Fin 512) (r : Fin 4096) :
    dot_S4096x512_S4096x512_S512x512_0_0_1_1_n_n.rhsIdx (ix2 i j) (gramEquiv.symm r) = ix2 r j := by
  have c2 := contrEquiv1_symm_val dot_S4096x512_S4096x512_S512x512_0_0_1_1_n_n 4096 rfl rfl r
  funext ax; apply Fin.ext
  match ax with
  | ⟨0, _⟩ => simp [DotDims.rhsIdx, dot_S4096x512_S4096x512_S512x512_0_0_1_1_n_n]; exact c2
  | ⟨1, _⟩ => simp [DotDims.rhsIdx, dot_S4096x512_S4096x512_S512x512_0_0_1_1_n_n]; rfl

set_option maxHeartbeats 400000 in
/-- The block product into the zero accumulator at (i, j): the products of columns i and j summed over the rows. -/
theorem gram_apply (x : FVec Ideal S4096x512 .bf16) (i j : Fin 512) :
    matmul (F := Ideal) dot_S4096x512_S4096x512_S512x512_0_0_1_1_n_n none x x (constant (F := Ideal) S512x512 .f32 0x00000000#32) (ix2 i j)
      = ∑ r : Fin 4096, x (ix2 r i) * x (ix2 r j) := by
  refine (Ideal.matmul_constant_zero_apply dot_S4096x512_S4096x512_S512x512_0_0_1_1_n_n none x x (ix2 i j)).trans ?_
  rw [← Equiv.sum_comp gramEquiv.symm]
  exact Finset.sum_congr rfl fun r _ => by rw [gram_lhsIdx, gram_rhsIdx]

set_option maxHeartbeats 400000 in
/-- The Gram payload at (i, j): the previous contents there plus the input block's products summed over its rows. -/
theorem pay4_apply (x : Vec Ideal S4096x512 .f32) (acc : Vec Ideal S1x512x512 .f32) (i j : Fin 512) :
    k0_pay4 (F := Ideal) x acc (ix3 (0 : Fin 1) i j)
      = acc (ix3 (0 : Fin 1) i j) + ∑ r : Fin 4096, x (ix2 r i) * x (ix2 r j) := by
  unfold k0_pay4
  show shapeCast S1x512x512 acc shapeCasts_S1x512x512_S1x512x512 (ix3 (0 : Fin 1) i j)
      + shapeCast S1x512x512 (matmul (F := Ideal) dot_S4096x512_S4096x512_S512x512_0_0_1_1_n_n none
            (truncf (F := Ideal) .bf16 x bitsLt_bf16_f32) (truncf (F := Ideal) .bf16 x bitsLt_bf16_f32)
            (constant (F := Ideal) S512x512 .f32 0x00000000#32))
          shapeCasts_S512x512_S1x512x512 (ix3 (0 : Fin 1) i j) = _
  rw [shapeCast_self]
  refine congrArg (acc (ix3 (0 : Fin 1) i j) + ·) ?_
  refine (shapeCast_apply _ shapeCasts_S512x512_S1x512x512 (ix3 (0 : Fin 1) i j) (ix2 i j) ?_).trans ?_
  · rw [Shape.rowMajor_val_two, Shape.rowMajor_val_three]
    show i.val * 512 + j.val = ((0 : Fin 1).val * 512 + i.val) * 512 + j.val
    simp
  · exact gram_apply (truncf (F := Ideal) .bf16 x bitsLt_bf16_f32) i j

end Cert.KernelIdeal.StatsPay

end
-- ==== Proof.StatsAcc.lean ====
/-
  The value of the first region: its two result arrays hold, per core k, the column sums and the Gram matrix of rows
  [k·32768, (k+1)·32768) of the samples, each as the sum over the core's eight row blocks of the block's sums.

  The running contents after each grid point are read off the frame's accumulation: a point ≡ 0 (mod 8) leaves the
  zero block plus its block's sums, any other point the previous contents plus its block's sums; so after point n the
  blocks hold the partial sums over the points n - n % 8, …, n. The blocks are written back after the points ≡ 7
  (mod 8), block k of each result array at point 8k + 7.
-/
import proofs.«176857_j82240033784130_2_alg».proof.Proof.StatsOps
import proofs.«176857_j82240033784130_2_alg».proof.Proof.StatsPay

noncomputable section

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen Cert.KernelIdeal.StatsOps Cert.KernelIdeal.StatsPay

variable (V : (c : Dev nD) → (b : Ref sig .tc) → Buf (Elt Ideal) ((c : Thread nD τ).loc b)) (c : Dev nD)

/-- The samples as the region finds them. -/
abbrev X : S65536x512.Idx → EReal := V c (Pipeline.arrRef spec0 0)

/-- Row m of the samples, read on the naturals (zero past the array). -/
def xrow (m : ℕ) (j : Fin 512) : EReal := if h : m < 65536 then X V c (ix2 ⟨m, h⟩ j) else 0

/-- Row block n's column sum. -/
def blk1 (n : ℕ) (j : Fin 512) : EReal := ∑ r : Fin 4096, xrow V c (n * 4096 + r.val) j

/-- Row block n's Gram entry. -/
def blk2 (n : ℕ) (i j : Fin 512) : EReal := ∑ r : Fin 4096, xrow V c (n * 4096 + r.val) i * xrow V c (n * 4096 + r.val) j

/-- The input window's block index at point t is (t, 0). -/
theorem in_index : ∀ t : Fin cfg0.N, win0_0.index t 0 = t.val ∧ win0_0.index t 1 = 0 :=
  (by decide +kernel : ∀ t : Fin grid0.N, win0_0.index t 0 = t.val ∧ win0_0.index t 1 = 0)

set_option maxHeartbeats 400000 in
/-- The input block at point t read at (r, j) is the samples' row t·4096 + r. -/
theorem iblk_apply (t : Fin cfg0.N) (r : Fin 4096) (j : Fin 512) :
    iblk0 (F := Ideal) V c 0 t (ix2 r j) = xrow V c (t.val * 4096 + r.val) j := by
  have hN : t.val < 16 := lt_of_lt_of_eq t.isLt (show cfg0.N = 16 from N_0)
  have hi := in_index t
  unfold xrow
  rw [dif_pos (by omega)]
  unfold iblk0 X
  rw [View.read_apply]
  refine congrArg (V c (Pipeline.arrRef spec0 0)) (funext fun a => Fin.ext ?_)
  match a with
  | ⟨0, _⟩ => show win0_0.index t 0 * 4096 + 1 * r.val = t.val * 4096 + r.val; rw [hi.1]; omega
  | ⟨1, _⟩ => show win0_0.index t 1 * 512 + 1 * j.val = j.val; rw [hi.2]; omega

/-! ## One point of the accumulation -/

set_option maxHeartbeats 400000 in
/-- A reset point leaves its block's column sums in output 1. -/
theorem step1_A (t : Fin cfg0.N) (h0 : t.val % 8 = 0) (j : Fin 512) :
    (outsAt0 (F := Ideal) V c t.val t.isLt).1 (ix3 (0 : Fin 1) (0 : Fin 1) j) = blk1 V c t.val j := by
  rw [outsAt0_A V c t h0]
  dsimp only
  refine (congrFun (out_A_1 (F := Ideal) c (grid0.coords t) (ms0_0 t) (hs0_0 t) (ms0_1 t) (hs0_1 t) (ms0_2 t) (hs0_2 t)
    ((hcond0_0 t).mpr h0) (iblk0 V c 0 t)) (ix3 (0 : Fin 1) (0 : Fin 1) j)).trans ?_
  refine (pay3_apply (iblk0 V c 0 t) (k0_pay1 (F := Ideal)) j).trans ?_
  rw [pay1_apply, zero_add]
  exact Finset.sum_congr rfl fun r _ => iblk_apply V c t r j

set_option maxHeartbeats 400000 in
/-- A reset point leaves its block's Gram entries in output 2. -/
theorem step2_A (t : Fin cfg0.N) (h0 : t.val % 8 = 0) (i j : Fin 512) :
    (outsAt0 (F := Ideal) V c t.val t.isLt).2 (ix3 (0 : Fin 1) i j) = blk2 V c t.val i j := by
  rw [outsAt0_A V c t h0]
  dsimp only
  refine (congrFun (out_A_2 (F := Ideal) c (grid0.coords t) (ms0_0 t) (hs0_0 t) (ms0_1 t) (hs0_1 t) (ms0_2 t) (hs0_2 t)
    ((hcond0_0 t).mpr h0) (iblk0 V c 0 t)) (ix3 (0 : Fin 1) i j)).trans ?_
  refine (pay4_apply (iblk0 V c 0 t) (k0_pay2 (F := Ideal)) i j).trans ?_
  rw [pay2_apply, zero_add]
  exact Finset.sum_congr rfl fun r _ => by rw [iblk_apply V c t r i, iblk_apply V c t r j]

set_option maxHeartbeats 400000 in
/-- Any other point adds its block's column sums to what the point before left in output 1. -/
theorem step1_B (t : Fin cfg0.N) (h0 : ¬t.val % 8 = 0) (j : Fin 512) :
    (outsAt0 (F := Ideal) V c t.val t.isLt).1 (ix3 (0 : Fin 1) (0 : Fin 1) j)
      = (outsAt0 (F := Ideal) V c (t.val - 1) (Nat.lt_of_le_of_lt (Nat.sub_le _ _) t.isLt)).1 (ix3 (0 : Fin 1) (0 : Fin 1) j)
        + blk1 V c t.val j := by
  rw [outsAt0_B V c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) (0 : Fin 1) j)).trans ?_
  refine (pay3_apply (iblk0 V c 0 t) _ j).trans ?_
  exact congrArg (_ + ·) (Finset.sum_congr rfl fun r _ => iblk_apply V c t r j)

set_option maxHeartbeats 400000 in
/-- Any other point adds its block's Gram entries to what the point before left in output 2. -/
theorem step2_B (t : Fin cfg0.N) (h0 : ¬t.val % 8 = 0) (i j : Fin 512) :
    (outsAt0 (F := Ideal) V c t.val t.isLt).2 (ix3 (0 : Fin 1) i j)
      = (outsAt0 (F := Ideal) V c (t.val - 1) (Nat.lt_of_le_of_lt (Nat.sub_le _ _) t.isLt)).2 (ix3 (0 : Fin 1) i j)
        + blk2 V c t.val i j := by
  rw [outsAt0_B V c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) i j)).trans ?_
  refine (pay4_apply (iblk0 V c 0 t) _ i j).trans ?_
  exact congrArg (_ + ·) (Finset.sum_congr rfl fun r _ => by rw [iblk_apply V c t r i, iblk_apply V c t r j])

/-! ## The running contents after every point -/

/-- After point n output 1 holds the column sums of the row blocks n - n % 8, …, n. -/
theorem inv1 (j : Fin 512) : ∀ (n : ℕ) (h : n < cfg0.N),
    (outsAt0 (F := Ideal) V c n h).1 (ix3 (0 : Fin 1) (0 : Fin 1) j)
      = ∑ s ∈ Finset.range (n % 8 + 1), blk1 V c (n - n % 8 + s) j
  | 0, h => by
    refine (step1_A V c ⟨0, h⟩ rfl j).trans ?_
    simp
  | n + 1, h => by
    by_cases h0 : (n + 1) % 8 = 0
    · refine (step1_A V c ⟨n + 1, h⟩ h0 j).trans ?_
      show blk1 V c (n + 1) j = _
      rw [h0]
      simp
    · refine (step1_B V c ⟨n + 1, h⟩ h0 j).trans ?_
      show (outsAt0 (F := Ideal) V c n _).1 _ + blk1 V c (n + 1) j = _
      rw [inv1 j n (Nat.lt_of_succ_lt h)]
      have e1 : (n + 1) % 8 = n % 8 + 1 := by omega
      have e2 : n + 1 - (n % 8 + 1) = n - n % 8 := by omega
      have e3 : n - n % 8 + (n % 8 + 1) = n + 1 := by have := Nat.mod_le n 8; omega
      rw [e1, e2, Finset.sum_range_succ _ (n % 8 + 1), e3]

/-- After point n output 2 holds the Gram entries of the row blocks n - n % 8, …, n. -/
theorem inv2 (i j : Fin 512) : ∀ (n : ℕ) (h : n < cfg0.N),
    (outsAt0 (F := Ideal) V c n h).2 (ix3 (0 : Fin 1) i j)
      = ∑ s ∈ Finset.range (n % 8 + 1), blk2 V c (n - n % 8 + s) i j
  | 0, h => by
    refine (step2_A V c ⟨0, h⟩ rfl i j).trans ?_
    simp
  | n + 1, h => by
    by_cases h0 : (n + 1) % 8 = 0
    · refine (step2_A V c ⟨n + 1, h⟩ h0 i j).trans ?_
      show blk2 V c (n + 1) i j = _
      rw [h0]
      simp
    · refine (step2_B V c ⟨n + 1, h⟩ h0 i j).trans ?_
      show (outsAt0 (F := Ideal) V c n _).2 _ + blk2 V c (n + 1) i j = _
      rw [inv2 i j n (Nat.lt_of_succ_lt h)]
      have e1 : (n + 1) % 8 = n % 8 + 1 := by omega
      have e2 : n + 1 - (n % 8 + 1) = n - n % 8 := by omega
      have e3 : n - n % 8 + (n % 8 + 1) = n + 1 := by have := Nat.mod_le n 8; omega
      rw [e1, e2, Finset.sum_range_succ _ (n % 8 + 1), e3]

end Cert.KernelIdeal.StatsValue

end
-- ==== Proof.StatsValue.lean ====
/-
  The first region's two result arrays: block k of each is written back once, after point 8k + 7, holding core k's
  sums; the two blocks tile the arrays; so the arrays end holding, at (k, ·, ·), core k's column sums and Gram matrix.
-/
import proofs.«176857_j82240033784130_2_alg».proof.Proof.StatsAcc

noncomputable section

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen Cert.KernelIdeal.StatsOps Cert.KernelIdeal.StatsPay

variable (V : (c : Dev nD) → (b : Ref sig .tc) → Buf (Elt Ideal) ((c : Thread nD τ).loc b)) (c : Dev nD)

/-- Output 1's block index at point t is (t / 8, 0, 0). -/
theorem out1_index : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- Output 2's block index at point t is (t / 8, 0, 0). -/
theorem out2_index : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- Core k's column sums: over its eight row blocks. -/
def g1 (k : ℕ) (j : Fin 512) : EReal := ∑ s ∈ Finset.range 8, blk1 V c (k * 8 + s) j
/-- Core k's Gram matrix: over its eight row blocks. -/
def g2 (k : ℕ) (i j : Fin 512) : EReal := ∑ s ∈ Finset.range 8, blk2 V c (k * 8 + s) i j

/-- What result array 1 ends holding. -/
def G1 : S2x1x512.Idx → EReal := fun y => g1 V c (y 0).val ⟨(y 2).val, (y 2).isLt⟩
/-- What result array 2 ends holding. -/
def G2 : S2x512x512.Idx → EReal := fun y => g2 V c (y 0).val ⟨(y 1).val, (y 1).isLt⟩ ⟨(y 2).val, (y 2).isLt⟩

set_option maxHeartbeats 400000 in
/-- A write-back of output 1 writes its block of `G1`. -/
theorem flushed1_eq (t : Fin cfg0.N) (hf : (cfg0.win 1).flush t = true) :
    (dat0 (F := Ideal) V c).flushed 1 t = ((cfg0.win 1).blk t).view.read (Elt Ideal) (G1 V c) := by
  have hN : t.val < 16 := lt_of_lt_of_eq t.isLt (show cfg0.N = 16 from N_0)
  have h7 : t.val % 8 = 7 := (flush0_1 t).mp hf
  have hi := out1_index t
  show (cfg0.win 1).cut (grid0.coords t) ((dat0 V c).after 1 t) = _
  rw [after0_1]
  have key : ∀ y : S1x1x512.Idx, (outsAt0 (F := Ideal) V c t.val t.isLt).1 y = G1 V c (((cfg0.win 1).blk t).view.emb y) := by
    intro y
    obtain ⟨a, b, j, rfl⟩ : ∃ (a : Fin 1) (b : Fin 1) (j : Fin 512), y = ix3 a b j := ⟨y 0, y 1, y 2, eq_ix3 y⟩
    obtain rfl : a = 0 := Subsingleton.elim _ _
    obtain rfl : b = 0 := Subsingleton.elim _ _
    rw [inv1 V c j t.val t.isLt, h7]
    have e0 : ((((cfg0.win 1).blk t).view.emb (ix3 (0 : Fin 1) (0 : Fin 1) j)) 0).val = t.val / 8 := by
      show win0_1.index t 0 * 1 + 1 * 0 = _
      rw [hi.1]; omega
    have e2 : ((((cfg0.win 1).blk t).view.emb (ix3 (0 : Fin 1) (0 : Fin 1) j)) 2).val = j.val := by
      show win0_1.index t 2 * 512 + 1 * j.val = _
      rw [hi.2.2]; omega
    unfold G1 g1
    refine Finset.sum_congr rfl fun s _ => ?_
    refine congrArg₂ (blk1 V c) ?_ (Fin.ext e2.symm)
    rw [e0]; omega
  exact funext key

set_option maxHeartbeats 400000 in
/-- A write-back of output 2 writes its block of `G2`. -/
theorem flushed2_eq (t : Fin cfg0.N) (hf : (cfg0.win 2).flush t = true) :
    (dat0 (F := Ideal) V c).flushed 2 t = ((cfg0.win 2).blk t).view.read (Elt Ideal) (G2 V c) := by
  have hN : t.val < 16 := lt_of_lt_of_eq t.isLt (show cfg0.N = 16 from N_0)
  have h7 : t.val % 8 = 7 := (flush0_2 t).mp hf
  have hi := out2_index t
  show (cfg0.win 2).cut (grid0.coords t) ((dat0 V c).after 2 t) = _
  rw [after0_2]
  have key : ∀ y : S1x512x512.Idx, (outsAt0 (F := Ideal) V c t.val t.isLt).2 y = G2 V c (((cfg0.win 2).blk t).view.emb y) := by
    intro y
    obtain ⟨a, i, j, rfl⟩ : ∃ (a : Fin 1) (i : Fin 512) (j : Fin 512), y = ix3 a i j := ⟨y 0, y 1, y 2, eq_ix3 y⟩
    obtain rfl : a = 0 := Subsingleton.elim _ _
    rw [inv2 V c i j t.val t.isLt, h7]
    have e0 : ((((cfg0.win 2).blk t).view.emb (ix3 (0 : Fin 1) i j)) 0).val = t.val / 8 := by
      show win0_2.index t 0 * 1 + 1 * 0 = _
      rw [hi.1]; omega
    have e1 : ((((cfg0.win 2).blk t).view.emb (ix3 (0 : Fin 1) i j)) 1).val = i.val := by
      show win0_2.index t 1 * 512 + 1 * i.val = _
      rw [hi.2.1]; omega
    have e2 : ((((cfg0.win 2).blk t).view.emb (ix3 (0 : Fin 1) i j)) 2).val = j.val := by
      show win0_2.index t 2 * 512 + 1 * j.val = _
      rw [hi.2.2]; omega
    unfold G2 g2
    refine Finset.sum_congr rfl fun s _ => ?_
    have ea : t.val - 7 + s = ((((cfg0.win 2).blk t).view.emb (ix3 (0 : Fin 1) i j)) 0).val * 8 + s := by rw [e0]; omega
    rw [ea]
    exact congrArg₂ (blk2 V c _) (Fin.ext e1.symm) (Fin.ext e2.symm)
  exact funext key

set_option maxHeartbeats 400000 in
/-- Point 8k + 7's block of output 1 holds row k of the array. -/
theorem mem_blk1 (k : Fin 2) (j : Fin 512) (t : Fin cfg0.N) (ht : t.val = k.val * 8 + 7) :
    (ix3 k (0 : Fin 1) j : S2x1x512.Idx) ∈ ((cfg0.win 1).blk t).view.set := by
  have hi := out1_index t
  show (ix3 k (0 : Fin 1) j : S2x1x512.Idx) ∈ ((View.whole main_v0_0).slice (win0_1.rect t)).set
  rw [View.set_slice_whole, Rect.mem_set_unit]
  intro a
  match a with
  | ⟨0, _⟩ =>
    show win0_1.index t 0 * 1 ≤ k.val ∧ k.val < win0_1.index t 0 * 1 + 1
    rw [hi.1]; omega
  | ⟨1, _⟩ =>
    show win0_1.index t 1 * 1 ≤ 0 ∧ 0 < win0_1.index t 1 * 1 + 1
    rw [hi.2.1]; omega
  | ⟨2, _⟩ =>
    show win0_1.index t 2 * 512 ≤ j.val ∧ j.val < win0_1.index t 2 * 512 + 512
    rw [hi.2.2]; omega

set_option maxHeartbeats 400000 in
/-- Point 8k + 7's block of output 2 holds plane k of the array. -/
theorem mem_blk2 (k : Fin 2) (i j : Fin 512) (t : Fin cfg0.N) (ht : t.val = k.val * 8 + 7) :
    (ix3 k i j : S2x512x512.Idx) ∈ ((cfg0.win 2).blk t).view.set := by
  have hi := out2_index t
  show (ix3 k i j : S2x512x512.Idx) ∈ ((View.whole main_v0_1).slice (win0_2.rect t)).set
  rw [View.set_slice_whole, Rect.mem_set_unit]
  intro a
  match a with
  | ⟨0, _⟩ =>
    show win0_2.index t 0 * 1 ≤ k.val ∧ k.val < win0_2.index t 0 * 1 + 1
    rw [hi.1]; omega
  | ⟨1, _⟩ =>
    show win0_2.index t 1 * 512 ≤ i.val ∧ i.val < win0_2.index t 1 * 512 + 512
    rw [hi.2.1]; omega
  | ⟨2, _⟩ =>
    show win0_2.index t 2 * 512 ≤ j.val ∧ j.val < win0_2.index t 2 * 512 + 512
    rw [hi.2.2]; omega

/-! ## The result arrays -/

/-- A row of core k's t-th block is a row of the samples. -/
theorem row_lt (k : Fin 2) (t : Fin 8) (r : Fin 4096) : (k.val * 8 + t.val) * 4096 + r.val < 65536 := by omega

/-- Core k's column sums over the samples' rows. -/
theorem g1_eq (k : Fin 2) (j : Fin 512) :
    g1 V c k.val j = ∑ t : Fin 8, ∑ r : Fin 4096, X V c (ix2 ⟨(k.val * 8 + t.val) * 4096 + r.val, row_lt k t r⟩ j) := by
  unfold g1
  rw [Finset.sum_range]
  refine Finset.sum_congr rfl fun t _ => ?_
  unfold blk1
  refine Finset.sum_congr rfl fun r _ => ?_
  unfold xrow
  rw [dif_pos (row_lt k t r)]

/-- Core k's Gram matrix over the samples' rows. -/
theorem g2_eq (k : Fin 2) (i j : Fin 512) :
    g2 V c k.val i j = ∑ t : Fin 8, ∑ r : Fin 4096,
      X V c (ix2 ⟨(k.val * 8 + t.val) * 4096 + r.val, row_lt k t r⟩ i)
        * X V c (ix2 ⟨(k.val * 8 + t.val) * 4096 + r.val, row_lt k t r⟩ j) := by
  unfold g2
  rw [Finset.sum_range]
  refine Finset.sum_congr rfl fun t _ => ?_
  unfold blk2
  refine Finset.sum_congr rfl fun r _ => ?_
  unfold xrow
  rw [dif_pos (row_lt k t r), dif_pos (row_lt k t r)]

set_option maxHeartbeats 400000 in
/-- Result array 1 ends holding, at (k, 0, j), core k's sum of column j. -/
theorem sums_arr (k : Fin 2) (j : Fin 512) :
    (dat0 (F := Ideal) V c).arrAt 1 cfg0.N (ix3 k (0 : Fin 1) j)
      = ∑ t : Fin 8, ∑ r : Fin 4096, X V c (ix2 ⟨(k.val * 8 + t.val) * 4096 + r.val, row_lt k t r⟩ j) := by
  have hN : cfg0.N = 16 := N_0
  have hk : k.val * 8 + 7 < cfg0.N := by rw [hN]; omega
  have hf : (cfg0.win 1).flush ⟨k.val * 8 + 7, hk⟩ = true :=
    (flush0_1 ⟨k.val * 8 + 7, hk⟩).mpr (by show (k.val * 8 + 7) % 8 = 7; omega)
  refine ((dat0 (F := Ideal) V c).arrAt_apply_of_mem 1 (G1 V c) (flushed1_eq V c) cfg0.N ⟨k.val * 8 + 7, hk⟩
    (ix3 k (0 : Fin 1) j) hk hf (mem_blk1 k j ⟨k.val * 8 + 7, hk⟩ rfl)).trans ?_
  exact g1_eq V c k j

set_option maxHeartbeats 400000 in
/-- Result array 2 ends holding, at (k, i, j), core k's Gram entry of columns i and j. -/
theorem gram_arr (k : Fin 2) (i j : Fin 512) :
    (dat0 (F := Ideal) V c).arrAt 2 cfg0.N (ix3 k i j)
      = ∑ t : Fin 8, ∑ r : Fin 4096,
          X V c (ix2 ⟨(k.val * 8 + t.val) * 4096 + r.val, row_lt k t r⟩ i)
            * X V c (ix2 ⟨(k.val * 8 + t.val) * 4096 + r.val, row_lt k t r⟩ j) := by
  have hN : cfg0.N = 16 := N_0
  have hk : k.val * 8 + 7 < cfg0.N := by rw [hN]; omega
  have hf : (cfg0.win 2).flush ⟨k.val * 8 + 7, hk⟩ = true :=
    (flush0_2 ⟨k.val * 8 + 7, hk⟩).mpr (by show (k.val * 8 + 7) % 8 = 7; omega)
  refine ((dat0 (F := Ideal) V c).arrAt_apply_of_mem 2 (G2 V c) (flushed2_eq V c) cfg0.N ⟨k.val * 8 + 7, hk⟩
    (ix3 k i j) hk hf (mem_blk2 k i j ⟨k.val * 8 + 7, hk⟩ rfl)).trans ?_
  exact g2_eq V c k i j

end Cert.KernelIdeal.StatsValue

end
-- ==== Proof.RefEqs0.lean ====
import proofs.«176857_j82240033784130_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

/-! What lets an operation's defining equation be read on the final contents of the reference program's line: an
operation reads only buffers written before it (or an argument's buffer, which nothing writes), and no buffer is written
twice, so no operation after it writes its result or any of its operands. -/

/-- In a list of references without repetition, the reference at position `q` does not occur after a later position
    `p`: what an operation reads is not written again after the operation. -/
theorem not_mem_drop_of_nodup {Wl : List (Ref sig .tc)} (hn : Wl.Nodup) {q p : Nat} {a : Ref sig .tc}
    (ha : Wl[q]? = some a) (hqp : q ≤ p) : a ∉ Wl.drop (p + 1) := by
  intro h
  refine Cert.HostFold.not_mem_drop_succ_of_nodup hn ha ?_
  have e : Wl.drop (p + 1) = (Wl.drop (q + 1)).drop (p - q) := by
    rw [List.drop_drop]; congr 1; omega
  rw [e] at h
  exact List.mem_of_mem_drop h

/-- The result buffer of the operation at position `q` is not written after position `p ≥ q`. -/
theorem out_after (q p : Nat) {a : Ref sig .tc} (ha : outs[q]? = some a) (hqp : q ≤ p) : a ∉ outs.drop (p + 1) :=
  not_mem_drop_of_nodup outs_nodup ha hqp

/-- A buffer no operation writes is not written after any position. -/
theorem arg_after {a : Ref sig .tc} (h : a ∉ outs) (p : Nat) : a ∉ outs.drop (p + 1) :=
  fun hm => h (List.mem_of_mem_drop hm)

/-- The first argument's buffer is the result of no operation. -/
theorem arg0_not_out : main_arg0 ∉ outs := by decide

/-- The second argument's buffer is the result of no operation. -/
theorem arg1_not_out : main_arg1 ∉ outs := by decide

end Cert.ReferenceIdeal.HandRun

end
-- ==== Proof.RefEqs1.lean ====
import proofs.«176857_j82240033784130_2_alg».proof.Proof.RefEqs0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The equations of the operations at positions 0 … 50 of the reference program's line: the contents of the
operation's result buffer after the whole line, as the operation's function of the contents of its operand buffers after
the whole line. -/

theorem eq_main_cst (V : Valuation τ sig (Elt F)) :
    after ops V (Proc.devRef .tc main_cst)
      = constant S_ .f32 0x00000000#32 :=
  Cert.HostFold.nullary_at V ops_outs 0 (y := main_cst) (v := constant S_ .f32 0x00000000#32) (by rfl) (out_after 0 0 rfl (by decide))

theorem eq_main_v0 (V : Valuation τ sig (Elt F)) :
    after ops V (Proc.devRef .tc main_v0)
      = Host.reduceAdd (after ops V (Proc.devRef .tc main_arg1)) (after ops V (Proc.devRef .tc main_cst)) reducesTo_S512x512_S_d0_1 h_S_ :=
  Cert.HostFold.binary_at V ops_outs 1 (a := main_arg1) (b := main_cst) (y := main_v0) (f := ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)))
    (by rfl) (out_after 1 1 rfl (by decide)) (arg_after arg1_not_out 1) (out_after 0 1 rfl (by decide)) (by decide) (by decide)

theorem eq_main_cst_0 (V : Valuation τ sig (Elt F)) :
    after ops V (Proc.devRef .tc main_cst_0)
      = constant S_ .f32 0x322BCC77#32 :=
  Cert.HostFold.nullary_at V ops_outs 2 (y := main_cst_0) (v := constant S_ .f32 0x322BCC77#32) (by rfl) (out_after 2 2 rfl (by decide))

theorem eq_main_v1 (V : Valuation τ sig (Elt F)) :
    after ops V (Proc.devRef .tc main_v1)
      = addf (after ops V (Proc.devRef .tc main_v0)) (after ops V (Proc.devRef .tc main_cst_0)) :=
  Cert.HostFold.binary_at V ops_outs 3 (a := main_v0) (b := main_cst_0) (y := main_v1) (f := (addf : (⟨S_, .f32⟩ : BufTy).Contents (Elt F) → (⟨S_, .f32⟩ : BufTy).Contents (Elt F) → (⟨S_, .f32⟩ : BufTy).Contents (Elt F)))
    (by rfl) (out_after 3 3 rfl (by decide)) (out_after 1 3 rfl (by decide)) (out_after 2 3 rfl (by decide)) (by decide) (by decide)

theorem eq_main_c (V : Valuation τ sig (Elt F)) :
    after ops V (Proc.devRef .tc main_c)
      = constantI S_ 32 1#32 :=
  Cert.HostFold.nullary_at V ops_outs 4 (y := main_c) (v := constantI S_ 32 1#32) (by rfl) (out_after 4 4 rfl (by decide))

theorem eq_main_call0_cst (V : Valuation τ sig (Elt F)) :
    after ops V (Proc.devRef .tc main_call0_cst)
      = constant S_ .f32 0x00000000#32 :=
  Cert.HostFold.nullary_at V ops_outs 5 (y := main_call0_cst) (v := constant S_ .f32 0x00000000#32) (by rfl) (out_after 5 5 rfl (by decide))

theorem eq_main_call0_v0 (V : Valuation τ sig (Elt F)) :
    after ops V (Proc.devRef .tc main_call0_v0)
      = Host.reduceAdd (after ops V (Proc.devRef .tc main_arg0)) (after ops V (Proc.devRef .tc main_call0_cst)) reducesTo_S65536x512_S512_d0 h_S_ :=
  Cert.HostFold.binary_at V ops_outs 6 (a := main_arg0) (b := main_call0_cst) (y := main_call0_v0) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 6 6 rfl (by decide)) (arg_after arg0_not_out 6) (out_after 5 6 rfl (by decide)) (by decide) (by decide)

theorem eq_main_call0_v1 (V : Valuation τ sig (Elt F)) :
    after ops V (Proc.devRef .tc main_call0_v1)
      = broadcastInDim S1x512 ![1] bcast_S512_S1x512_1 (after ops V (Proc.devRef .tc main_call0_v0)) :=
  Cert.HostFold.unary_at V ops_outs 7 (x := main_call0_v0) (y := main_call0_v1) (f := (broadcastInDim S1x512 ![1] bcast_S512_S1x512_1 : (⟨S512, .f32⟩ : BufTy).Contents (Elt F) → (⟨S1x512, .f32⟩ : BufTy).Contents (Elt F)))
    (by rfl) (out_after 7 7 rfl (by decide)) (out_after 6 7 rfl (by decide)) (by decide)

theorem eq_main_call0_cst_0 (V : Valuation τ sig (Elt F)) :
    after ops V (Proc.devRef .tc main_call0_cst_0)
      = constant S_ .f32 0x47800000#32 :=
  Cert.HostFold.nullary_at V ops_outs 8 (y := main_call0_cst_0) (v := constant S_ .f32 0x47800000#32) (by rfl) (out_after 8 8 rfl (by decide))

theorem eq_main_call0_v2 (V : Valuation τ sig (Elt F)) :
    after ops V (Proc.devRef .tc main_call0_v2)
      = broadcastInDim S1x512 ![] bcast_S_S1x512 (after ops V (Proc.devRef .tc main_call0_cst_0)) :=
  Cert.HostFold.unary_at V ops_outs 9 (x := main_call0_cst_0) (y := main_call0_v2) (f := (broadcastInDim S1x512 ![] bcast_S_S1x512 : (⟨S_, .f32⟩ : BufTy).Contents (Elt F) → (⟨S1x512, .f32⟩ : BufTy).Contents (Elt F)))
    (by rfl) (out_after 9 9 rfl (by decide)) (out_after 8 9 rfl (by decide)) (by decide)

theorem eq_main_call0_v3 (V : Valuation τ sig (Elt F)) :
    after ops V (Proc.devRef .tc main_call0_v3)
      = Host.divf (after ops V (Proc.devRef .tc main_call0_v1)) (after ops V (Proc.devRef .tc main_call0_v2)) :=
  Cert.HostFold.binary_at V ops_outs 10 (a := main_call0_v1) (b := main_call0_v2) (y := main_call0_v3) (f := (Host.divf : (⟨S1x512, .f32⟩ : BufTy).Contents (Elt F) → (⟨S1x512, .f32⟩ : BufTy).Contents (Elt F) → (⟨S1x512, .f32⟩ : BufTy).Contents (Elt F)))
    (by rfl) (out_after 10 10 rfl (by decide)) (out_after 7 10 rfl (by decide)) (out_after 9 10 rfl (by decide)) (by decide) (by decide)

theorem eq_main_call0_v4 (V : Valuation τ sig (Elt F)) :
    after ops V (Proc.devRef .tc main_call0_v4)
      = broadcastInDim S65536x512 ![0, 1] bcast_S1x512_S65536x512_0_1 (after ops V (Proc.devRef .tc main_call0_v3)) :=
  Cert.HostFold.unary_at V ops_outs 11 (x := main_call0_v3) (y := main_call0_v4) (f := (broadcastInDim S65536x512 ![0, 1] bcast_S1x512_S65536x512_0_1 : (⟨S1x512, .f32⟩ : BufTy).Contents (Elt F) → (⟨S65536x512, .f32⟩ : BufTy).Contents (Elt F)))
    (by rfl) (out_after 11 11 rfl (by decide)) (out_after 10 11 rfl (by decide)) (by decide)

theorem eq_main_call0_v5 (V : Valuation τ sig (Elt F)) :
    after ops V (Proc.devRef .tc main_call0_v5)
      = subf (after ops V (Proc.devRef .tc main_arg0)) (after ops V (Proc.devRef .tc main_call0_v4)) :=
  Cert.HostFold.binary_at V ops_outs 12 (a := main_arg0) (b := main_call0_v4) (y := main_call0_v5) (f := (subf : (⟨S65536x512, .f32⟩ : BufTy).Contents (Elt F) → (⟨S65536x512, .f32⟩ : BufTy).Contents (Elt F) → (⟨S65536x512, .f32⟩ : BufTy).Contents (Elt F)))
    (by rfl) (out_after 12 12 rfl (by decide)) (arg_after arg0_not_out 12) (out_after 11 12 rfl (by decide)) (by decide) (by decide)

theorem eq_main_call0_v6 (V : Valuation τ sig (Elt F)) :
    after ops V (Proc.devRef .tc main_call0_v6)
      = mulf (after ops V (Proc.devRef .tc main_call0_v5)) (after ops V (Proc.devRef .tc main_call0_v5)) :=
  Cert.HostFold.binary_at V ops_outs 13 (a := main_call0_v5) (b := main_call0_v5) (y := main_call0_v6) (f := (mulf : (⟨S65536x512, .f32⟩ : BufTy).Contents (Elt F) → (⟨S65536x512, .f32⟩ : BufTy).Contents (Elt F) → (⟨S65536x512, .f32⟩ : BufTy).Contents (Elt F)))
    (by rfl) (out_after 13 13 rfl (by decide)) (out_after 12 13 rfl (by decide)) (out_after 12 13 rfl (by decide)) (by decide) (by decide)

theorem eq_main_call0_v7 (V : Valuation τ sig (Elt F)) :
    after ops V (Proc.devRef .tc main_call0_v7)
      = sitofp .f32 (after ops V (Proc.devRef .tc main_c)) :=
  Cert.HostFold.unary_at V ops_outs 14 (x := main_c) (y := main_call0_v7) (f := (sitofp .f32 : (⟨S_, .i32⟩ : BufTy).Contents (Elt F) → (⟨S_, .f32⟩ : BufTy).Contents (Elt F)))
    (by rfl) (out_after 14 14 rfl (by decide)) (out_after 4 14 rfl (by decide)) (by decide)

theorem eq_main_call0_cst_1 (V : Valuation τ sig (Elt F)) :
    after ops V (Proc.devRef .tc main_call0_cst_1)
      = constant S_ .f32 0x47800000#32 :=
  Cert.HostFold.nullary_at V ops_outs 15 (y := main_call0_cst_1) (v := constant S_ .f32 0x47800000#32) (by rfl) (out_after 15 15 rfl (by decide))

theorem eq_main_call0_v8 (V : Valuation τ sig (Elt F)) :
    after ops V (Proc.devRef .tc main_call0_v8)
      = subf (after ops V (Proc.devRef .tc main_call0_cst_1)) (after ops V (Proc.devRef .tc main_call0_v7)) :=
  Cert.HostFold.binary_at V ops_outs 16 (a := main_call0_cst_1) (b := main_call0_v7) (y := main_call0_v8) (f := (subf : (⟨S_, .f32⟩ : BufTy).Contents (Elt F) → (⟨S_, .f32⟩ : BufTy).Contents (Elt F) → (⟨S_, .f32⟩ : BufTy).Contents (Elt F)))
    (by rfl) (out_after 16 16 rfl (by decide)) (out_after 15 16 rfl (by decide)) (out_after 14 16 rfl (by decide)) (by decide) (by decide)

theorem eq_main_call0_cst_2 (V : Valuation τ sig (Elt F)) :
    after ops V (Proc.devRef .tc main_call0_cst_2)
      = constant S_ .f32 0x00000000#32 :=
  Cert.HostFold.nullary_at V ops_outs 17 (y := main_call0_cst_2) (v := constant S_ .f32 0x00000000#32) (by rfl) (out_after 17 17 rfl (by decide))

theorem eq_main_call0_v9 (V : Valuation τ sig (Elt F)) :
    after ops V (Proc.devRef .tc main_call0_v9)
      = Host.reduceAdd (after ops V (Proc.devRef .tc main_call0_v6)) (after ops V (Proc.devRef .tc main_call0_cst_2)) reducesTo_S65536x512_S512_d0 h_S_ :=
  Cert.HostFold.binary_at V ops_outs 18 (a := main_call0_v6) (b := main_call0_cst_2) (y := main_call0_v9) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 18 18 rfl (by decide)) (out_after 13 18 rfl (by decide)) (out_after 17 18 rfl (by decide)) (by decide) (by decide)

theorem eq_main_call0_v10 (V : Valuation τ sig (Elt F)) :
    after ops V (Proc.devRef .tc main_call0_v10)
      = broadcastInDim S512 ![] bcast_S_S512 (after ops V (Proc.devRef .tc main_call0_v8)) :=
  Cert.HostFold.unary_at V ops_outs 19 (x := main_call0_v8) (y := main_call0_v10) (f := (broadcastInDim S512 ![] bcast_S_S512 : (⟨S_, .f32⟩ : BufTy).Contents (Elt F) → (⟨S512, .f32⟩ : BufTy).Contents (Elt F)))
    (by rfl) (out_after 19 19 rfl (by decide)) (out_after 16 19 rfl (by decide)) (by decide)

theorem eq_main_call0_v11 (V : Valuation τ sig (Elt F)) :
    after ops V (Proc.devRef .tc main_call0_v11)
      = Host.divf (after ops V (Proc.devRef .tc main_call0_v9)) (after ops V (Proc.devRef .tc main_call0_v10)) :=
  Cert.HostFold.binary_at V ops_outs 20 (a := main_call0_v9) (b := main_call0_v10) (y := main_call0_v11) (f := (Host.divf : (⟨S512, .f32⟩ : BufTy).Contents (Elt F) → (⟨S512, .f32⟩ : BufTy).Contents (Elt F) → (⟨S512, .f32⟩ : BufTy).Contents (Elt F)))
    (by rfl) (out_after 20 20 rfl (by decide)) (out_after 18 20 rfl (by decide)) (out_after 19 20 rfl (by decide)) (by decide) (by decide)

theorem eq_main_call0_cst_3 (V : Valuation τ sig (Elt F)) :
    after ops V (Proc.devRef .tc main_call0_cst_3)
      = constant S_ .f32 0x00000000#32 :=
  Cert.HostFold.nullary_at V ops_outs 21 (y := main_call0_cst_3) (v := constant S_ .f32 0x00000000#32) (by rfl) (out_after 21 21 rfl (by decide))

theorem eq_main_call0_v12 (V : Valuation τ sig (Elt F)) :
    after ops V (Proc.devRef .tc main_call0_v12)
      = cmpf .ogt (after ops V (Proc.devRef .tc main_call0_v8)) (after ops V (Proc.devRef .tc main_call0_cst_3)) :=
  Cert.HostFold.binary_at V ops_outs 22 (a := main_call0_v8) (b := main_call0_cst_3) (y := main_call0_v12) (f := (cmpf .ogt : (⟨S_, .f32⟩ : BufTy).Contents (Elt F) → (⟨S_, .f32⟩ : BufTy).Contents (Elt F) → (⟨S_, .i1⟩ : BufTy).Contents (Elt F)))
    (by rfl) (out_after 22 22 rfl (by decide)) (out_after 16 22 rfl (by decide)) (out_after 21 22 rfl (by decide)) (by decide) (by decide)

theorem eq_main_call0_cst_4 (V : Valuation τ sig (Elt F)) :
    after ops V (Proc.devRef .tc main_call0_cst_4)
      = constant S_ .f32 0x7FC00000#32 :=
  Cert.HostFold.nullary_at V ops_outs 23 (y := main_call0_cst_4) (v := constant S_ .f32 0x7FC00000#32) (by rfl) (out_after 23 23 rfl (by decide))

theorem eq_main_call0_call0_v0 (V : Valuation τ sig (Elt F)) :
    after ops V (Proc.devRef .tc main_call0_call0_v0)
      = id (after ops V (Proc.devRef .tc main_call0_cst_4)) :=
  Cert.HostFold.unary_at V ops_outs 24 (x := main_call0_cst_4) (y := main_call0_call0_v0) (f := (id : (⟨S_, .f32⟩ : BufTy).Contents (Elt F) → (⟨S_, .f32⟩ : BufTy).Contents (Elt F)))
    (by rfl) (out_after 24 24 rfl (by decide)) (out_after 23 24 rfl (by decide)) (by decide)

theorem eq_main_call0_call0_v1 (V : Valuation τ sig (Elt F)) :
    after ops V (Proc.devRef .tc main_call0_call0_v1)
      = broadcastInDim S512 ![] bcast_S_S512 (after ops V (Proc.devRef .tc main_call0_call0_v0)) :=
  Cert.HostFold.unary_at V ops_outs 25 (x := main_call0_call0_v0) (y := main_call0_call0_v1) (f := (broadcastInDim S512 ![] bcast_S_S512 : (⟨S_, .f32⟩ : BufTy).Contents (Elt F) → (⟨S512, .f32⟩ : BufTy).Contents (Elt F)))
    (by rfl) (out_after 25 25 rfl (by decide)) (out_after 24 25 rfl (by decide)) (by decide)

theorem eq_main_v2 (V : Valuation τ sig (Elt F)) :
    after ops V (Proc.devRef .tc main_v2)
      = select (broadcastInDim S512 ![] bcast_S_S512 (after ops V (Proc.devRef .tc main_call0_v12))) (after ops V (Proc.devRef .tc main_call0_v11)) (after ops V (Proc.devRef .tc main_call0_call0_v1)) :=
  Cert.HostFold.ternary_at V ops_outs 26 (c := main_call0_v12) (a := main_call0_v11) (b := main_call0_call0_v1) (y := main_v2) (f := ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)))
    (by rfl) (out_after 26 26 rfl (by decide)) (out_after 22 26 rfl (by decide)) (out_after 20 26 rfl (by decide)) (out_after 25 26 rfl (by decide)) (by decide) (by decide) (by decide)

theorem eq_main_cst_1 (V : Valuation τ sig (Elt F)) :
    after ops V (Proc.devRef .tc main_cst_1)
      = constant S_ .f32 0x322BCC77#32 :=
  Cert.HostFold.nullary_at V ops_outs 27 (y := main_cst_1) (v := constant S_ .f32 0x322BCC77#32) (by rfl) (out_after 27 27 rfl (by decide))

theorem eq_main_v3 (V : Valuation τ sig (Elt F)) :
    after ops V (Proc.devRef .tc main_v3)
      = broadcastInDim S512 ![] bcast_S_S512 (after ops V (Proc.devRef .tc main_cst_1)) :=
  Cert.HostFold.unary_at V ops_outs 28 (x := main_cst_1) (y := main_v3) (f := (broadcastInDim S512 ![] bcast_S_S512 : (⟨S_, .f32⟩ : BufTy).Contents (Elt F) → (⟨S512, .f32⟩ : BufTy).Contents (Elt F)))
    (by rfl) (out_after 28 28 rfl (by decide)) (out_after 27 28 rfl (by decide)) (by decide)

theorem eq_main_v4 (V : Valuation τ sig (Elt F)) :
    after ops V (Proc.devRef .tc main_v4)
      = addf (after ops V (Proc.devRef .tc main_v2)) (after ops V (Proc.devRef .tc main_v3)) :=
  Cert.HostFold.binary_at V ops_outs 29 (a := main_v2) (b := main_v3) (y := main_v4) (f := (addf : (⟨S512, .f32⟩ : BufTy).Contents (Elt F) → (⟨S512, .f32⟩ : BufTy).Contents (Elt F) → (⟨S512, .f32⟩ : BufTy).Contents (Elt F)))
    (by rfl) (out_after 29 29 rfl (by decide)) (out_after 26 29 rfl (by decide)) (out_after 28 29 rfl (by decide)) (by decide) (by decide)

theorem eq_main_cst_2 (V : Valuation τ sig (Elt F)) :
    after ops V (Proc.devRef .tc main_cst_2)
      = constant S_ .f32 0x4188A2C0#32 :=
  Cert.HostFold.nullary_at V ops_outs 30 (y := main_cst_2) (v := constant S_ .f32 0x4188A2C0#32) (by rfl) (out_after 30 30 rfl (by decide))

theorem eq_main_v5 (V : Valuation τ sig (Elt F)) :
    after ops V (Proc.devRef .tc main_v5)
      = broadcastInDim S512 ![] bcast_S_S512 (after ops V (Proc.devRef .tc main_cst_2)) :=
  Cert.HostFold.unary_at V ops_outs 31 (x := main_cst_2) (y := main_v5) (f := (broadcastInDim S512 ![] bcast_S_S512 : (⟨S_, .f32⟩ : BufTy).Contents (Elt F) → (⟨S512, .f32⟩ : BufTy).Contents (Elt F)))
    (by rfl) (out_after 31 31 rfl (by decide)) (out_after 30 31 rfl (by decide)) (by decide)

theorem eq_main_v6 (V : Valuation τ sig (Elt F)) :
    after ops V (Proc.devRef .tc main_v6)
      = mulf (after ops V (Proc.devRef .tc main_v5)) (after ops V (Proc.devRef .tc main_v4)) :=
  Cert.HostFold.binary_at V ops_outs 32 (a := main_v5) (b := main_v4) (y := main_v6) (f := (mulf : (⟨S512, .f32⟩ : BufTy).Contents (Elt F) → (⟨S512, .f32⟩ : BufTy).Contents (Elt F) → (⟨S512, .f32⟩ : BufTy).Contents (Elt F)))
    (by rfl) (out_after 32 32 rfl (by decide)) (out_after 31 32 rfl (by decide)) (out_after 29 32 rfl (by decide)) (by decide) (by decide)

theorem eq_main_v7 (V : Valuation τ sig (Elt F)) :
    after ops V (Proc.devRef .tc main_v7)
      = Host.log (after ops V (Proc.devRef .tc main_v6)) :=
  Cert.HostFold.unary_at V ops_outs 33 (x := main_v6) (y := main_v7) (f := (Host.log : (⟨S512, .f32⟩ : BufTy).Contents (Elt F) → (⟨S512, .f32⟩ : BufTy).Contents (Elt F)))
    (by rfl) (out_after 33 33 rfl (by decide)) (out_after 32 33 rfl (by decide)) (by decide)

theorem eq_main_cst_3 (V : Valuation τ sig (Elt F)) :
    after ops V (Proc.devRef .tc main_cst_3)
      = constant S_ .f32 0x3F000000#32 :=
  Cert.HostFold.nullary_at V ops_outs 34 (y := main_cst_3) (v := constant S_ .f32 0x3F000000#32) (by rfl) (out_after 34 34 rfl (by decide))

theorem eq_main_v8 (V : Valuation τ sig (Elt F)) :
    after ops V (Proc.devRef .tc main_v8)
      = broadcastInDim S512 ![] bcast_S_S512 (after ops V (Proc.devRef .tc main_cst_3)) :=
  Cert.HostFold.unary_at V ops_outs 35 (x := main_cst_3) (y := main_v8) (f := (broadcastInDim S512 ![] bcast_S_S512 : (⟨S_, .f32⟩ : BufTy).Contents (Elt F) → (⟨S512, .f32⟩ : BufTy).Contents (Elt F)))
    (by rfl) (out_after 35 35 rfl (by decide)) (out_after 34 35 rfl (by decide)) (by decide)

theorem eq_main_v9 (V : Valuation τ sig (Elt F)) :
    after ops V (Proc.devRef .tc main_v9)
      = mulf (after ops V (Proc.devRef .tc main_v8)) (after ops V (Proc.devRef .tc main_v7)) :=
  Cert.HostFold.binary_at V ops_outs 36 (a := main_v8) (b := main_v7) (y := main_v9) (f := (mulf : (⟨S512, .f32⟩ : BufTy).Contents (Elt F) → (⟨S512, .f32⟩ : BufTy).Contents (Elt F) → (⟨S512, .f32⟩ : BufTy).Contents (Elt F)))
    (by rfl) (out_after 36 36 rfl (by decide)) (out_after 35 36 rfl (by decide)) (out_after 33 36 rfl (by decide)) (by decide) (by decide)

theorem eq_main_v10 (V : Valuation τ sig (Elt F)) :
    after ops V (Proc.devRef .tc main_v10)
      = broadcastInDim S512x1 ![0] bcast_S512_S512x1_0 (after ops V (Proc.devRef .tc main_v9)) :=
  Cert.HostFold.unary_at V ops_outs 37 (x := main_v9) (y := main_v10) (f := (broadcastInDim S512x1 ![0] bcast_S512_S512x1_0 : (⟨S512, .f32⟩ : BufTy).Contents (Elt F) → (⟨S512x1, .f32⟩ : BufTy).Contents (Elt F)))
    (by rfl) (out_after 37 37 rfl (by decide)) (out_after 36 37 rfl (by decide)) (by decide)

theorem eq_main_v11 (V : Valuation τ sig (Elt F)) :
    after ops V (Proc.devRef .tc main_v11)
      = broadcastInDim S1x512 ![1] bcast_S512_S1x512_1 (after ops V (Proc.devRef .tc main_v9)) :=
  Cert.HostFold.unary_at V ops_outs 38 (x := main_v9) (y := main_v11) (f := (broadcastInDim S1x512 ![1] bcast_S512_S1x512_1 : (⟨S512, .f32⟩ : BufTy).Contents (Elt F) → (⟨S1x512, .f32⟩ : BufTy).Contents (Elt F)))
    (by rfl) (out_after 38 38 rfl (by decide)) (out_after 36 38 rfl (by decide)) (by decide)

theorem eq_main_v12 (V : Valuation τ sig (Elt F)) :
    after ops V (Proc.devRef .tc main_v12)
      = broadcastInDim S512x512 ![0, 1] bcast_S512x1_S512x512_0_1 (after ops V (Proc.devRef .tc main_v10)) :=
  Cert.HostFold.unary_at V ops_outs 39 (x := main_v10) (y := main_v12) (f := (broadcastInDim S512x512 ![0, 1] bcast_S512x1_S512x512_0_1 : (⟨S512x1, .f32⟩ : BufTy).Contents (Elt F) → (⟨S512x512, .f32⟩ : BufTy).Contents (Elt F)))
    (by rfl) (out_after 39 39 rfl (by decide)) (out_after 37 39 rfl (by decide)) (by decide)

theorem eq_main_v13 (V : Valuation τ sig (Elt F)) :
    after ops V (Proc.devRef .tc main_v13)
      = broadcastInDim S512x512 ![0, 1] bcast_S1x512_S512x512_0_1 (after ops V (Proc.devRef .tc main_v11)) :=
  Cert.HostFold.unary_at V ops_outs 40 (x := main_v11) (y := main_v13) (f := (broadcastInDim S512x512 ![0, 1] bcast_S1x512_S512x512_0_1 : (⟨S1x512, .f32⟩ : BufTy).Contents (Elt F) → (⟨S512x512, .f32⟩ : BufTy).Contents (Elt F)))
    (by rfl) (out_after 40 40 rfl (by decide)) (out_after 38 40 rfl (by decide)) (by decide)

theorem eq_main_v14 (V : Valuation τ sig (Elt F)) :
    after ops V (Proc.devRef .tc main_v14)
      = subf (after ops V (Proc.devRef .tc main_v12)) (after ops V (Proc.devRef .tc main_v13)) :=
  Cert.HostFold.binary_at V ops_outs 41 (a := main_v12) (b := main_v13) (y := main_v14) (f := (subf : (⟨S512x512, .f32⟩ : BufTy).Contents (Elt F) → (⟨S512x512, .f32⟩ : BufTy).Contents (Elt F) → (⟨S512x512, .f32⟩ : BufTy).Contents (Elt F)))
    (by rfl) (out_after 41 41 rfl (by decide)) (out_after 39 41 rfl (by decide)) (out_after 40 41 rfl (by decide)) (by decide) (by decide)

theorem eq_main_call1_cst (V : Valuation τ sig (Elt F)) :
    after ops V (Proc.devRef .tc main_call1_cst)
      = constant S_ .f32 0x00000000#32 :=
  Cert.HostFold.nullary_at V ops_outs 42 (y := main_call1_cst) (v := constant S_ .f32 0x00000000#32) (by rfl) (out_after 42 42 rfl (by decide))

theorem eq_main_call1_v0 (V : Valuation τ sig (Elt F)) :
    after ops V (Proc.devRef .tc main_call1_v0)
      = broadcastInDim S512x512 ![] bcast_S_S512x512 (after ops V (Proc.devRef .tc main_call1_cst)) :=
  Cert.HostFold.unary_at V ops_outs 43 (x := main_call1_cst) (y := main_call1_v0) (f := (broadcastInDim S512x512 ![] bcast_S_S512x512 : (⟨S_, .f32⟩ : BufTy).Contents (Elt F) → (⟨S512x512, .f32⟩ : BufTy).Contents (Elt F)))
    (by rfl) (out_after 43 43 rfl (by decide)) (out_after 42 43 rfl (by decide)) (by decide)

theorem eq_main_v15 (V : Valuation τ sig (Elt F)) :
    after ops V (Proc.devRef .tc main_v15)
      = maximumf (after ops V (Proc.devRef .tc main_v14)) (after ops V (Proc.devRef .tc main_call1_v0)) :=
  Cert.HostFold.binary_at V ops_outs 44 (a := main_v14) (b := main_call1_v0) (y := main_v15) (f := (maximumf : (⟨S512x512, .f32⟩ : BufTy).Contents (Elt F) → (⟨S512x512, .f32⟩ : BufTy).Contents (Elt F) → (⟨S512x512, .f32⟩ : BufTy).Contents (Elt F)))
    (by rfl) (out_after 44 44 rfl (by decide)) (out_after 41 44 rfl (by decide)) (out_after 43 44 rfl (by decide)) (by decide) (by decide)

theorem eq_main_v16 (V : Valuation τ sig (Elt F)) :
    after ops V (Proc.devRef .tc main_v16)
      = mulf (after ops V (Proc.devRef .tc main_arg1)) (after ops V (Proc.devRef .tc main_v15)) :=
  Cert.HostFold.binary_at V ops_outs 45 (a := main_arg1) (b := main_v15) (y := main_v16) (f := (mulf : (⟨S512x512, .f32⟩ : BufTy).Contents (Elt F) → (⟨S512x512, .f32⟩ : BufTy).Contents (Elt F) → (⟨S512x512, .f32⟩ : BufTy).Contents (Elt F)))
    (by rfl) (out_after 45 45 rfl (by decide)) (arg_after arg1_not_out 45) (out_after 44 45 rfl (by decide)) (by decide) (by decide)

theorem eq_main_cst_4 (V : Valuation τ sig (Elt F)) :
    after ops V (Proc.devRef .tc main_cst_4)
      = constant S_ .f32 0x00000000#32 :=
  Cert.HostFold.nullary_at V ops_outs 46 (y := main_cst_4) (v := constant S_ .f32 0x00000000#32) (by rfl) (out_after 46 46 rfl (by decide))

theorem eq_main_v17 (V : Valuation τ sig (Elt F)) :
    after ops V (Proc.devRef .tc main_v17)
      = Host.reduceAdd (after ops V (Proc.devRef .tc main_v16)) (after ops V (Proc.devRef .tc main_cst_4)) reducesTo_S512x512_S_d0_1 h_S_ :=
  Cert.HostFold.binary_at V ops_outs 47 (a := main_v16) (b := main_cst_4) (y := main_v17) (f := ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)))
    (by rfl) (out_after 47 47 rfl (by decide)) (out_after 45 47 rfl (by decide)) (out_after 46 47 rfl (by decide)) (by decide) (by decide)

theorem eq_main_v18 (V : Valuation τ sig (Elt F)) :
    after ops V (Proc.devRef .tc main_v18)
      = Host.divf (after ops V (Proc.devRef .tc main_v17)) (after ops V (Proc.devRef .tc main_v1)) :=
  Cert.HostFold.binary_at V ops_outs 48 (a := main_v17) (b := main_v1) (y := main_v18) (f := (Host.divf : (⟨S_, .f32⟩ : BufTy).Contents (Elt F) → (⟨S_, .f32⟩ : BufTy).Contents (Elt F) → (⟨S_, .f32⟩ : BufTy).Contents (Elt F)))
    (by rfl) (out_after 48 48 rfl (by decide)) (out_after 47 48 rfl (by decide)) (out_after 3 48 rfl (by decide)) (by decide) (by decide)

theorem eq_main_v19 (V : Valuation τ sig (Elt F)) :
    after ops V (Proc.devRef .tc main_v19)
      = Host.dotGeneral dot_S65536x512_S512x512_S65536x512_1_0_0_1_n_n none (after ops V (Proc.devRef .tc main_arg0)) (after ops V (Proc.devRef .tc main_arg1)) :=
  Cert.HostFold.binary_at V ops_outs 49 (a := main_arg0) (b := main_arg1) (y := main_v19) (f := ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)))
    (by rfl) (out_after 49 49 rfl (by decide)) (arg_after arg0_not_out 49) (arg_after arg1_not_out 49) (by decide) (by decide)

theorem eq_main_v20 (V : Valuation τ sig (Elt F)) :
    after ops V (Proc.devRef .tc main_v20)
      = subf (after ops V (Proc.devRef .tc main_arg0)) (after ops V (Proc.devRef .tc main_v19)) :=
  Cert.HostFold.binary_at V ops_outs 50 (a := main_arg0) (b := main_v19) (y := main_v20) (f := (subf : (⟨S65536x512, .f32⟩ : BufTy).Contents (Elt F) → (⟨S65536x512, .f32⟩ : BufTy).Contents (Elt F) → (⟨S65536x512, .f32⟩ : BufTy).Contents (Elt F)))
    (by rfl) (out_after 50 50 rfl (by decide)) (arg_after arg0_not_out 50) (out_after 49 50 rfl (by decide)) (by decide) (by decide)

end Cert.ReferenceIdeal.HandRun

end
-- ==== Proof.RefEqs2.lean ====
import proofs.«176857_j82240033784130_2_alg».proof.Proof.RefEqs0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The equations of the operations at positions 51 … 101 of the reference program's line: the contents of the
operation's result buffer after the whole line, as the operation's function of the contents of its operand buffers after
the whole line. -/

theorem eq_main_cst_5 (V : Valuation τ sig (Elt F)) :
    after ops V (Proc.devRef .tc main_cst_5)
      = constant S_ .f32 0x00000000#32 :=
  Cert.HostFold.nullary_at V ops_outs 51 (y := main_cst_5) (v := constant S_ .f32 0x00000000#32) (by rfl) (out_after 51 51 rfl (by decide))

theorem eq_main_v21 (V : Valuation τ sig (Elt F)) :
    after ops V (Proc.devRef .tc main_v21)
      = Host.reduceAdd (after ops V (Proc.devRef .tc main_arg0)) (after ops V (Proc.devRef .tc main_cst_5)) reducesTo_S65536x512_S512_d0 h_S_ :=
  Cert.HostFold.binary_at V ops_outs 52 (a := main_arg0) (b := main_cst_5) (y := main_v21) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 52 52 rfl (by decide)) (arg_after arg0_not_out 52) (out_after 51 52 rfl (by decide)) (by decide) (by decide)

theorem eq_main_v22 (V : Valuation τ sig (Elt F)) :
    after ops V (Proc.devRef .tc main_v22)
      = broadcastInDim S1x512 ![1] bcast_S512_S1x512_1 (after ops V (Proc.devRef .tc main_v21)) :=
  Cert.HostFold.unary_at V ops_outs 53 (x := main_v21) (y := main_v22) (f := (broadcastInDim S1x512 ![1] bcast_S512_S1x512_1 : (⟨S512, .f32⟩ : BufTy).Contents (Elt F) → (⟨S1x512, .f32⟩ : BufTy).Contents (Elt F)))
    (by rfl) (out_after 53 53 rfl (by decide)) (out_after 52 53 rfl (by decide)) (by decide)

theorem eq_main_cst_6 (V : Valuation τ sig (Elt F)) :
    after ops V (Proc.devRef .tc main_cst_6)
      = constant S_ .f32 0x47800000#32 :=
  Cert.HostFold.nullary_at V ops_outs 54 (y := main_cst_6) (v := constant S_ .f32 0x47800000#32) (by rfl) (out_after 54 54 rfl (by decide))

theorem eq_main_v23 (V : Valuation τ sig (Elt F)) :
    after ops V (Proc.devRef .tc main_v23)
      = broadcastInDim S1x512 ![] bcast_S_S1x512 (after ops V (Proc.devRef .tc main_cst_6)) :=
  Cert.HostFold.unary_at V ops_outs 55 (x := main_cst_6) (y := main_v23) (f := (broadcastInDim S1x512 ![] bcast_S_S1x512 : (⟨S_, .f32⟩ : BufTy).Contents (Elt F) → (⟨S1x512, .f32⟩ : BufTy).Contents (Elt F)))
    (by rfl) (out_after 55 55 rfl (by decide)) (out_after 54 55 rfl (by decide)) (by decide)

theorem eq_main_v24 (V : Valuation τ sig (Elt F)) :
    after ops V (Proc.devRef .tc main_v24)
      = Host.divf (after ops V (Proc.devRef .tc main_v22)) (after ops V (Proc.devRef .tc main_v23)) :=
  Cert.HostFold.binary_at V ops_outs 56 (a := main_v22) (b := main_v23) (y := main_v24) (f := (Host.divf : (⟨S1x512, .f32⟩ : BufTy).Contents (Elt F) → (⟨S1x512, .f32⟩ : BufTy).Contents (Elt F) → (⟨S1x512, .f32⟩ : BufTy).Contents (Elt F)))
    (by rfl) (out_after 56 56 rfl (by decide)) (out_after 53 56 rfl (by decide)) (out_after 55 56 rfl (by decide)) (by decide) (by decide)

theorem eq_main_v25 (V : Valuation τ sig (Elt F)) :
    after ops V (Proc.devRef .tc main_v25)
      = broadcastInDim S65536x512 ![0, 1] bcast_S1x512_S65536x512_0_1 (after ops V (Proc.devRef .tc main_v24)) :=
  Cert.HostFold.unary_at V ops_outs 57 (x := main_v24) (y := main_v25) (f := (broadcastInDim S65536x512 ![0, 1] bcast_S1x512_S65536x512_0_1 : (⟨S1x512, .f32⟩ : BufTy).Contents (Elt F) → (⟨S65536x512, .f32⟩ : BufTy).Contents (Elt F)))
    (by rfl) (out_after 57 57 rfl (by decide)) (out_after 56 57 rfl (by decide)) (by decide)

theorem eq_main_v26 (V : Valuation τ sig (Elt F)) :
    after ops V (Proc.devRef .tc main_v26)
      = subf (after ops V (Proc.devRef .tc main_arg0)) (after ops V (Proc.devRef .tc main_v25)) :=
  Cert.HostFold.binary_at V ops_outs 58 (a := main_arg0) (b := main_v25) (y := main_v26) (f := (subf : (⟨S65536x512, .f32⟩ : BufTy).Contents (Elt F) → (⟨S65536x512, .f32⟩ : BufTy).Contents (Elt F) → (⟨S65536x512, .f32⟩ : BufTy).Contents (Elt F)))
    (by rfl) (out_after 58 58 rfl (by decide)) (arg_after arg0_not_out 58) (out_after 57 58 rfl (by decide)) (by decide) (by decide)

theorem eq_main_cst_7 (V : Valuation τ sig (Elt F)) :
    after ops V (Proc.devRef .tc main_cst_7)
      = constant S_ .f32 0x00000000#32 :=
  Cert.HostFold.nullary_at V ops_outs 59 (y := main_cst_7) (v := constant S_ .f32 0x00000000#32) (by rfl) (out_after 59 59 rfl (by decide))

theorem eq_main_v27 (V : Valuation τ sig (Elt F)) :
    after ops V (Proc.devRef .tc main_v27)
      = Host.reduceAdd (after ops V (Proc.devRef .tc main_v20)) (after ops V (Proc.devRef .tc main_cst_7)) reducesTo_S65536x512_S512_d0 h_S_ :=
  Cert.HostFold.binary_at V ops_outs 60 (a := main_v20) (b := main_cst_7) (y := main_v27) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 60 60 rfl (by decide)) (out_after 50 60 rfl (by decide)) (out_after 59 60 rfl (by decide)) (by decide) (by decide)

theorem eq_main_v28 (V : Valuation τ sig (Elt F)) :
    after ops V (Proc.devRef .tc main_v28)
      = broadcastInDim S1x512 ![1] bcast_S512_S1x512_1 (after ops V (Proc.devRef .tc main_v27)) :=
  Cert.HostFold.unary_at V ops_outs 61 (x := main_v27) (y := main_v28) (f := (broadcastInDim S1x512 ![1] bcast_S512_S1x512_1 : (⟨S512, .f32⟩ : BufTy).Contents (Elt F) → (⟨S1x512, .f32⟩ : BufTy).Contents (Elt F)))
    (by rfl) (out_after 61 61 rfl (by decide)) (out_after 60 61 rfl (by decide)) (by decide)

theorem eq_main_cst_8 (V : Valuation τ sig (Elt F)) :
    after ops V (Proc.devRef .tc main_cst_8)
      = constant S_ .f32 0x47800000#32 :=
  Cert.HostFold.nullary_at V ops_outs 62 (y := main_cst_8) (v := constant S_ .f32 0x47800000#32) (by rfl) (out_after 62 62 rfl (by decide))

theorem eq_main_v29 (V : Valuation τ sig (Elt F)) :
    after ops V (Proc.devRef .tc main_v29)
      = broadcastInDim S1x512 ![] bcast_S_S1x512 (after ops V (Proc.devRef .tc main_cst_8)) :=
  Cert.HostFold.unary_at V ops_outs 63 (x := main_cst_8) (y := main_v29) (f := (broadcastInDim S1x512 ![] bcast_S_S1x512 : (⟨S_, .f32⟩ : BufTy).Contents (Elt F) → (⟨S1x512, .f32⟩ : BufTy).Contents (Elt F)))
    (by rfl) (out_after 63 63 rfl (by decide)) (out_after 62 63 rfl (by decide)) (by decide)

theorem eq_main_v30 (V : Valuation τ sig (Elt F)) :
    after ops V (Proc.devRef .tc main_v30)
      = Host.divf (after ops V (Proc.devRef .tc main_v28)) (after ops V (Proc.devRef .tc main_v29)) :=
  Cert.HostFold.binary_at V ops_outs 64 (a := main_v28) (b := main_v29) (y := main_v30) (f := (Host.divf : (⟨S1x512, .f32⟩ : BufTy).Contents (Elt F) → (⟨S1x512, .f32⟩ : BufTy).Contents (Elt F) → (⟨S1x512, .f32⟩ : BufTy).Contents (Elt F)))
    (by rfl) (out_after 64 64 rfl (by decide)) (out_after 61 64 rfl (by decide)) (out_after 63 64 rfl (by decide)) (by decide) (by decide)

theorem eq_main_v31 (V : Valuation τ sig (Elt F)) :
    after ops V (Proc.devRef .tc main_v31)
      = broadcastInDim S65536x512 ![0, 1] bcast_S1x512_S65536x512_0_1 (after ops V (Proc.devRef .tc main_v30)) :=
  Cert.HostFold.unary_at V ops_outs 65 (x := main_v30) (y := main_v31) (f := (broadcastInDim S65536x512 ![0, 1] bcast_S1x512_S65536x512_0_1 : (⟨S1x512, .f32⟩ : BufTy).Contents (Elt F) → (⟨S65536x512, .f32⟩ : BufTy).Contents (Elt F)))
    (by rfl) (out_after 65 65 rfl (by decide)) (out_after 64 65 rfl (by decide)) (by decide)

theorem eq_main_v32 (V : Valuation τ sig (Elt F)) :
    after ops V (Proc.devRef .tc main_v32)
      = subf (after ops V (Proc.devRef .tc main_v20)) (after ops V (Proc.devRef .tc main_v31)) :=
  Cert.HostFold.binary_at V ops_outs 66 (a := main_v20) (b := main_v31) (y := main_v32) (f := (subf : (⟨S65536x512, .f32⟩ : BufTy).Contents (Elt F) → (⟨S65536x512, .f32⟩ : BufTy).Contents (Elt F) → (⟨S65536x512, .f32⟩ : BufTy).Contents (Elt F)))
    (by rfl) (out_after 66 66 rfl (by decide)) (out_after 50 66 rfl (by decide)) (out_after 65 66 rfl (by decide)) (by decide) (by decide)

theorem eq_main_c_9 (V : Valuation τ sig (Elt F)) :
    after ops V (Proc.devRef .tc main_c_9)
      = constantI S_ 32 1#32 :=
  Cert.HostFold.nullary_at V ops_outs 67 (y := main_c_9) (v := constantI S_ 32 1#32) (by rfl) (out_after 67 67 rfl (by decide))

theorem eq_main_call2_call0_cst (V : Valuation τ sig (Elt F)) :
    after ops V (Proc.devRef .tc main_call2_call0_cst)
      = constant S_ .f32 0x00000000#32 :=
  Cert.HostFold.nullary_at V ops_outs 68 (y := main_call2_call0_cst) (v := constant S_ .f32 0x00000000#32) (by rfl) (out_after 68 68 rfl (by decide))

theorem eq_main_call2_call0_v0 (V : Valuation τ sig (Elt F)) :
    after ops V (Proc.devRef .tc main_call2_call0_v0)
      = Host.reduceAdd (after ops V (Proc.devRef .tc main_v26)) (after ops V (Proc.devRef .tc main_call2_call0_cst)) reducesTo_S65536x512_S512_d0 h_S_ :=
  Cert.HostFold.binary_at V ops_outs 69 (a := main_v26) (b := main_call2_call0_cst) (y := main_call2_call0_v0) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 69 69 rfl (by decide)) (out_after 58 69 rfl (by decide)) (out_after 68 69 rfl (by decide)) (by decide) (by decide)

theorem eq_main_call2_call0_v1 (V : Valuation τ sig (Elt F)) :
    after ops V (Proc.devRef .tc main_call2_call0_v1)
      = broadcastInDim S1x512 ![1] bcast_S512_S1x512_1 (after ops V (Proc.devRef .tc main_call2_call0_v0)) :=
  Cert.HostFold.unary_at V ops_outs 70 (x := main_call2_call0_v0) (y := main_call2_call0_v1) (f := (broadcastInDim S1x512 ![1] bcast_S512_S1x512_1 : (⟨S512, .f32⟩ : BufTy).Contents (Elt F) → (⟨S1x512, .f32⟩ : BufTy).Contents (Elt F)))
    (by rfl) (out_after 70 70 rfl (by decide)) (out_after 69 70 rfl (by decide)) (by decide)

theorem eq_main_call2_call0_cst_0 (V : Valuation τ sig (Elt F)) :
    after ops V (Proc.devRef .tc main_call2_call0_cst_0)
      = constant S_ .f32 0x47800000#32 :=
  Cert.HostFold.nullary_at V ops_outs 71 (y := main_call2_call0_cst_0) (v := constant S_ .f32 0x47800000#32) (by rfl) (out_after 71 71 rfl (by decide))

theorem eq_main_call2_call0_v2 (V : Valuation τ sig (Elt F)) :
    after ops V (Proc.devRef .tc main_call2_call0_v2)
      = broadcastInDim S1x512 ![] bcast_S_S1x512 (after ops V (Proc.devRef .tc main_call2_call0_cst_0)) :=
  Cert.HostFold.unary_at V ops_outs 72 (x := main_call2_call0_cst_0) (y := main_call2_call0_v2) (f := (broadcastInDim S1x512 ![] bcast_S_S1x512 : (⟨S_, .f32⟩ : BufTy).Contents (Elt F) → (⟨S1x512, .f32⟩ : BufTy).Contents (Elt F)))
    (by rfl) (out_after 72 72 rfl (by decide)) (out_after 71 72 rfl (by decide)) (by decide)

theorem eq_main_call2_call0_v3 (V : Valuation τ sig (Elt F)) :
    after ops V (Proc.devRef .tc main_call2_call0_v3)
      = Host.divf (after ops V (Proc.devRef .tc main_call2_call0_v1)) (after ops V (Proc.devRef .tc main_call2_call0_v2)) :=
  Cert.HostFold.binary_at V ops_outs 73 (a := main_call2_call0_v1) (b := main_call2_call0_v2) (y := main_call2_call0_v3) (f := (Host.divf : (⟨S1x512, .f32⟩ : BufTy).Contents (Elt F) → (⟨S1x512, .f32⟩ : BufTy).Contents (Elt F) → (⟨S1x512, .f32⟩ : BufTy).Contents (Elt F)))
    (by rfl) (out_after 73 73 rfl (by decide)) (out_after 70 73 rfl (by decide)) (out_after 72 73 rfl (by decide)) (by decide) (by decide)

theorem eq_main_call2_call0_v4 (V : Valuation τ sig (Elt F)) :
    after ops V (Proc.devRef .tc main_call2_call0_v4)
      = broadcastInDim S65536x512 ![0, 1] bcast_S1x512_S65536x512_0_1 (after ops V (Proc.devRef .tc main_call2_call0_v3)) :=
  Cert.HostFold.unary_at V ops_outs 74 (x := main_call2_call0_v3) (y := main_call2_call0_v4) (f := (broadcastInDim S65536x512 ![0, 1] bcast_S1x512_S65536x512_0_1 : (⟨S1x512, .f32⟩ : BufTy).Contents (Elt F) → (⟨S65536x512, .f32⟩ : BufTy).Contents (Elt F)))
    (by rfl) (out_after 74 74 rfl (by decide)) (out_after 73 74 rfl (by decide)) (by decide)

theorem eq_main_call2_call0_v5 (V : Valuation τ sig (Elt F)) :
    after ops V (Proc.devRef .tc main_call2_call0_v5)
      = subf (after ops V (Proc.devRef .tc main_v26)) (after ops V (Proc.devRef .tc main_call2_call0_v4)) :=
  Cert.HostFold.binary_at V ops_outs 75 (a := main_v26) (b := main_call2_call0_v4) (y := main_call2_call0_v5) (f := (subf : (⟨S65536x512, .f32⟩ : BufTy).Contents (Elt F) → (⟨S65536x512, .f32⟩ : BufTy).Contents (Elt F) → (⟨S65536x512, .f32⟩ : BufTy).Contents (Elt F)))
    (by rfl) (out_after 75 75 rfl (by decide)) (out_after 58 75 rfl (by decide)) (out_after 74 75 rfl (by decide)) (by decide) (by decide)

theorem eq_main_call2_call0_v6 (V : Valuation τ sig (Elt F)) :
    after ops V (Proc.devRef .tc main_call2_call0_v6)
      = mulf (after ops V (Proc.devRef .tc main_call2_call0_v5)) (after ops V (Proc.devRef .tc main_call2_call0_v5)) :=
  Cert.HostFold.binary_at V ops_outs 76 (a := main_call2_call0_v5) (b := main_call2_call0_v5) (y := main_call2_call0_v6) (f := (mulf : (⟨S65536x512, .f32⟩ : BufTy).Contents (Elt F) → (⟨S65536x512, .f32⟩ : BufTy).Contents (Elt F) → (⟨S65536x512, .f32⟩ : BufTy).Contents (Elt F)))
    (by rfl) (out_after 76 76 rfl (by decide)) (out_after 75 76 rfl (by decide)) (out_after 75 76 rfl (by decide)) (by decide) (by decide)

theorem eq_main_call2_call0_v7 (V : Valuation τ sig (Elt F)) :
    after ops V (Proc.devRef .tc main_call2_call0_v7)
      = sitofp .f32 (after ops V (Proc.devRef .tc main_c_9)) :=
  Cert.HostFold.unary_at V ops_outs 77 (x := main_c_9) (y := main_call2_call0_v7) (f := (sitofp .f32 : (⟨S_, .i32⟩ : BufTy).Contents (Elt F) → (⟨S_, .f32⟩ : BufTy).Contents (Elt F)))
    (by rfl) (out_after 77 77 rfl (by decide)) (out_after 67 77 rfl (by decide)) (by decide)

theorem eq_main_call2_call0_cst_1 (V : Valuation τ sig (Elt F)) :
    after ops V (Proc.devRef .tc main_call2_call0_cst_1)
      = constant S_ .f32 0x47800000#32 :=
  Cert.HostFold.nullary_at V ops_outs 78 (y := main_call2_call0_cst_1) (v := constant S_ .f32 0x47800000#32) (by rfl) (out_after 78 78 rfl (by decide))

theorem eq_main_call2_call0_v8 (V : Valuation τ sig (Elt F)) :
    after ops V (Proc.devRef .tc main_call2_call0_v8)
      = subf (after ops V (Proc.devRef .tc main_call2_call0_cst_1)) (after ops V (Proc.devRef .tc main_call2_call0_v7)) :=
  Cert.HostFold.binary_at V ops_outs 79 (a := main_call2_call0_cst_1) (b := main_call2_call0_v7) (y := main_call2_call0_v8) (f := (subf : (⟨S_, .f32⟩ : BufTy).Contents (Elt F) → (⟨S_, .f32⟩ : BufTy).Contents (Elt F) → (⟨S_, .f32⟩ : BufTy).Contents (Elt F)))
    (by rfl) (out_after 79 79 rfl (by decide)) (out_after 78 79 rfl (by decide)) (out_after 77 79 rfl (by decide)) (by decide) (by decide)

theorem eq_main_call2_call0_cst_2 (V : Valuation τ sig (Elt F)) :
    after ops V (Proc.devRef .tc main_call2_call0_cst_2)
      = constant S_ .f32 0x00000000#32 :=
  Cert.HostFold.nullary_at V ops_outs 80 (y := main_call2_call0_cst_2) (v := constant S_ .f32 0x00000000#32) (by rfl) (out_after 80 80 rfl (by decide))

theorem eq_main_call2_call0_v9 (V : Valuation τ sig (Elt F)) :
    after ops V (Proc.devRef .tc main_call2_call0_v9)
      = Host.reduceAdd (after ops V (Proc.devRef .tc main_call2_call0_v6)) (after ops V (Proc.devRef .tc main_call2_call0_cst_2)) reducesTo_S65536x512_S512_d0 h_S_ :=
  Cert.HostFold.binary_at V ops_outs 81 (a := main_call2_call0_v6) (b := main_call2_call0_cst_2) (y := main_call2_call0_v9) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 81 81 rfl (by decide)) (out_after 76 81 rfl (by decide)) (out_after 80 81 rfl (by decide)) (by decide) (by decide)

theorem eq_main_call2_call0_v10 (V : Valuation τ sig (Elt F)) :
    after ops V (Proc.devRef .tc main_call2_call0_v10)
      = broadcastInDim S512 ![] bcast_S_S512 (after ops V (Proc.devRef .tc main_call2_call0_v8)) :=
  Cert.HostFold.unary_at V ops_outs 82 (x := main_call2_call0_v8) (y := main_call2_call0_v10) (f := (broadcastInDim S512 ![] bcast_S_S512 : (⟨S_, .f32⟩ : BufTy).Contents (Elt F) → (⟨S512, .f32⟩ : BufTy).Contents (Elt F)))
    (by rfl) (out_after 82 82 rfl (by decide)) (out_after 79 82 rfl (by decide)) (by decide)

theorem eq_main_call2_call0_v11 (V : Valuation τ sig (Elt F)) :
    after ops V (Proc.devRef .tc main_call2_call0_v11)
      = Host.divf (after ops V (Proc.devRef .tc main_call2_call0_v9)) (after ops V (Proc.devRef .tc main_call2_call0_v10)) :=
  Cert.HostFold.binary_at V ops_outs 83 (a := main_call2_call0_v9) (b := main_call2_call0_v10) (y := main_call2_call0_v11) (f := (Host.divf : (⟨S512, .f32⟩ : BufTy).Contents (Elt F) → (⟨S512, .f32⟩ : BufTy).Contents (Elt F) → (⟨S512, .f32⟩ : BufTy).Contents (Elt F)))
    (by rfl) (out_after 83 83 rfl (by decide)) (out_after 81 83 rfl (by decide)) (out_after 82 83 rfl (by decide)) (by decide) (by decide)

theorem eq_main_call2_call0_cst_3 (V : Valuation τ sig (Elt F)) :
    after ops V (Proc.devRef .tc main_call2_call0_cst_3)
      = constant S_ .f32 0x00000000#32 :=
  Cert.HostFold.nullary_at V ops_outs 84 (y := main_call2_call0_cst_3) (v := constant S_ .f32 0x00000000#32) (by rfl) (out_after 84 84 rfl (by decide))

theorem eq_main_call2_call0_v12 (V : Valuation τ sig (Elt F)) :
    after ops V (Proc.devRef .tc main_call2_call0_v12)
      = cmpf .ogt (after ops V (Proc.devRef .tc main_call2_call0_v8)) (after ops V (Proc.devRef .tc main_call2_call0_cst_3)) :=
  Cert.HostFold.binary_at V ops_outs 85 (a := main_call2_call0_v8) (b := main_call2_call0_cst_3) (y := main_call2_call0_v12) (f := (cmpf .ogt : (⟨S_, .f32⟩ : BufTy).Contents (Elt F) → (⟨S_, .f32⟩ : BufTy).Contents (Elt F) → (⟨S_, .i1⟩ : BufTy).Contents (Elt F)))
    (by rfl) (out_after 85 85 rfl (by decide)) (out_after 79 85 rfl (by decide)) (out_after 84 85 rfl (by decide)) (by decide) (by decide)

theorem eq_main_call2_call0_cst_4 (V : Valuation τ sig (Elt F)) :
    after ops V (Proc.devRef .tc main_call2_call0_cst_4)
      = constant S_ .f32 0x7FC00000#32 :=
  Cert.HostFold.nullary_at V ops_outs 86 (y := main_call2_call0_cst_4) (v := constant S_ .f32 0x7FC00000#32) (by rfl) (out_after 86 86 rfl (by decide))

theorem eq_main_call2_call0_call0_v0 (V : Valuation τ sig (Elt F)) :
    after ops V (Proc.devRef .tc main_call2_call0_call0_v0)
      = id (after ops V (Proc.devRef .tc main_call2_call0_cst_4)) :=
  Cert.HostFold.unary_at V ops_outs 87 (x := main_call2_call0_cst_4) (y := main_call2_call0_call0_v0) (f := (id : (⟨S_, .f32⟩ : BufTy).Contents (Elt F) → (⟨S_, .f32⟩ : BufTy).Contents (Elt F)))
    (by rfl) (out_after 87 87 rfl (by decide)) (out_after 86 87 rfl (by decide)) (by decide)

theorem eq_main_call2_call0_call0_v1 (V : Valuation τ sig (Elt F)) :
    after ops V (Proc.devRef .tc main_call2_call0_call0_v1)
      = broadcastInDim S512 ![] bcast_S_S512 (after ops V (Proc.devRef .tc main_call2_call0_call0_v0)) :=
  Cert.HostFold.unary_at V ops_outs 88 (x := main_call2_call0_call0_v0) (y := main_call2_call0_call0_v1) (f := (broadcastInDim S512 ![] bcast_S_S512 : (⟨S_, .f32⟩ : BufTy).Contents (Elt F) → (⟨S512, .f32⟩ : BufTy).Contents (Elt F)))
    (by rfl) (out_after 88 88 rfl (by decide)) (out_after 87 88 rfl (by decide)) (by decide)

theorem eq_main_call2_v0 (V : Valuation τ sig (Elt F)) :
    after ops V (Proc.devRef .tc main_call2_v0)
      = select (broadcastInDim S512 ![] bcast_S_S512 (after ops V (Proc.devRef .tc main_call2_call0_v12))) (after ops V (Proc.devRef .tc main_call2_call0_v11)) (after ops V (Proc.devRef .tc main_call2_call0_call0_v1)) :=
  Cert.HostFold.ternary_at V ops_outs 89 (c := main_call2_call0_v12) (a := main_call2_call0_v11) (b := main_call2_call0_call0_v1) (y := main_call2_v0) (f := ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)))
    (by rfl) (out_after 89 89 rfl (by decide)) (out_after 85 89 rfl (by decide)) (out_after 83 89 rfl (by decide)) (out_after 88 89 rfl (by decide)) (by decide) (by decide) (by decide)

theorem eq_main_v33 (V : Valuation τ sig (Elt F)) :
    after ops V (Proc.devRef .tc main_v33)
      = Host.sqrt (after ops V (Proc.devRef .tc main_call2_v0)) :=
  Cert.HostFold.unary_at V ops_outs 90 (x := main_call2_v0) (y := main_v33) (f := (Host.sqrt : (⟨S512, .f32⟩ : BufTy).Contents (Elt F) → (⟨S512, .f32⟩ : BufTy).Contents (Elt F)))
    (by rfl) (out_after 90 90 rfl (by decide)) (out_after 89 90 rfl (by decide)) (by decide)

theorem eq_main_cst_10 (V : Valuation τ sig (Elt F)) :
    after ops V (Proc.devRef .tc main_cst_10)
      = constant S_ .f32 0x322BCC77#32 :=
  Cert.HostFold.nullary_at V ops_outs 91 (y := main_cst_10) (v := constant S_ .f32 0x322BCC77#32) (by rfl) (out_after 91 91 rfl (by decide))

theorem eq_main_v34 (V : Valuation τ sig (Elt F)) :
    after ops V (Proc.devRef .tc main_v34)
      = broadcastInDim S512 ![] bcast_S_S512 (after ops V (Proc.devRef .tc main_cst_10)) :=
  Cert.HostFold.unary_at V ops_outs 92 (x := main_cst_10) (y := main_v34) (f := (broadcastInDim S512 ![] bcast_S_S512 : (⟨S_, .f32⟩ : BufTy).Contents (Elt F) → (⟨S512, .f32⟩ : BufTy).Contents (Elt F)))
    (by rfl) (out_after 92 92 rfl (by decide)) (out_after 91 92 rfl (by decide)) (by decide)

theorem eq_main_v35 (V : Valuation τ sig (Elt F)) :
    after ops V (Proc.devRef .tc main_v35)
      = addf (after ops V (Proc.devRef .tc main_v33)) (after ops V (Proc.devRef .tc main_v34)) :=
  Cert.HostFold.binary_at V ops_outs 93 (a := main_v33) (b := main_v34) (y := main_v35) (f := (addf : (⟨S512, .f32⟩ : BufTy).Contents (Elt F) → (⟨S512, .f32⟩ : BufTy).Contents (Elt F) → (⟨S512, .f32⟩ : BufTy).Contents (Elt F)))
    (by rfl) (out_after 93 93 rfl (by decide)) (out_after 90 93 rfl (by decide)) (out_after 92 93 rfl (by decide)) (by decide) (by decide)

theorem eq_main_c_11 (V : Valuation τ sig (Elt F)) :
    after ops V (Proc.devRef .tc main_c_11)
      = constantI S_ 32 1#32 :=
  Cert.HostFold.nullary_at V ops_outs 94 (y := main_c_11) (v := constantI S_ 32 1#32) (by rfl) (out_after 94 94 rfl (by decide))

theorem eq_main_call3_call0_cst (V : Valuation τ sig (Elt F)) :
    after ops V (Proc.devRef .tc main_call3_call0_cst)
      = constant S_ .f32 0x00000000#32 :=
  Cert.HostFold.nullary_at V ops_outs 95 (y := main_call3_call0_cst) (v := constant S_ .f32 0x00000000#32) (by rfl) (out_after 95 95 rfl (by decide))

theorem eq_main_call3_call0_v0 (V : Valuation τ sig (Elt F)) :
    after ops V (Proc.devRef .tc main_call3_call0_v0)
      = Host.reduceAdd (after ops V (Proc.devRef .tc main_v32)) (after ops V (Proc.devRef .tc main_call3_call0_cst)) reducesTo_S65536x512_S512_d0 h_S_ :=
  Cert.HostFold.binary_at V ops_outs 96 (a := main_v32) (b := main_call3_call0_cst) (y := main_call3_call0_v0) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 96 96 rfl (by decide)) (out_after 66 96 rfl (by decide)) (out_after 95 96 rfl (by decide)) (by decide) (by decide)

theorem eq_main_call3_call0_v1 (V : Valuation τ sig (Elt F)) :
    after ops V (Proc.devRef .tc main_call3_call0_v1)
      = broadcastInDim S1x512 ![1] bcast_S512_S1x512_1 (after ops V (Proc.devRef .tc main_call3_call0_v0)) :=
  Cert.HostFold.unary_at V ops_outs 97 (x := main_call3_call0_v0) (y := main_call3_call0_v1) (f := (broadcastInDim S1x512 ![1] bcast_S512_S1x512_1 : (⟨S512, .f32⟩ : BufTy).Contents (Elt F) → (⟨S1x512, .f32⟩ : BufTy).Contents (Elt F)))
    (by rfl) (out_after 97 97 rfl (by decide)) (out_after 96 97 rfl (by decide)) (by decide)

theorem eq_main_call3_call0_cst_0 (V : Valuation τ sig (Elt F)) :
    after ops V (Proc.devRef .tc main_call3_call0_cst_0)
      = constant S_ .f32 0x47800000#32 :=
  Cert.HostFold.nullary_at V ops_outs 98 (y := main_call3_call0_cst_0) (v := constant S_ .f32 0x47800000#32) (by rfl) (out_after 98 98 rfl (by decide))

theorem eq_main_call3_call0_v2 (V : Valuation τ sig (Elt F)) :
    after ops V (Proc.devRef .tc main_call3_call0_v2)
      = broadcastInDim S1x512 ![] bcast_S_S1x512 (after ops V (Proc.devRef .tc main_call3_call0_cst_0)) :=
  Cert.HostFold.unary_at V ops_outs 99 (x := main_call3_call0_cst_0) (y := main_call3_call0_v2) (f := (broadcastInDim S1x512 ![] bcast_S_S1x512 : (⟨S_, .f32⟩ : BufTy).Contents (Elt F) → (⟨S1x512, .f32⟩ : BufTy).Contents (Elt F)))
    (by rfl) (out_after 99 99 rfl (by decide)) (out_after 98 99 rfl (by decide)) (by decide)

theorem eq_main_call3_call0_v3 (V : Valuation τ sig (Elt F)) :
    after ops V (Proc.devRef .tc main_call3_call0_v3)
      = Host.divf (after ops V (Proc.devRef .tc main_call3_call0_v1)) (after ops V (Proc.devRef .tc main_call3_call0_v2)) :=
  Cert.HostFold.binary_at V ops_outs 100 (a := main_call3_call0_v1) (b := main_call3_call0_v2) (y := main_call3_call0_v3) (f := (Host.divf : (⟨S1x512, .f32⟩ : BufTy).Contents (Elt F) → (⟨S1x512, .f32⟩ : BufTy).Contents (Elt F) → (⟨S1x512, .f32⟩ : BufTy).Contents (Elt F)))
    (by rfl) (out_after 100 100 rfl (by decide)) (out_after 97 100 rfl (by decide)) (out_after 99 100 rfl (by decide)) (by decide) (by decide)

theorem eq_main_call3_call0_v4 (V : Valuation τ sig (Elt F)) :
    after ops V (Proc.devRef .tc main_call3_call0_v4)
      = broadcastInDim S65536x512 ![0, 1] bcast_S1x512_S65536x512_0_1 (after ops V (Proc.devRef .tc main_call3_call0_v3)) :=
  Cert.HostFold.unary_at V ops_outs 101 (x := main_call3_call0_v3) (y := main_call3_call0_v4) (f := (broadcastInDim S65536x512 ![0, 1] bcast_S1x512_S65536x512_0_1 : (⟨S1x512, .f32⟩ : BufTy).Contents (Elt F) → (⟨S65536x512, .f32⟩ : BufTy).Contents (Elt F)))
    (by rfl) (out_after 101 101 rfl (by decide)) (out_after 100 101 rfl (by decide)) (by decide)

end Cert.ReferenceIdeal.HandRun

end
-- ==== Proof.RefEqs3.lean ====
import proofs.«176857_j82240033784130_2_alg».proof.Proof.RefEqs0

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! The equations of the operations at positions 102 … 152 of the reference program's line: the contents of the
operation's result buffer after the whole line, as the operation's function of the contents of its operand buffers after
the whole line. -/

theorem eq_main_call3_call0_v5 (V : Valuation τ sig (Elt F)) :
    after ops V (Proc.devRef .tc main_call3_call0_v5)
      = subf (after ops V (Proc.devRef .tc main_v32)) (after ops V (Proc.devRef .tc main_call3_call0_v4)) :=
  Cert.HostFold.binary_at V ops_outs 102 (a := main_v32) (b := main_call3_call0_v4) (y := main_call3_call0_v5) (f := (subf : (⟨S65536x512, .f32⟩ : BufTy).Contents (Elt F) → (⟨S65536x512, .f32⟩ : BufTy).Contents (Elt F) → (⟨S65536x512, .f32⟩ : BufTy).Contents (Elt F)))
    (by rfl) (out_after 102 102 rfl (by decide)) (out_after 66 102 rfl (by decide)) (out_after 101 102 rfl (by decide)) (by decide) (by decide)

theorem eq_main_call3_call0_v6 (V : Valuation τ sig (Elt F)) :
    after ops V (Proc.devRef .tc main_call3_call0_v6)
      = mulf (after ops V (Proc.devRef .tc main_call3_call0_v5)) (after ops V (Proc.devRef .tc main_call3_call0_v5)) :=
  Cert.HostFold.binary_at V ops_outs 103 (a := main_call3_call0_v5) (b := main_call3_call0_v5) (y := main_call3_call0_v6) (f := (mulf : (⟨S65536x512, .f32⟩ : BufTy).Contents (Elt F) → (⟨S65536x512, .f32⟩ : BufTy).Contents (Elt F) → (⟨S65536x512, .f32⟩ : BufTy).Contents (Elt F)))
    (by rfl) (out_after 103 103 rfl (by decide)) (out_after 102 103 rfl (by decide)) (out_after 102 103 rfl (by decide)) (by decide) (by decide)

theorem eq_main_call3_call0_v7 (V : Valuation τ sig (Elt F)) :
    after ops V (Proc.devRef .tc main_call3_call0_v7)
      = sitofp .f32 (after ops V (Proc.devRef .tc main_c_11)) :=
  Cert.HostFold.unary_at V ops_outs 104 (x := main_c_11) (y := main_call3_call0_v7) (f := (sitofp .f32 : (⟨S_, .i32⟩ : BufTy).Contents (Elt F) → (⟨S_, .f32⟩ : BufTy).Contents (Elt F)))
    (by rfl) (out_after 104 104 rfl (by decide)) (out_after 94 104 rfl (by decide)) (by decide)

theorem eq_main_call3_call0_cst_1 (V : Valuation τ sig (Elt F)) :
    after ops V (Proc.devRef .tc main_call3_call0_cst_1)
      = constant S_ .f32 0x47800000#32 :=
  Cert.HostFold.nullary_at V ops_outs 105 (y := main_call3_call0_cst_1) (v := constant S_ .f32 0x47800000#32) (by rfl) (out_after 105 105 rfl (by decide))

theorem eq_main_call3_call0_v8 (V : Valuation τ sig (Elt F)) :
    after ops V (Proc.devRef .tc main_call3_call0_v8)
      = subf (after ops V (Proc.devRef .tc main_call3_call0_cst_1)) (after ops V (Proc.devRef .tc main_call3_call0_v7)) :=
  Cert.HostFold.binary_at V ops_outs 106 (a := main_call3_call0_cst_1) (b := main_call3_call0_v7) (y := main_call3_call0_v8) (f := (subf : (⟨S_, .f32⟩ : BufTy).Contents (Elt F) → (⟨S_, .f32⟩ : BufTy).Contents (Elt F) → (⟨S_, .f32⟩ : BufTy).Contents (Elt F)))
    (by rfl) (out_after 106 106 rfl (by decide)) (out_after 105 106 rfl (by decide)) (out_after 104 106 rfl (by decide)) (by decide) (by decide)

theorem eq_main_call3_call0_cst_2 (V : Valuation τ sig (Elt F)) :
    after ops V (Proc.devRef .tc main_call3_call0_cst_2)
      = constant S_ .f32 0x00000000#32 :=
  Cert.HostFold.nullary_at V ops_outs 107 (y := main_call3_call0_cst_2) (v := constant S_ .f32 0x00000000#32) (by rfl) (out_after 107 107 rfl (by decide))

theorem eq_main_call3_call0_v9 (V : Valuation τ sig (Elt F)) :
    after ops V (Proc.devRef .tc main_call3_call0_v9)
      = Host.reduceAdd (after ops V (Proc.devRef .tc main_call3_call0_v6)) (after ops V (Proc.devRef .tc main_call3_call0_cst_2)) reducesTo_S65536x512_S512_d0 h_S_ :=
  Cert.HostFold.binary_at V ops_outs 108 (a := main_call3_call0_v6) (b := main_call3_call0_cst_2) (y := main_call3_call0_v9) (f := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)))
    (by rfl) (out_after 108 108 rfl (by decide)) (out_after 103 108 rfl (by decide)) (out_after 107 108 rfl (by decide)) (by decide) (by decide)

theorem eq_main_call3_call0_v10 (V : Valuation τ sig (Elt F)) :
    after ops V (Proc.devRef .tc main_call3_call0_v10)
      = broadcastInDim S512 ![] bcast_S_S512 (after ops V (Proc.devRef .tc main_call3_call0_v8)) :=
  Cert.HostFold.unary_at V ops_outs 109 (x := main_call3_call0_v8) (y := main_call3_call0_v10) (f := (broadcastInDim S512 ![] bcast_S_S512 : (⟨S_, .f32⟩ : BufTy).Contents (Elt F) → (⟨S512, .f32⟩ : BufTy).Contents (Elt F)))
    (by rfl) (out_after 109 109 rfl (by decide)) (out_after 106 109 rfl (by decide)) (by decide)

theorem eq_main_call3_call0_v11 (V : Valuation τ sig (Elt F)) :
    after ops V (Proc.devRef .tc main_call3_call0_v11)
      = Host.divf (after ops V (Proc.devRef .tc main_call3_call0_v9)) (after ops V (Proc.devRef .tc main_call3_call0_v10)) :=
  Cert.HostFold.binary_at V ops_outs 110 (a := main_call3_call0_v9) (b := main_call3_call0_v10) (y := main_call3_call0_v11) (f := (Host.divf : (⟨S512, .f32⟩ : BufTy).Contents (Elt F) → (⟨S512, .f32⟩ : BufTy).Contents (Elt F) → (⟨S512, .f32⟩ : BufTy).Contents (Elt F)))
    (by rfl) (out_after 110 110 rfl (by decide)) (out_after 108 110 rfl (by decide)) (out_after 109 110 rfl (by decide)) (by decide) (by decide)

theorem eq_main_call3_call0_cst_3 (V : Valuation τ sig (Elt F)) :
    after ops V (Proc.devRef .tc main_call3_call0_cst_3)
      = constant S_ .f32 0x00000000#32 :=
  Cert.HostFold.nullary_at V ops_outs 111 (y := main_call3_call0_cst_3) (v := constant S_ .f32 0x00000000#32) (by rfl) (out_after 111 111 rfl (by decide))

theorem eq_main_call3_call0_v12 (V : Valuation τ sig (Elt F)) :
    after ops V (Proc.devRef .tc main_call3_call0_v12)
      = cmpf .ogt (after ops V (Proc.devRef .tc main_call3_call0_v8)) (after ops V (Proc.devRef .tc main_call3_call0_cst_3)) :=
  Cert.HostFold.binary_at V ops_outs 112 (a := main_call3_call0_v8) (b := main_call3_call0_cst_3) (y := main_call3_call0_v12) (f := (cmpf .ogt : (⟨S_, .f32⟩ : BufTy).Contents (Elt F) → (⟨S_, .f32⟩ : BufTy).Contents (Elt F) → (⟨S_, .i1⟩ : BufTy).Contents (Elt F)))
    (by rfl) (out_after 112 112 rfl (by decide)) (out_after 106 112 rfl (by decide)) (out_after 111 112 rfl (by decide)) (by decide) (by decide)

theorem eq_main_call3_call0_cst_4 (V : Valuation τ sig (Elt F)) :
    after ops V (Proc.devRef .tc main_call3_call0_cst_4)
      = constant S_ .f32 0x7FC00000#32 :=
  Cert.HostFold.nullary_at V ops_outs 113 (y := main_call3_call0_cst_4) (v := constant S_ .f32 0x7FC00000#32) (by rfl) (out_after 113 113 rfl (by decide))

theorem eq_main_call3_call0_call0_v0 (V : Valuation τ sig (Elt F)) :
    after ops V (Proc.devRef .tc main_call3_call0_call0_v0)
      = id (after ops V (Proc.devRef .tc main_call3_call0_cst_4)) :=
  Cert.HostFold.unary_at V ops_outs 114 (x := main_call3_call0_cst_4) (y := main_call3_call0_call0_v0) (f := (id : (⟨S_, .f32⟩ : BufTy).Contents (Elt F) → (⟨S_, .f32⟩ : BufTy).Contents (Elt F)))
    (by rfl) (out_after 114 114 rfl (by decide)) (out_after 113 114 rfl (by decide)) (by decide)

theorem eq_main_call3_call0_call0_v1 (V : Valuation τ sig (Elt F)) :
    after ops V (Proc.devRef .tc main_call3_call0_call0_v1)
      = broadcastInDim S512 ![] bcast_S_S512 (after ops V (Proc.devRef .tc main_call3_call0_call0_v0)) :=
  Cert.HostFold.unary_at V ops_outs 115 (x := main_call3_call0_call0_v0) (y := main_call3_call0_call0_v1) (f := (broadcastInDim S512 ![] bcast_S_S512 : (⟨S_, .f32⟩ : BufTy).Contents (Elt F) → (⟨S512, .f32⟩ : BufTy).Contents (Elt F)))
    (by rfl) (out_after 115 115 rfl (by decide)) (out_after 114 115 rfl (by decide)) (by decide)

theorem eq_main_call3_v0 (V : Valuation τ sig (Elt F)) :
    after ops V (Proc.devRef .tc main_call3_v0)
      = select (broadcastInDim S512 ![] bcast_S_S512 (after ops V (Proc.devRef .tc main_call3_call0_v12))) (after ops V (Proc.devRef .tc main_call3_call0_v11)) (after ops V (Proc.devRef .tc main_call3_call0_call0_v1)) :=
  Cert.HostFold.ternary_at V ops_outs 116 (c := main_call3_call0_v12) (a := main_call3_call0_v11) (b := main_call3_call0_call0_v1) (y := main_call3_v0) (f := ((fun p a b => select (broadcastInDim S512 ![] bcast_S_S512 p) a b) : (⟨S_, .i1⟩ : BufTy).Contents (Elt F) → (⟨S512, .f32⟩ : BufTy).Contents (Elt F) → (⟨S512, .f32⟩ : BufTy).Contents (Elt F) → (⟨S512, .f32⟩ : BufTy).Contents (Elt F)))
    (by rfl) (out_after 116 116 rfl (by decide)) (out_after 112 116 rfl (by decide)) (out_after 110 116 rfl (by decide)) (out_after 115 116 rfl (by decide)) (by decide) (by decide) (by decide)

theorem eq_main_v36 (V : Valuation τ sig (Elt F)) :
    after ops V (Proc.devRef .tc main_v36)
      = Host.sqrt (after ops V (Proc.devRef .tc main_call3_v0)) :=
  Cert.HostFold.unary_at V ops_outs 117 (x := main_call3_v0) (y := main_v36) (f := (Host.sqrt : (⟨S512, .f32⟩ : BufTy).Contents (Elt F) → (⟨S512, .f32⟩ : BufTy).Contents (Elt F)))
    (by rfl) (out_after 117 117 rfl (by decide)) (out_after 116 117 rfl (by decide)) (by decide)

theorem eq_main_cst_12 (V : Valuation τ sig (Elt F)) :
    after ops V (Proc.devRef .tc main_cst_12)
      = constant S_ .f32 0x322BCC77#32 :=
  Cert.HostFold.nullary_at V ops_outs 118 (y := main_cst_12) (v := constant S_ .f32 0x322BCC77#32) (by rfl) (out_after 118 118 rfl (by decide))

theorem eq_main_v37 (V : Valuation τ sig (Elt F)) :
    after ops V (Proc.devRef .tc main_v37)
      = broadcastInDim S512 ![] bcast_S_S512 (after ops V (Proc.devRef .tc main_cst_12)) :=
  Cert.HostFold.unary_at V ops_outs 119 (x := main_cst_12) (y := main_v37) (f := (broadcastInDim S512 ![] bcast_S_S512 : (⟨S_, .f32⟩ : BufTy).Contents (Elt F) → (⟨S512, .f32⟩ : BufTy).Contents (Elt F)))
    (by rfl) (out_after 119 119 rfl (by decide)) (out_after 118 119 rfl (by decide)) (by decide)

theorem eq_main_v38 (V : Valuation τ sig (Elt F)) :
    after ops V (Proc.devRef .tc main_v38)
      = addf (after ops V (Proc.devRef .tc main_v36)) (after ops V (Proc.devRef .tc main_v37)) :=
  Cert.HostFold.binary_at V ops_outs 120 (a := main_v36) (b := main_v37) (y := main_v38) (f := (addf : (⟨S512, .f32⟩ : BufTy).Contents (Elt F) → (⟨S512, .f32⟩ : BufTy).Contents (Elt F) → (⟨S512, .f32⟩ : BufTy).Contents (Elt F)))
    (by rfl) (out_after 120 120 rfl (by decide)) (out_after 117 120 rfl (by decide)) (out_after 119 120 rfl (by decide)) (by decide) (by decide)

theorem eq_main_v39 (V : Valuation τ sig (Elt F)) :
    after ops V (Proc.devRef .tc main_v39)
      = transpose S512x65536 [1, 0] (after ops V (Proc.devRef .tc main_v26)) transposes_S65536x512_S512x65536_1_0 :=
  Cert.HostFold.unary_at V ops_outs 121 (x := main_v26) (y := main_v39) (f := ((transpose S512x65536 [1, 0] · transposes_S65536x512_S512x65536_1_0) : (⟨S65536x512, .f32⟩ : BufTy).Contents (Elt F) → (⟨S512x65536, .f32⟩ : BufTy).Contents (Elt F)))
    (by rfl) (out_after 121 121 rfl (by decide)) (out_after 58 121 rfl (by decide)) (by decide)

theorem eq_main_v40 (V : Valuation τ sig (Elt F)) :
    after ops V (Proc.devRef .tc main_v40)
      = Host.dotGeneral dot_S512x65536_S65536x512_S512x512_1_0_0_1_n_n none (after ops V (Proc.devRef .tc main_v39)) (after ops V (Proc.devRef .tc main_v32)) :=
  Cert.HostFold.binary_at V ops_outs 122 (a := main_v39) (b := main_v32) (y := main_v40) (f := ((fun l r => Host.dotGeneral dot_S512x65536_S65536x512_S512x512_1_0_0_1_n_n none l r) : (⟨S512x65536, .f32⟩ : BufTy).Contents (Elt F) → (⟨S65536x512, .f32⟩ : BufTy).Contents (Elt F) → (⟨S512x512, .f32⟩ : BufTy).Contents (Elt F)))
    (by rfl) (out_after 122 122 rfl (by decide)) (out_after 121 122 rfl (by decide)) (out_after 66 122 rfl (by decide)) (by decide) (by decide)

theorem eq_main_cst_13 (V : Valuation τ sig (Elt F)) :
    after ops V (Proc.devRef .tc main_cst_13)
      = constant S_ .f32 0x47800000#32 :=
  Cert.HostFold.nullary_at V ops_outs 123 (y := main_cst_13) (v := constant S_ .f32 0x47800000#32) (by rfl) (out_after 123 123 rfl (by decide))

theorem eq_main_v41 (V : Valuation τ sig (Elt F)) :
    after ops V (Proc.devRef .tc main_v41)
      = broadcastInDim S512x512 ![] bcast_S_S512x512 (after ops V (Proc.devRef .tc main_cst_13)) :=
  Cert.HostFold.unary_at V ops_outs 124 (x := main_cst_13) (y := main_v41) (f := (broadcastInDim S512x512 ![] bcast_S_S512x512 : (⟨S_, .f32⟩ : BufTy).Contents (Elt F) → (⟨S512x512, .f32⟩ : BufTy).Contents (Elt F)))
    (by rfl) (out_after 124 124 rfl (by decide)) (out_after 123 124 rfl (by decide)) (by decide)

theorem eq_main_v42 (V : Valuation τ sig (Elt F)) :
    after ops V (Proc.devRef .tc main_v42)
      = Host.divf (after ops V (Proc.devRef .tc main_v40)) (after ops V (Proc.devRef .tc main_v41)) :=
  Cert.HostFold.binary_at V ops_outs 125 (a := main_v40) (b := main_v41) (y := main_v42) (f := (Host.divf : (⟨S512x512, .f32⟩ : BufTy).Contents (Elt F) → (⟨S512x512, .f32⟩ : BufTy).Contents (Elt F) → (⟨S512x512, .f32⟩ : BufTy).Contents (Elt F)))
    (by rfl) (out_after 125 125 rfl (by decide)) (out_after 122 125 rfl (by decide)) (out_after 124 125 rfl (by decide)) (by decide) (by decide)

theorem eq_main_v43 (V : Valuation τ sig (Elt F)) :
    after ops V (Proc.devRef .tc main_v43)
      = broadcastInDim S512x1 ![0] bcast_S512_S512x1_0 (after ops V (Proc.devRef .tc main_v35)) :=
  Cert.HostFold.unary_at V ops_outs 126 (x := main_v35) (y := main_v43) (f := (broadcastInDim S512x1 ![0] bcast_S512_S512x1_0 : (⟨S512, .f32⟩ : BufTy).Contents (Elt F) → (⟨S512x1, .f32⟩ : BufTy).Contents (Elt F)))
    (by rfl) (out_after 126 126 rfl (by decide)) (out_after 93 126 rfl (by decide)) (by decide)

theorem eq_main_v44 (V : Valuation τ sig (Elt F)) :
    after ops V (Proc.devRef .tc main_v44)
      = broadcastInDim S1x512 ![1] bcast_S512_S1x512_1 (after ops V (Proc.devRef .tc main_v38)) :=
  Cert.HostFold.unary_at V ops_outs 127 (x := main_v38) (y := main_v44) (f := (broadcastInDim S1x512 ![1] bcast_S512_S1x512_1 : (⟨S512, .f32⟩ : BufTy).Contents (Elt F) → (⟨S1x512, .f32⟩ : BufTy).Contents (Elt F)))
    (by rfl) (out_after 127 127 rfl (by decide)) (out_after 120 127 rfl (by decide)) (by decide)

theorem eq_main_v45 (V : Valuation τ sig (Elt F)) :
    after ops V (Proc.devRef .tc main_v45)
      = broadcastInDim S512x512 ![0, 1] bcast_S512x1_S512x512_0_1 (after ops V (Proc.devRef .tc main_v43)) :=
  Cert.HostFold.unary_at V ops_outs 128 (x := main_v43) (y := main_v45) (f := (broadcastInDim S512x512 ![0, 1] bcast_S512x1_S512x512_0_1 : (⟨S512x1, .f32⟩ : BufTy).Contents (Elt F) → (⟨S512x512, .f32⟩ : BufTy).Contents (Elt F)))
    (by rfl) (out_after 128 128 rfl (by decide)) (out_after 126 128 rfl (by decide)) (by decide)

theorem eq_main_v46 (V : Valuation τ sig (Elt F)) :
    after ops V (Proc.devRef .tc main_v46)
      = broadcastInDim S512x512 ![0, 1] bcast_S1x512_S512x512_0_1 (after ops V (Proc.devRef .tc main_v44)) :=
  Cert.HostFold.unary_at V ops_outs 129 (x := main_v44) (y := main_v46) (f := (broadcastInDim S512x512 ![0, 1] bcast_S1x512_S512x512_0_1 : (⟨S1x512, .f32⟩ : BufTy).Contents (Elt F) → (⟨S512x512, .f32⟩ : BufTy).Contents (Elt F)))
    (by rfl) (out_after 129 129 rfl (by decide)) (out_after 127 129 rfl (by decide)) (by decide)

theorem eq_main_v47 (V : Valuation τ sig (Elt F)) :
    after ops V (Proc.devRef .tc main_v47)
      = mulf (after ops V (Proc.devRef .tc main_v45)) (after ops V (Proc.devRef .tc main_v46)) :=
  Cert.HostFold.binary_at V ops_outs 130 (a := main_v45) (b := main_v46) (y := main_v47) (f := (mulf : (⟨S512x512, .f32⟩ : BufTy).Contents (Elt F) → (⟨S512x512, .f32⟩ : BufTy).Contents (Elt F) → (⟨S512x512, .f32⟩ : BufTy).Contents (Elt F)))
    (by rfl) (out_after 130 130 rfl (by decide)) (out_after 128 130 rfl (by decide)) (out_after 129 130 rfl (by decide)) (by decide) (by decide)

theorem eq_main_v48 (V : Valuation τ sig (Elt F)) :
    after ops V (Proc.devRef .tc main_v48)
      = Host.divf (after ops V (Proc.devRef .tc main_v42)) (after ops V (Proc.devRef .tc main_v47)) :=
  Cert.HostFold.binary_at V ops_outs 131 (a := main_v42) (b := main_v47) (y := main_v48) (f := (Host.divf : (⟨S512x512, .f32⟩ : BufTy).Contents (Elt F) → (⟨S512x512, .f32⟩ : BufTy).Contents (Elt F) → (⟨S512x512, .f32⟩ : BufTy).Contents (Elt F)))
    (by rfl) (out_after 131 131 rfl (by decide)) (out_after 125 131 rfl (by decide)) (out_after 130 131 rfl (by decide)) (by decide) (by decide)

theorem eq_main_v49 (V : Valuation τ sig (Elt F)) :
    after ops V (Proc.devRef .tc main_v49)
      = Host.absf (after ops V (Proc.devRef .tc main_v48)) :=
  Cert.HostFold.unary_at V ops_outs 132 (x := main_v48) (y := main_v49) (f := (Host.absf : (⟨S512x512, .f32⟩ : BufTy).Contents (Elt F) → (⟨S512x512, .f32⟩ : BufTy).Contents (Elt F)))
    (by rfl) (out_after 132 132 rfl (by decide)) (out_after 131 132 rfl (by decide)) (by decide)

theorem eq_main_v50 (V : Valuation τ sig (Elt F)) :
    after ops V (Proc.devRef .tc main_v50)
      = iotaInDim S512x512 32 0 :=
  Cert.HostFold.nullary_at V ops_outs 133 (y := main_v50) (v := iotaInDim S512x512 32 0) (by rfl) (out_after 133 133 rfl (by decide))

theorem eq_main_v51 (V : Valuation τ sig (Elt F)) :
    after ops V (Proc.devRef .tc main_v51)
      = iotaInDim S512x512 32 1 :=
  Cert.HostFold.nullary_at V ops_outs 134 (y := main_v51) (v := iotaInDim S512x512 32 1) (by rfl) (out_after 134 134 rfl (by decide))

theorem eq_main_c_14 (V : Valuation τ sig (Elt F)) :
    after ops V (Proc.devRef .tc main_c_14)
      = constantI S_ 32 0#32 :=
  Cert.HostFold.nullary_at V ops_outs 135 (y := main_c_14) (v := constantI S_ 32 0#32) (by rfl) (out_after 135 135 rfl (by decide))

theorem eq_main_v52 (V : Valuation τ sig (Elt F)) :
    after ops V (Proc.devRef .tc main_v52)
      = broadcastInDim S512x512 ![] bcast_S_S512x512 (after ops V (Proc.devRef .tc main_c_14)) :=
  Cert.HostFold.unary_at V ops_outs 136 (x := main_c_14) (y := main_v52) (f := (broadcastInDim S512x512 ![] bcast_S_S512x512 : (⟨S_, .i32⟩ : BufTy).Contents (Elt F) → (⟨S512x512, .i32⟩ : BufTy).Contents (Elt F)))
    (by rfl) (out_after 136 136 rfl (by decide)) (out_after 135 136 rfl (by decide)) (by decide)

theorem eq_main_v53 (V : Valuation τ sig (Elt F)) :
    after ops V (Proc.devRef .tc main_v53)
      = addi (after ops V (Proc.devRef .tc main_v50)) (after ops V (Proc.devRef .tc main_v52)) :=
  Cert.HostFold.binary_at V ops_outs 137 (a := main_v50) (b := main_v52) (y := main_v53) (f := (addi : (⟨S512x512, .i32⟩ : BufTy).Contents (Elt F) → (⟨S512x512, .i32⟩ : BufTy).Contents (Elt F) → (⟨S512x512, .i32⟩ : BufTy).Contents (Elt F)))
    (by rfl) (out_after 137 137 rfl (by decide)) (out_after 133 137 rfl (by decide)) (out_after 136 137 rfl (by decide)) (by decide) (by decide)

theorem eq_main_v54 (V : Valuation τ sig (Elt F)) :
    after ops V (Proc.devRef .tc main_v54)
      = cmpi .eq (after ops V (Proc.devRef .tc main_v53)) (after ops V (Proc.devRef .tc main_v51)) :=
  Cert.HostFold.binary_at V ops_outs 138 (a := main_v53) (b := main_v51) (y := main_v54) (f := (cmpi .eq : (⟨S512x512, .i32⟩ : BufTy).Contents (Elt F) → (⟨S512x512, .i32⟩ : BufTy).Contents (Elt F) → (⟨S512x512, .i1⟩ : BufTy).Contents (Elt F)))
    (by rfl) (out_after 138 138 rfl (by decide)) (out_after 137 138 rfl (by decide)) (out_after 134 138 rfl (by decide)) (by decide) (by decide)

theorem eq_main_v55 (V : Valuation τ sig (Elt F)) :
    after ops V (Proc.devRef .tc main_v55)
      = uitofp .f32 (after ops V (Proc.devRef .tc main_v54)) :=
  Cert.HostFold.unary_at V ops_outs 139 (x := main_v54) (y := main_v55) (f := (uitofp .f32 : (⟨S512x512, .i1⟩ : BufTy).Contents (Elt F) → (⟨S512x512, .f32⟩ : BufTy).Contents (Elt F)))
    (by rfl) (out_after 139 139 rfl (by decide)) (out_after 138 139 rfl (by decide)) (by decide)

theorem eq_main_cst_15 (V : Valuation τ sig (Elt F)) :
    after ops V (Proc.devRef .tc main_cst_15)
      = constant S_ .f32 0x3F800000#32 :=
  Cert.HostFold.nullary_at V ops_outs 140 (y := main_cst_15) (v := constant S_ .f32 0x3F800000#32) (by rfl) (out_after 140 140 rfl (by decide))

theorem eq_main_v56 (V : Valuation τ sig (Elt F)) :
    after ops V (Proc.devRef .tc main_v56)
      = broadcastInDim S512x512 ![] bcast_S_S512x512 (after ops V (Proc.devRef .tc main_cst_15)) :=
  Cert.HostFold.unary_at V ops_outs 141 (x := main_cst_15) (y := main_v56) (f := (broadcastInDim S512x512 ![] bcast_S_S512x512 : (⟨S_, .f32⟩ : BufTy).Contents (Elt F) → (⟨S512x512, .f32⟩ : BufTy).Contents (Elt F)))
    (by rfl) (out_after 141 141 rfl (by decide)) (out_after 140 141 rfl (by decide)) (by decide)

theorem eq_main_v57 (V : Valuation τ sig (Elt F)) :
    after ops V (Proc.devRef .tc main_v57)
      = subf (after ops V (Proc.devRef .tc main_v56)) (after ops V (Proc.devRef .tc main_v55)) :=
  Cert.HostFold.binary_at V ops_outs 142 (a := main_v56) (b := main_v55) (y := main_v57) (f := (subf : (⟨S512x512, .f32⟩ : BufTy).Contents (Elt F) → (⟨S512x512, .f32⟩ : BufTy).Contents (Elt F) → (⟨S512x512, .f32⟩ : BufTy).Contents (Elt F)))
    (by rfl) (out_after 142 142 rfl (by decide)) (out_after 141 142 rfl (by decide)) (out_after 139 142 rfl (by decide)) (by decide) (by decide)

theorem eq_main_v58 (V : Valuation τ sig (Elt F)) :
    after ops V (Proc.devRef .tc main_v58)
      = mulf (after ops V (Proc.devRef .tc main_v49)) (after ops V (Proc.devRef .tc main_v57)) :=
  Cert.HostFold.binary_at V ops_outs 143 (a := main_v49) (b := main_v57) (y := main_v58) (f := (mulf : (⟨S512x512, .f32⟩ : BufTy).Contents (Elt F) → (⟨S512x512, .f32⟩ : BufTy).Contents (Elt F) → (⟨S512x512, .f32⟩ : BufTy).Contents (Elt F)))
    (by rfl) (out_after 143 143 rfl (by decide)) (out_after 132 143 rfl (by decide)) (out_after 142 143 rfl (by decide)) (by decide) (by decide)

theorem eq_main_v59 (V : Valuation τ sig (Elt F)) :
    after ops V (Proc.devRef .tc main_v59)
      = mulf (after ops V (Proc.devRef .tc main_arg1)) (after ops V (Proc.devRef .tc main_v58)) :=
  Cert.HostFold.binary_at V ops_outs 144 (a := main_arg1) (b := main_v58) (y := main_v59) (f := (mulf : (⟨S512x512, .f32⟩ : BufTy).Contents (Elt F) → (⟨S512x512, .f32⟩ : BufTy).Contents (Elt F) → (⟨S512x512, .f32⟩ : BufTy).Contents (Elt F)))
    (by rfl) (out_after 144 144 rfl (by decide)) (arg_after arg1_not_out 144) (out_after 143 144 rfl (by decide)) (by decide) (by decide)

theorem eq_main_cst_16 (V : Valuation τ sig (Elt F)) :
    after ops V (Proc.devRef .tc main_cst_16)
      = constant S_ .f32 0x00000000#32 :=
  Cert.HostFold.nullary_at V ops_outs 145 (y := main_cst_16) (v := constant S_ .f32 0x00000000#32) (by rfl) (out_after 145 145 rfl (by decide))

theorem eq_main_v60 (V : Valuation τ sig (Elt F)) :
    after ops V (Proc.devRef .tc main_v60)
      = Host.reduceAdd (after ops V (Proc.devRef .tc main_v59)) (after ops V (Proc.devRef .tc main_cst_16)) reducesTo_S512x512_S_d0_1 h_S_ :=
  Cert.HostFold.binary_at V ops_outs 146 (a := main_v59) (b := main_cst_16) (y := main_v60) (f := ((fun x v => Host.reduceAdd x v reducesTo_S512x512_S_d0_1 h_S_) : (⟨S512x512, .f32⟩ : BufTy).Contents (Elt F) → (⟨S_, .f32⟩ : BufTy).Contents (Elt F) → (⟨S_, .f32⟩ : BufTy).Contents (Elt F)))
    (by rfl) (out_after 146 146 rfl (by decide)) (out_after 144 146 rfl (by decide)) (out_after 145 146 rfl (by decide)) (by decide) (by decide)

theorem eq_main_v61 (V : Valuation τ sig (Elt F)) :
    after ops V (Proc.devRef .tc main_v61)
      = Host.divf (after ops V (Proc.devRef .tc main_v60)) (after ops V (Proc.devRef .tc main_v1)) :=
  Cert.HostFold.binary_at V ops_outs 147 (a := main_v60) (b := main_v1) (y := main_v61) (f := (Host.divf : (⟨S_, .f32⟩ : BufTy).Contents (Elt F) → (⟨S_, .f32⟩ : BufTy).Contents (Elt F) → (⟨S_, .f32⟩ : BufTy).Contents (Elt F)))
    (by rfl) (out_after 147 147 rfl (by decide)) (out_after 146 147 rfl (by decide)) (out_after 3 147 rfl (by decide)) (by decide) (by decide)

theorem eq_main_cst_17 (V : Valuation τ sig (Elt F)) :
    after ops V (Proc.devRef .tc main_cst_17)
      = constant S_ .f32 0x3F000000#32 :=
  Cert.HostFold.nullary_at V ops_outs 148 (y := main_cst_17) (v := constant S_ .f32 0x3F000000#32) (by rfl) (out_after 148 148 rfl (by decide))

theorem eq_main_v62 (V : Valuation τ sig (Elt F)) :
    after ops V (Proc.devRef .tc main_v62)
      = mulf (after ops V (Proc.devRef .tc main_cst_17)) (after ops V (Proc.devRef .tc main_v61)) :=
  Cert.HostFold.binary_at V ops_outs 149 (a := main_cst_17) (b := main_v61) (y := main_v62) (f := (mulf : (⟨S_, .f32⟩ : BufTy).Contents (Elt F) → (⟨S_, .f32⟩ : BufTy).Contents (Elt F) → (⟨S_, .f32⟩ : BufTy).Contents (Elt F)))
    (by rfl) (out_after 149 149 rfl (by decide)) (out_after 148 149 rfl (by decide)) (out_after 147 149 rfl (by decide)) (by decide) (by decide)

theorem eq_main_v63 (V : Valuation τ sig (Elt F)) :
    after ops V (Proc.devRef .tc main_v63)
      = addf (after ops V (Proc.devRef .tc main_v18)) (after ops V (Proc.devRef .tc main_v62)) :=
  Cert.HostFold.binary_at V ops_outs 150 (a := main_v18) (b := main_v62) (y := main_v63) (f := (addf : (⟨S_, .f32⟩ : BufTy).Contents (Elt F) → (⟨S_, .f32⟩ : BufTy).Contents (Elt F) → (⟨S_, .f32⟩ : BufTy).Contents (Elt F)))
    (by rfl) (out_after 150 150 rfl (by decide)) (out_after 48 150 rfl (by decide)) (out_after 149 150 rfl (by decide)) (by decide) (by decide)

theorem eq_main_cst_18 (V : Valuation τ sig (Elt F)) :
    after ops V (Proc.devRef .tc main_cst_18)
      = constant S_ .f32 0x3DCCCCCD#32 :=
  Cert.HostFold.nullary_at V ops_outs 151 (y := main_cst_18) (v := constant S_ .f32 0x3DCCCCCD#32) (by rfl) (out_after 151 151 rfl (by decide))

theorem eq_main_v64 (V : Valuation τ sig (Elt F)) :
    after ops V (Proc.devRef .tc main_v64)
      = mulf (after ops V (Proc.devRef .tc main_cst_18)) (after ops V (Proc.devRef .tc main_v63)) :=
  Cert.HostFold.binary_at V ops_outs 152 (a := main_cst_18) (b := main_v63) (y := main_v64) (f := (mulf : (⟨S_, .f32⟩ : BufTy).Contents (Elt F) → (⟨S_, .f32⟩ : BufTy).Contents (Elt F) → (⟨S_, .f32⟩ : BufTy).Contents (Elt F)))
    (by rfl) (out_after 152 152 rfl (by decide)) (out_after 151 152 rfl (by decide)) (out_after 150 152 rfl (by decide)) (by decide) (by decide)

end Cert.ReferenceIdeal.HandRun

end
-- ==== Proof.RefEqs.lean ====
import proofs.«176857_j82240033784130_2_alg».proof.Proof.RefEqs1
import proofs.«176857_j82240033784130_2_alg».proof.Proof.RefEqs2
import proofs.«176857_j82240033784130_2_alg».proof.Proof.RefEqs3

/-! The defining equation of every operation of the reference program's line, on the final contents: the three
modules imported above hold them, `eq_‹buffer›` for the operation that writes `‹buffer›`. -/
-- ==== Proof.RefOps.lean ====
/-
  The two-pass penalty's operations read at an index.

  Every array operation of the two-pass program, read at one index of its result, is an operation of the
  extended reals on the operands' elements: a sum over the rows of a column (the reduction over the sample
  axis), the total sum of a square matrix (the reduction over both axes), a product summed over the one
  contracted axis (the two matrix products), an element repeated (the broadcasts), an element moved (the
  transpose), or the same operation on the elements (everything else). This module states those readings
  for the shapes of the program, and then reads each stage of the program, given as the list of equations
  that define its intermediate arrays, as the function of the specification it computes: the column means
  and the centred array, the unbiased column variance with its guard on the divisor, the entropy term, the
  residuals, the cross products, the identity matrix, the normalised absolute cross term and the closing
  weighted sums.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll
import proofs.«176857_j82240033784130_2_alg».proof.ReferenceIdeal
import proofs.«176857_j82240033784130_2_alg».proof.Proof.Spec
import proofs.«176857_j82240033784130_2_alg».proof.Proof.LibFinite

noncomputable section

open scoped BigOperators

namespace Cert.ReferenceIdeal.HandRead

open Idealize.ShloMosaic Idealize.ShloMosaic.ValueIdx

/-! ## Broadcasts at an index -/

section Bcast
variable {α : Type}

/-- A scalar broadcast to any shape reads the scalar's one element everywhere. -/
theorem bc_scalar {t : Shape} (h : S_.BroadcastsInDim t (![] : Fin 0 → Fin t.rank)) (c : S_.Idx → α) (j : t.Idx) :
    broadcastInDim t ![] h c j = c ix0 :=
  broadcastInDim_apply _ h c j ix0 (fun a => a.elim0)

/-- A vector laid along the columns of a one-row matrix. -/
theorem bc_row (h : S512.BroadcastsInDim S1x512 (![1] : Fin 1 → Fin S1x512.rank)) (v : S512.Idx → α)
    (z : Fin 1) (j : Fin 512) : broadcastInDim S1x512 ![1] h v (ix2 z j) = v (ix1 j) :=
  broadcastInDim_apply _ h v _ _ (fun a => match a with | ⟨0, _⟩ => rfl)

/-- A vector laid along the rows of a one-column matrix. -/
theorem bc_col (h : S512.BroadcastsInDim S512x1 (![0] : Fin 1 → Fin S512x1.rank)) (v : S512.Idx → α)
    (i : Fin 512) (z : Fin 1) : broadcastInDim S512x1 ![0] h v (ix2 i z) = v (ix1 i) :=
  broadcastInDim_apply _ h v _ _ (fun a => match a with | ⟨0, _⟩ => rfl)

/-- A one-row matrix repeated down the sample axis. -/
theorem bc_rows (h : S1x512.BroadcastsInDim S65536x512 (![0, 1] : Fin 2 → Fin S65536x512.rank)) (w : S1x512.Idx → α)
    (n : Fin 65536) (j : Fin 512) : broadcastInDim S65536x512 ![0, 1] h w (ix2 n j) = w (ix2 0 j) :=
  broadcastInDim_apply _ h w _ _ (fun a => match a with | ⟨0, _⟩ => rfl | ⟨1, _⟩ => rfl)

/-- A one-row matrix repeated down a square matrix. -/
theorem bc_rows_sq (h : S1x512.BroadcastsInDim S512x512 (![0, 1] : Fin 2 → Fin S512x512.rank)) (w : S1x512.Idx → α)
    (i : Fin 512) (j : Fin 512) : broadcastInDim S512x512 ![0, 1] h w (ix2 i j) = w (ix2 0 j) :=
  broadcastInDim_apply _ h w _ _ (fun a => match a with | ⟨0, _⟩ => rfl | ⟨1, _⟩ => rfl)

/-- A one-column matrix repeated across a square matrix. -/
theorem bc_cols_sq (h : S512x1.BroadcastsInDim S512x512 (![0, 1] : Fin 2 → Fin S512x512.rank)) (w : S512x1.Idx → α)
    (i : Fin 512) (j : Fin 512) : broadcastInDim S512x512 ![0, 1] h w (ix2 i j) = w (ix2 i 0) :=
  broadcastInDim_apply _ h w _ _ (fun a => match a with | ⟨0, _⟩ => rfl | ⟨1, _⟩ => rfl)

end Bcast

/-! ## Reductions at an index -/

/-- The reduction over the sample axis from the zero word: the column's sum. -/
theorem reduce0_apply (x : FVec Ideal S65536x512 .f32) (h' : S65536x512.ReducesTo [0] S512) (hu : 0 < S_.numel)
    (j : Fin 512) :
    Host.reduceAdd x (constant (F := Ideal) S_ .f32 0x00000000#32) h' hu (ix1 j) = ∑ n : Fin 65536, x (ix2 n j) := by
  have h : S65536x512.Reduces [0] S512 := by decide
  unfold Host.reduceAdd
  rw [Ideal.hostReduceAdd_def, Ideal.hostReduceAdd_single h' h]
  show Ideal.ofBits .f32 0x00000000#32 + _ = _
  rw [Ideal.ofBits_zero_f32, zero_add]
  exact Finset.sum_congr rfl fun k _ => congrArg x (Cert.Finite.lift_ix2 h j k)

/-- The reduction of a square matrix over both axes from the zero word: the total, as the double sum. -/
theorem reduceAll_apply (x : FVec Ideal S512x512 .f32) (h' : S512x512.ReducesTo [0, 1] S_) (hu : 0 < S_.numel)
    (i0 : S_.Idx) :
    Host.reduceAdd x (constant (F := Ideal) S_ .f32 0x00000000#32) h' hu i0
      = ∑ i : Fin 512, ∑ j : Fin 512, x (ix2 i j) := by
  unfold Host.reduceAdd
  rw [Ideal.hostReduceAdd_def, Ideal.hostReduceAdd_total h' (fun b => b.elim0)]
  show Ideal.ofBits .f32 0x00000000#32 + _ = _
  rw [Ideal.ofBits_zero_f32, zero_add]
  exact sum_idx2 x

/-! ## The matrix products and the transpose at an index -/

section Dots
variable [Facts₀]

/-- The samples times the adjacency: row `n`, column `j` is the sum over the inner index. -/
theorem dotXA_apply (x : FVec Ideal S65536x512 .f32) (a : FVec Ideal S512x512 .f32) (n : Fin 65536) (j : Fin 512) :
    Host.dotGeneral (F := Ideal) dot_S65536x512_S512x512_S65536x512_1_0_0_1_n_n none x a (ix2 n j)
      = ∑ k : Fin 512, x (ix2 n k) * a (ix2 k j) := by
  show FloatOps.dotGeneral _ _ _ x a (ix2 n j) = _
  rw [Ideal.dotGeneral_apply]
  rw [← Equiv.sum_comp (contrEquiv1 dot_S65536x512_S512x512_S65536x512_1_0_0_1_n_n 512 rfl rfl).symm]
  refine Finset.sum_congr rfl fun k _ => ?_
  have hl : dot_S65536x512_S512x512_S65536x512_1_0_0_1_n_n.lhsIdx (ix2 n j)
      ((contrEquiv1 dot_S65536x512_S512x512_S65536x512_1_0_0_1_n_n 512 rfl rfl).symm k) = ix2 n k := by
    funext b
    refine Fin.ext ?_
    match b with
    | ⟨0, _⟩ => rfl
    | ⟨1, _⟩ =>
      exact (DotDims.lhsIdx_val_of_single _ rfl _ _).trans (contrEquiv1_symm_val _ 512 rfl rfl k)
  have hr : dot_S65536x512_S512x512_S65536x512_1_0_0_1_n_n.rhsIdx (ix2 n j)
      ((contrEquiv1 dot_S65536x512_S512x512_S65536x512_1_0_0_1_n_n 512 rfl rfl).symm k) = ix2 k j := by
    funext b
    refine Fin.ext ?_
    match b with
    | ⟨0, _⟩ =>
      exact (DotDims.rhsIdx_val_of_single _ rfl _ _).trans (contrEquiv1_symm_val _ 512 rfl rfl k)
    | ⟨1, _⟩ => rfl
  rw [hl, hr]

/-- A transposed array reads the source with the coordinates exchanged. -/
theorem transpose_ix2 {α : Type} (x : S65536x512.Idx → α) (h : S65536x512.Transposes [1, 0] S512x65536)
    (i : Fin 512) (n : Fin 65536) : transpose S512x65536 [1, 0] x h (ix2 i n) = x (ix2 n i) :=
  transpose_apply _ x h _ _ (fun b => match b with | ⟨0, _⟩ => rfl | ⟨1, _⟩ => rfl)

/-- The product over the sample axis: row `i` of the left operand against column `j` of the right. -/
theorem dotM_apply (l : FVec Ideal S512x65536 .f32) (r : FVec Ideal S65536x512 .f32) (i j : Fin 512) :
    Host.dotGeneral (F := Ideal) dot_S512x65536_S65536x512_S512x512_1_0_0_1_n_n none l r (ix2 i j)
      = ∑ n : Fin 65536, l (ix2 i n) * r (ix2 n j) := by
  show FloatOps.dotGeneral _ _ _ l r (ix2 i j) = _
  rw [Ideal.dotGeneral_apply]
  rw [← Equiv.sum_comp (contrEquiv1 dot_S512x65536_S65536x512_S512x512_1_0_0_1_n_n 65536 rfl rfl).symm]
  refine Finset.sum_congr rfl fun k _ => ?_
  have hl : dot_S512x65536_S65536x512_S512x512_1_0_0_1_n_n.lhsIdx (ix2 i j)
      ((contrEquiv1 dot_S512x65536_S65536x512_S512x512_1_0_0_1_n_n 65536 rfl rfl).symm k) = ix2 i k := by
    funext b
    refine Fin.ext ?_
    match b with
    | ⟨0, _⟩ => rfl
    | ⟨1, _⟩ =>
      exact (DotDims.lhsIdx_val_of_single _ rfl _ _).trans (contrEquiv1_symm_val _ 65536 rfl rfl k)
  have hr : dot_S512x65536_S65536x512_S512x512_1_0_0_1_n_n.rhsIdx (ix2 i j)
      ((contrEquiv1 dot_S512x65536_S65536x512_S512x512_1_0_0_1_n_n 65536 rfl rfl).symm k) = ix2 k j := by
    funext b
    refine Fin.ext ?_
    match b with
    | ⟨0, _⟩ =>
      exact (DotDims.rhsIdx_val_of_single _ rfl _ _).trans (contrEquiv1_symm_val _ 65536 rfl rfl k)
    | ⟨1, _⟩ => rfl
  rw [hl, hr]

end Dots

/-! ## Literals -/

/-- The word of `65536.0` is the real `65536`. -/
theorem nn_eq : Cert.Spec.nn = ((65536 : ℝ) : EReal) := by
  show Ideal.ofBits .f32 0x47800000#32 = _
  simp [Ideal.ofBits, Ideal.ieee, -EReal.coe_mul]; norm_num

/-- The integer word `1` converted is the real `1`. -/
theorem sitofp_one : FloatOps.sitofp (F := Ideal) .f32 (1#32 : BitVec 32) = ((1 : ℝ) : EReal) := by
  show (((1#32 : BitVec 32).toInt : ℝ) : EReal) = _
  have h : (1#32 : BitVec 32).toInt = 1 := by decide
  rw [h]; norm_num

/-- The divisor `N - 1` is positive, so the guarded variance takes its quotient branch. -/
theorem nm1'_pos : (0 : EReal) < Cert.Spec.nm1' := by
  show (0 : EReal) < Cert.Spec.nn - ((1 : ℝ) : EReal)
  rw [nn_eq, ← EReal.coe_sub, ← EReal.coe_zero, EReal.coe_lt_coe_iff]
  norm_num

/-- The guard of the unbiased variance: `N - 1 > 0` holds. -/
theorem var_guard :
    FloatOps.cmpf (F := Ideal) .ogt
      (FloatOps.subf (Ideal.ofBits .f32 0x47800000#32) (FloatOps.sitofp (F := Ideal) .f32 (1#32 : BitVec 32)))
      (Ideal.ofBits .f32 0x00000000#32) = 1#1 := by
  rw [sitofp_one]
  exact Cert.Finite.cmpf_ogt_zero_of_pos nm1'_pos

/-! ## The identity matrix at an index -/

/-- Two coordinates below `512` have the same 32-bit word exactly when they are equal. -/
theorem ofNat_inj_512 (i j : Fin 512) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The comparison of the row coordinate (plus the zero word) with the column coordinate, converted: the identity
    matrix's entry. -/
theorem eye_apply (hb : S_.BroadcastsInDim S512x512 (![] : Fin 0 → Fin S512x512.rank)) (i j : Fin 512) :
    uitofp (F := Ideal) .f32
        (cmpi .eq (addi (iotaInDim S512x512 32 0) (broadcastInDim S512x512 ![] hb (constantI S_ 32 0#32)))
          (iotaInDim S512x512 32 1)) (ix2 i j)
      = Cert.Spec.eye i j := by
  show FloatOps.uitofp (F := Ideal) .f32
      (IntOp.cmpi .eq (IntOp.addi (BitVec.ofNat 32 i.val) (broadcastInDim S512x512 ![] hb (constantI S_ 32 0#32) (ix2 i j)))
        (BitVec.ofNat 32 j.val)) = _
  rw [bc_scalar]
  show ((((BitVec.ofBool (BitVec.ofNat 32 i.val + 0#32 == BitVec.ofNat 32 j.val)).toNat : ℝ) : EReal)) = _
  unfold Cert.Spec.eye
  by_cases hij : i = j
  · subst hij
    simp
  · have hne : ¬ BitVec.ofNat 32 i.val = BitVec.ofNat 32 j.val := fun h => hij ((ofNat_inj_512 i j).mp h)
    rw [if_neg hij, BitVec.add_zero, beq_eq_false_iff_ne.mpr hne]
    simp

/-! ## The stages of the program, each from the equations that define its arrays -/

section Stages

variable {hr : S65536x512.ReducesTo [0] S512} {hS : 0 < S_.numel}
  {hb1 : S512.BroadcastsInDim S1x512 (![1] : Fin 1 → Fin S1x512.rank)}
  {hb2 : S_.BroadcastsInDim S1x512 (![] : Fin 0 → Fin S1x512.rank)}
  {hb3 : S1x512.BroadcastsInDim S65536x512 (![0, 1] : Fin 2 → Fin S65536x512.rank)}
  {hb4 : S_.BroadcastsInDim S512 (![] : Fin 0 → Fin S512.rank)}
  {hR2 : S512x512.ReducesTo [0, 1] S_}
  {hc0 : S512.BroadcastsInDim S512x1 (![0] : Fin 1 → Fin S512x1.rank)}
  {hcs : S512x1.BroadcastsInDim S512x512 (![0, 1] : Fin 2 → Fin S512x512.rank)}
  {hrs : S1x512.BroadcastsInDim S512x512 (![0, 1] : Fin 2 → Fin S512x512.rank)}
  {hbq : S_.BroadcastsInDim S512x512 (![] : Fin 0 → Fin S512x512.rank)}

/-- Centring: the column sums over `N`, repeated down the samples and subtracted. -/
theorem cen_chain
    {z v4 v5 : FVec Ideal S65536x512 .f32} {cst cst_0 : FVec Ideal S_ .f32} {v0 : FVec Ideal S512 .f32}
    {v1 v2 v3 : FVec Ideal S1x512 .f32}
    (ecst : cst = constant S_ .f32 0x00000000#32)
    (e0 : v0 = Host.reduceAdd z cst hr hS)
    (e1 : v1 = broadcastInDim S1x512 ![1] hb1 v0)
    (ecst_0 : cst_0 = constant S_ .f32 0x47800000#32)
    (e2 : v2 = broadcastInDim S1x512 ![] hb2 cst_0)
    (e3 : v3 = Host.divf v1 v2)
    (e4 : v4 = broadcastInDim S65536x512 ![0, 1] hb3 v3)
    (e5 : v5 = subf z v4) (n : Fin 65536) (k : Fin 512) :
    v5 (ix2 n k) = Cert.Spec.TwoPass.cen (fun n k => z (ix2 n k)) n k := by
  subst ecst e0 e1 ecst_0 e2 e3 e4 e5
  show z (ix2 n k) - broadcastInDim S65536x512 _ hb3 _ (ix2 n k) = _
  rw [bc_rows]
  show z (ix2 n k) - Ideal.div (broadcastInDim S1x512 _ hb1 _ (ix2 0 k)) (broadcastInDim S1x512 _ hb2 _ (ix2 0 k)) = _
  rw [bc_row, bc_scalar, reduce0_apply]
  rfl

/-- The unbiased column variance: centre, square, sum, divide by `N - 1`; the guard `N - 1 > 0` holds, so the
    quotient is what is selected. -/
theorem var_chain
    {z v4 v5 v6 : FVec Ideal S65536x512 .f32} {c1 : IVec S_ 32}
    {cst cst_0 v7 cst_1 v8 cst_2 cst_3 cst_4 w0 : FVec Ideal S_ .f32}
    {v0 v9 v10 v11 w1 out : FVec Ideal S512 .f32} {v1 v2 v3 : FVec Ideal S1x512 .f32} {v12 : IVec S_ 1}
    (ec1 : c1 = constantI S_ 32 1#32)
    (ecst : cst = constant S_ .f32 0x00000000#32)
    (e0 : v0 = Host.reduceAdd z cst hr hS)
    (e1 : v1 = broadcastInDim S1x512 ![1] hb1 v0)
    (ecst_0 : cst_0 = constant S_ .f32 0x47800000#32)
    (e2 : v2 = broadcastInDim S1x512 ![] hb2 cst_0)
    (e3 : v3 = Host.divf v1 v2)
    (e4 : v4 = broadcastInDim S65536x512 ![0, 1] hb3 v3)
    (e5 : v5 = subf z v4)
    (e6 : v6 = mulf v5 v5)
    (e7 : v7 = sitofp .f32 c1)
    (ecst_1 : cst_1 = constant S_ .f32 0x47800000#32)
    (e8 : v8 = subf cst_1 v7)
    (ecst_2 : cst_2 = constant S_ .f32 0x00000000#32)
    (e9 : v9 = Host.reduceAdd v6 cst_2 hr hS)
    (e10 : v10 = broadcastInDim S512 ![] hb4 v8)
    (e11 : v11 = Host.divf v9 v10)
    (ecst_3 : cst_3 = constant S_ .f32 0x00000000#32)
    (e12 : v12 = cmpf .ogt v8 cst_3)
    (ecst_4 : cst_4 = constant S_ .f32 0x7FC00000#32)
    (ew0 : w0 = id cst_4)
    (ew1 : w1 = broadcastInDim S512 ![] hb4 w0)
    (eout : out = select (broadcastInDim S512 ![] hb4 v12) v11 w1)
    (j : Fin 512) : out (ix1 j) = Cert.Spec.TwoPass.var (fun n k => z (ix2 n k)) j := by
  have hcen : ∀ n k, v5 (ix2 n k) = Cert.Spec.TwoPass.cen (fun n k => z (ix2 n k)) n k :=
    cen_chain ecst e0 e1 ecst_0 e2 e3 e4 e5
  subst ec1 e6 e7 ecst_1 e8 ecst_2 e9 e10 e11 ecst_3 e12 ecst_4 ew0 ew1 eout
  rw [select_apply, bc_scalar]
  rw [show cmpf .ogt (subf (constant (F := Ideal) S_ .f32 0x47800000#32) (sitofp .f32 (constantI S_ 32 1#32)))
        (constant S_ .f32 0x00000000#32) ix0 = 1#1 from var_guard, select_one]
  show Ideal.div (Host.reduceAdd (F := Ideal) (mulf v5 v5) _ hr hS (ix1 j)) (broadcastInDim S512 _ hb4 _ (ix1 j)) = _
  rw [reduce0_apply, bc_scalar]
  show Ideal.div (∑ n : Fin 65536, v5 (ix2 n j) * v5 (ix2 n j))
      (Cert.Spec.nn - FloatOps.sitofp (F := Ideal) .f32 (1#32 : BitVec 32)) = _
  rw [sitofp_one]
  simp only [hcen]
  rfl

/-- The entropy term of a variance vector: `½ log (2πe (v + ε))`. -/
theorem ent_chain {v2 v3 v4 v5 v6 v7 v8 v9 : FVec Ideal S512 .f32} {c1 c2 c3 : FVec Ideal S_ .f32}
    (ec1 : c1 = constant S_ .f32 0x322BCC77#32) (e3 : v3 = broadcastInDim S512 ![] hb4 c1) (e4 : v4 = addf v2 v3)
    (ec2 : c2 = constant S_ .f32 0x4188A2C0#32) (e5 : v5 = broadcastInDim S512 ![] hb4 c2) (e6 : v6 = mulf v5 v4)
    (e7 : v7 = Host.log v6) (ec3 : c3 = constant S_ .f32 0x3F000000#32) (e8 : v8 = broadcastInDim S512 ![] hb4 c3)
    (e9 : v9 = mulf v8 v7) (i : Fin 512) : v9 (ix1 i) = Cert.Spec.ent (v2 (ix1 i)) := by
  subst ec1 e3 e4 ec2 e5 e6 e7 ec3 e8 e9
  show broadcastInDim S512 _ hb4 _ (ix1 i)
      * Ideal.log (broadcastInDim S512 _ hb4 _ (ix1 i) * (v2 (ix1 i) + broadcastInDim S512 _ hb4 _ (ix1 i))) = _
  simp only [bc_scalar]
  rfl

/-- The standard deviation with its guard, from a variance vector: `√v + ε`. -/
theorem sdev_chain {v0 v33 v34 v35 : FVec Ideal S512 .f32} {c : FVec Ideal S_ .f32}
    (e33 : v33 = Host.sqrt v0) (ec : c = constant S_ .f32 0x322BCC77#32) (e34 : v34 = broadcastInDim S512 ![] hb4 c)
    (e35 : v35 = addf v33 v34) (i : Fin 512) : v35 (ix1 i) = Cert.Spec.sdev (v0 (ix1 i)) := by
  subst e33 ec e34 e35
  show Ideal.sqrt (v0 (ix1 i)) + broadcastInDim S512 _ hb4 _ (ix1 i) = _
  rw [bc_scalar]
  rfl

/-- The normaliser: the adjacency's total plus `ε`. -/
theorem denom_chain {a : FVec Ideal S512x512 .f32} {cst v0 c0 v1 : FVec Ideal S_ .f32}
    (ecst : cst = constant S_ .f32 0x00000000#32) (e0 : v0 = Host.reduceAdd a cst hR2 hS)
    (ec0 : c0 = constant S_ .f32 0x322BCC77#32) (e1 : v1 = addf v0 c0) :
    v1 ix0 = (∑ i : Fin 512, ∑ j : Fin 512, a (ix2 i j)) + Cert.Spec.eps := by
  subst ecst e0 ec0 e1
  show Host.reduceAdd (F := Ideal) a _ hR2 hS ix0 + _ = _
  rw [reduceAll_apply]
  rfl

/-- The entropy penalty: the adjacency against the positive part of the entropy differences, over the normaliser. -/
theorem entpen_chain
    {a v12 v13 v14 r0 v15 v16 : FVec Ideal S512x512 .f32} {v9 : FVec Ideal S512 .f32}
    {v10 : FVec Ideal S512x1 .f32} {v11 : FVec Ideal S1x512 .f32} {rc c4 v17 v1 v18 : FVec Ideal S_ .f32}
    (e10 : v10 = broadcastInDim S512x1 ![0] hc0 v9) (e11 : v11 = broadcastInDim S1x512 ![1] hb1 v9)
    (e12 : v12 = broadcastInDim S512x512 ![0, 1] hcs v10) (e13 : v13 = broadcastInDim S512x512 ![0, 1] hrs v11)
    (e14 : v14 = subf v12 v13)
    (erc : rc = constant S_ .f32 0x00000000#32) (er0 : r0 = broadcastInDim S512x512 ![] hbq rc)
    (e15 : v15 = maximumf v14 r0) (e16 : v16 = mulf a v15)
    (ec4 : c4 = constant S_ .f32 0x00000000#32) (e17 : v17 = Host.reduceAdd v16 c4 hR2 hS)
    (e18 : v18 = Host.divf v17 v1) :
    v18 ix0 = Ideal.div (∑ i : Fin 512, ∑ j : Fin 512, a (ix2 i j) * max (v9 (ix1 i) - v9 (ix1 j)) 0) (v1 ix0) := by
  subst e10 e11 e12 e13 e14 erc er0 e15 e16 ec4 e17 e18
  show Ideal.div (Host.reduceAdd (F := Ideal) (φ := .f32) _ _ hR2 hS ix0) (v1 ix0) = _
  rw [reduceAll_apply]
  refine congrArg (fun s => Ideal.div s (v1 ix0)) ?_
  refine Finset.sum_congr rfl fun i _ => Finset.sum_congr rfl fun j _ => ?_
  show a (ix2 i j) * max (broadcastInDim S512x512 _ hcs _ (ix2 i j) - broadcastInDim S512x512 _ hrs _ (ix2 i j))
      (broadcastInDim S512x512 _ hbq _ (ix2 i j)) = _
  rw [bc_cols_sq, bc_rows_sq, bc_col, bc_row, bc_scalar]
  show _ * max _ (Ideal.ofBits .f32 0x00000000#32) = _
  rw [Ideal.ofBits_zero_f32]

end Stages

section Stages2

variable [Facts₀] {hS : 0 < S_.numel}
  {hb1 : S512.BroadcastsInDim S1x512 (![1] : Fin 1 → Fin S1x512.rank)}
  {hR2 : S512x512.ReducesTo [0, 1] S_}
  {hc0 : S512.BroadcastsInDim S512x1 (![0] : Fin 1 → Fin S512x1.rank)}
  {hcs : S512x1.BroadcastsInDim S512x512 (![0, 1] : Fin 2 → Fin S512x512.rank)}
  {hrs : S1x512.BroadcastsInDim S512x512 (![0, 1] : Fin 2 → Fin S512x512.rank)}
  {hbq : S_.BroadcastsInDim S512x512 (![] : Fin 0 → Fin S512x512.rank)}
  {htr : S65536x512.Transposes [1, 0] S512x65536}

/-- The residuals: the samples less the samples times the adjacency. -/
theorem res_chain {x v19 v20 : FVec Ideal S65536x512 .f32} {a : FVec Ideal S512x512 .f32}
    (e19 : v19 = Host.dotGeneral dot_S65536x512_S512x512_S65536x512_1_0_0_1_n_n none x a)
    (e20 : v20 = subf x v19) (n : Fin 65536) (j : Fin 512) :
    v20 (ix2 n j) = Cert.Spec.TwoPass.res (fun n k => x (ix2 n k)) (fun i j => a (ix2 i j)) n j := by
  subst e19 e20
  show x (ix2 n j) - Host.dotGeneral (F := Ideal) dot_S65536x512_S512x512_S65536x512_1_0_0_1_n_n none x a (ix2 n j) = _
  rw [dotXA_apply]
  rfl

/-- The cross products: the transposed left array against the right one, summed over the samples. -/
theorem cross_chain {l r : FVec Ideal S65536x512 .f32} {v39 : FVec Ideal S512x65536 .f32} {v40 : FVec Ideal S512x512 .f32}
    (e39 : v39 = transpose S512x65536 [1, 0] l htr)
    (e40 : v40 = Host.dotGeneral dot_S512x65536_S65536x512_S512x512_1_0_0_1_n_n none v39 r) (i j : Fin 512) :
    v40 (ix2 i j) = ∑ n : Fin 65536, l (ix2 n i) * r (ix2 n j) := by
  subst e39 e40
  rw [dotM_apply]
  refine Finset.sum_congr rfl fun n _ => ?_
  rw [transpose_ix2]

/-- The identity matrix. -/
theorem eye_chain {v50 v51 v52 v53 : IVec S512x512 32} {c14 : IVec S_ 32} {v54 : IVec S512x512 1}
    {v55 : FVec Ideal S512x512 .f32}
    (e50 : v50 = iotaInDim S512x512 32 0) (e51 : v51 = iotaInDim S512x512 32 1) (ec14 : c14 = constantI S_ 32 0#32)
    (e52 : v52 = broadcastInDim S512x512 ![] hbq c14) (e53 : v53 = addi v50 v52) (e54 : v54 = cmpi .eq v53 v51)
    (e55 : v55 = uitofp .f32 v54) (i j : Fin 512) : v55 (ix2 i j) = Cert.Spec.eye i j := by
  subst e50 e51 ec14 e52 e53 e54 e55
  exact eye_apply hbq i j

/-- The normalised absolute cross term. -/
theorem corr_chain {v40 v41 v42 v45 v46 v47 v48 v49 : FVec Ideal S512x512 .f32} {c13 : FVec Ideal S_ .f32}
    {v35 v38 : FVec Ideal S512 .f32} {v43 : FVec Ideal S512x1 .f32} {v44 : FVec Ideal S1x512 .f32}
    (ec13 : c13 = constant S_ .f32 0x47800000#32) (e41 : v41 = broadcastInDim S512x512 ![] hbq c13)
    (e42 : v42 = Host.divf v40 v41)
    (e43 : v43 = broadcastInDim S512x1 ![0] hc0 v35) (e44 : v44 = broadcastInDim S1x512 ![1] hb1 v38)
    (e45 : v45 = broadcastInDim S512x512 ![0, 1] hcs v43) (e46 : v46 = broadcastInDim S512x512 ![0, 1] hrs v44)
    (e47 : v47 = mulf v45 v46) (e48 : v48 = Host.divf v42 v47) (e49 : v49 = Host.absf v48) (i j : Fin 512) :
    v49 (ix2 i j) = Cert.Spec.corr (v40 (ix2 i j)) (v35 (ix1 i)) (v38 (ix1 j)) := by
  have h48 : v48 (ix2 i j) = Ideal.div (Ideal.div (v40 (ix2 i j)) Cert.Spec.nn) (v35 (ix1 i) * v38 (ix1 j)) := by
    subst ec13 e41 e42 e43 e44 e45 e46 e47 e48
    show Ideal.div (Ideal.div (v40 (ix2 i j)) (broadcastInDim S512x512 _ hbq _ (ix2 i j)))
        (broadcastInDim S512x512 _ hcs _ (ix2 i j) * broadcastInDim S512x512 _ hrs _ (ix2 i j)) = _
    rw [bc_scalar, bc_cols_sq, bc_rows_sq, bc_col, bc_row]
    rfl
  subst e49
  show max (v48 (ix2 i j)) (-(v48 (ix2 i j))) = _
  rw [h48]
  rfl

/-- The closing expression: the residual penalty over the normaliser, halved, added to the entropy penalty, times
    `0.1`. -/
theorem close_chain {a v49 v55 v56 v57 v58 v59 : FVec Ideal S512x512 .f32}
    {c15 c16 v60 v1 v61 c17 v62 v18 v63 c18 v64 : FVec Ideal S_ .f32}
    (ec15 : c15 = constant S_ .f32 0x3F800000#32) (e56 : v56 = broadcastInDim S512x512 ![] hbq c15)
    (e57 : v57 = subf v56 v55) (e58 : v58 = mulf v49 v57) (e59 : v59 = mulf a v58)
    (ec16 : c16 = constant S_ .f32 0x00000000#32) (e60 : v60 = Host.reduceAdd v59 c16 hR2 hS)
    (e61 : v61 = Host.divf v60 v1) (ec17 : c17 = constant S_ .f32 0x3F000000#32) (e62 : v62 = mulf c17 v61)
    (e63 : v63 = addf v18 v62) (ec18 : c18 = constant S_ .f32 0x3DCCCCCD#32) (e64 : v64 = mulf c18 v63) :
    v64 ix0 = Cert.Spec.tenth * (v18 ix0 + Cert.Spec.half
        * Ideal.div (∑ i : Fin 512, ∑ j : Fin 512, a (ix2 i j) * (v49 (ix2 i j) * (Cert.Spec.one - v55 (ix2 i j)))) (v1 ix0)) := by
  have h60 : v60 ix0 = ∑ i : Fin 512, ∑ j : Fin 512, a (ix2 i j) * (v49 (ix2 i j) * (Cert.Spec.one - v55 (ix2 i j))) := by
    subst ec15 e56 e57 e58 e59 ec16 e60
    rw [reduceAll_apply]
    refine Finset.sum_congr rfl fun i _ => Finset.sum_congr rfl fun j _ => ?_
    show a (ix2 i j) * (v49 (ix2 i j) * (broadcastInDim S512x512 _ hbq _ (ix2 i j) - v55 (ix2 i j))) = _
    rw [bc_scalar]
    rfl
  subst e61 ec17 e62 e63 ec18 e64
  show Cert.Spec.tenth * (v18 ix0 + Cert.Spec.half * Ideal.div (v60 ix0) (v1 ix0)) = _
  rw [h60]

end Stages2

end Cert.ReferenceIdeal.HandRead

end
-- ==== Proof.RefRead.lean ====
/-
  The two-pass program's result buffer read at its one index.

  The program's final contents are given operation by operation: each buffer's final contents are the operation's
  function of its operands' final contents. Stage by stage those equations are the readings of the stages in the
  module of the operations: the normaliser, the three unbiased variances, the entropy terms and their penalty, the
  residuals, the two centred arrays, the guarded standard deviations, the cross products, the normalised absolute
  cross terms, the identity matrix and the closing sums. Put together, the result buffer's one element is the
  specification's two-pass penalty of the two argument buffers' contents, which no operation writes.
-/
import proofs.«176857_j82240033784130_2_alg».proof.Proof.Gen.ReferenceIdeal
import proofs.«176857_j82240033784130_2_alg».proof.Proof.RefEqs
import proofs.«176857_j82240033784130_2_alg».proof.Proof.RefOps

noncomputable section

open scoped BigOperators

namespace Cert.ReferenceIdeal.HandRead

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx

variable (V : Valuation τ sig (Elt Ideal))

/-! ## The final contents of the buffers the stages are stated over, at their array types -/
abbrev fin_main_arg0 : FVec Ideal S65536x512 .f32 :=
  after (ops (F := Ideal)) V (Proc.devRef .tc main_arg0)
abbrev fin_main_arg1 : FVec Ideal S512x512 .f32 :=
  after (ops (F := Ideal)) V (Proc.devRef .tc main_arg1)
abbrev fin_main_v1 : FVec Ideal S_ .f32 :=
  after (ops (F := Ideal)) V (Proc.devRef .tc main_v1)
abbrev fin_main_v2 : FVec Ideal S512 .f32 :=
  after (ops (F := Ideal)) V (Proc.devRef .tc main_v2)
abbrev fin_main_v9 : FVec Ideal S512 .f32 :=
  after (ops (F := Ideal)) V (Proc.devRef .tc main_v9)
abbrev fin_main_v18 : FVec Ideal S_ .f32 :=
  after (ops (F := Ideal)) V (Proc.devRef .tc main_v18)
abbrev fin_main_v20 : FVec Ideal S65536x512 .f32 :=
  after (ops (F := Ideal)) V (Proc.devRef .tc main_v20)
abbrev fin_main_v26 : FVec Ideal S65536x512 .f32 :=
  after (ops (F := Ideal)) V (Proc.devRef .tc main_v26)
abbrev fin_main_v32 : FVec Ideal S65536x512 .f32 :=
  after (ops (F := Ideal)) V (Proc.devRef .tc main_v32)
abbrev fin_main_call2_v0 : FVec Ideal S512 .f32 :=
  after (ops (F := Ideal)) V (Proc.devRef .tc main_call2_v0)
abbrev fin_main_v35 : FVec Ideal S512 .f32 :=
  after (ops (F := Ideal)) V (Proc.devRef .tc main_v35)
abbrev fin_main_call3_v0 : FVec Ideal S512 .f32 :=
  after (ops (F := Ideal)) V (Proc.devRef .tc main_call3_v0)
abbrev fin_main_v38 : FVec Ideal S512 .f32 :=
  after (ops (F := Ideal)) V (Proc.devRef .tc main_v38)
abbrev fin_main_v40 : FVec Ideal S512x512 .f32 :=
  after (ops (F := Ideal)) V (Proc.devRef .tc main_v40)
abbrev fin_main_v49 : FVec Ideal S512x512 .f32 :=
  after (ops (F := Ideal)) V (Proc.devRef .tc main_v49)
abbrev fin_main_v55 : FVec Ideal S512x512 .f32 :=
  after (ops (F := Ideal)) V (Proc.devRef .tc main_v55)
abbrev fin_main_v64 : FVec Ideal S_ .f32 :=
  after (ops (F := Ideal)) V (Proc.devRef .tc main_v64)

/-! ## The stages -/

/-- The normaliser `∑ A + ε`. -/
theorem w_v1 : (fin_main_v1 V) ix0 = (∑ i : Fin 512, ∑ j : Fin 512, (fin_main_arg1 V) (ix2 i j)) + Cert.Spec.eps :=
  denom_chain (eq_main_cst V) (eq_main_v0 V) (eq_main_cst_0 V) (eq_main_v1 V)

/-- The samples' variances. -/
theorem w_v2 (j : Fin 512) : (fin_main_v2 V) (ix1 j) = Cert.Spec.TwoPass.var (fun n k => (fin_main_arg0 V) (ix2 n k)) j :=
  var_chain (z := (fin_main_arg0 V)) (out := (fin_main_v2 V)) (eq_main_c V) (eq_main_call0_cst V) (eq_main_call0_v0 V) (eq_main_call0_v1 V) (eq_main_call0_cst_0 V) (eq_main_call0_v2 V) (eq_main_call0_v3 V) (eq_main_call0_v4 V) (eq_main_call0_v5 V) (eq_main_call0_v6 V) (eq_main_call0_v7 V) (eq_main_call0_cst_1 V) (eq_main_call0_v8 V) (eq_main_call0_cst_2 V) (eq_main_call0_v9 V) (eq_main_call0_v10 V) (eq_main_call0_v11 V) (eq_main_call0_cst_3 V) (eq_main_call0_v12 V) (eq_main_call0_cst_4 V) (eq_main_call0_call0_v0 V) (eq_main_call0_call0_v1 V) (eq_main_v2 V) j

/-- Their entropy terms. -/
theorem w_v9 (i : Fin 512) : (fin_main_v9 V) (ix1 i) = Cert.Spec.ent ((fin_main_v2 V) (ix1 i)) :=
  ent_chain (eq_main_cst_1 V) (eq_main_v3 V) (eq_main_v4 V) (eq_main_cst_2 V) (eq_main_v5 V) (eq_main_v6 V) (eq_main_v7 V) (eq_main_cst_3 V) (eq_main_v8 V) (eq_main_v9 V) i

/-- The entropy penalty over the normaliser. -/
theorem w_v18 : (fin_main_v18 V) ix0
    = Ideal.div (∑ i : Fin 512, ∑ j : Fin 512, (fin_main_arg1 V) (ix2 i j) * max ((fin_main_v9 V) (ix1 i) - (fin_main_v9 V) (ix1 j)) 0) ((fin_main_v1 V) ix0) :=
  entpen_chain (eq_main_v10 V) (eq_main_v11 V) (eq_main_v12 V) (eq_main_v13 V) (eq_main_v14 V) (eq_main_call1_cst V) (eq_main_call1_v0 V) (eq_main_v15 V) (eq_main_v16 V) (eq_main_cst_4 V) (eq_main_v17 V) (eq_main_v18 V)

/-- The residuals. -/
theorem w_v20 (n : Fin 65536) (j : Fin 512) : (fin_main_v20 V) (ix2 n j) = Cert.Spec.TwoPass.res (fun n k => (fin_main_arg0 V) (ix2 n k)) (fun i j => (fin_main_arg1 V) (ix2 i j)) n j :=
  res_chain (eq_main_v19 V) (eq_main_v20 V) n j

/-- The centred samples. -/
theorem w_v26 (n : Fin 65536) (k : Fin 512) : (fin_main_v26 V) (ix2 n k) = Cert.Spec.TwoPass.cen (fun n k => (fin_main_arg0 V) (ix2 n k)) n k :=
  cen_chain (eq_main_cst_5 V) (eq_main_v21 V) (eq_main_v22 V) (eq_main_cst_6 V) (eq_main_v23 V) (eq_main_v24 V) (eq_main_v25 V) (eq_main_v26 V) n k

/-- The centred residuals. -/
theorem w_v32 (n : Fin 65536) (k : Fin 512) :
    (fin_main_v32 V) (ix2 n k) = Cert.Spec.TwoPass.cen (fun n k => (fin_main_v20 V) (ix2 n k)) n k :=
  cen_chain (eq_main_cst_7 V) (eq_main_v27 V) (eq_main_v28 V) (eq_main_cst_8 V) (eq_main_v29 V) (eq_main_v30 V) (eq_main_v31 V) (eq_main_v32 V) n k

/-- The centred samples' variances. -/
theorem w_call2_v0 (j : Fin 512) :
    (fin_main_call2_v0 V) (ix1 j) = Cert.Spec.TwoPass.var (fun n k => (fin_main_v26 V) (ix2 n k)) j :=
  var_chain (z := (fin_main_v26 V)) (out := (fin_main_call2_v0 V)) (eq_main_c_9 V) (eq_main_call2_call0_cst V) (eq_main_call2_call0_v0 V) (eq_main_call2_call0_v1 V) (eq_main_call2_call0_cst_0 V) (eq_main_call2_call0_v2 V) (eq_main_call2_call0_v3 V) (eq_main_call2_call0_v4 V) (eq_main_call2_call0_v5 V) (eq_main_call2_call0_v6 V) (eq_main_call2_call0_v7 V) (eq_main_call2_call0_cst_1 V) (eq_main_call2_call0_v8 V) (eq_main_call2_call0_cst_2 V) (eq_main_call2_call0_v9 V) (eq_main_call2_call0_v10 V) (eq_main_call2_call0_v11 V) (eq_main_call2_call0_cst_3 V) (eq_main_call2_call0_v12 V) (eq_main_call2_call0_cst_4 V) (eq_main_call2_call0_call0_v0 V) (eq_main_call2_call0_call0_v1 V) (eq_main_call2_v0 V) j

/-- Their guarded standard deviations. -/
theorem w_v35 (i : Fin 512) : (fin_main_v35 V) (ix1 i) = Cert.Spec.sdev ((fin_main_call2_v0 V) (ix1 i)) :=
  sdev_chain (eq_main_v33 V) (eq_main_cst_10 V) (eq_main_v34 V) (eq_main_v35 V) i

/-- The centred residuals' variances. -/
theorem w_call3_v0 (j : Fin 512) :
    (fin_main_call3_v0 V) (ix1 j) = Cert.Spec.TwoPass.var (fun n k => (fin_main_v32 V) (ix2 n k)) j :=
  var_chain (z := (fin_main_v32 V)) (out := (fin_main_call3_v0 V)) (eq_main_c_11 V) (eq_main_call3_call0_cst V) (eq_main_call3_call0_v0 V) (eq_main_call3_call0_v1 V) (eq_main_call3_call0_cst_0 V) (eq_main_call3_call0_v2 V) (eq_main_call3_call0_v3 V) (eq_main_call3_call0_v4 V) (eq_main_call3_call0_v5 V) (eq_main_call3_call0_v6 V) (eq_main_call3_call0_v7 V) (eq_main_call3_call0_cst_1 V) (eq_main_call3_call0_v8 V) (eq_main_call3_call0_cst_2 V) (eq_main_call3_call0_v9 V) (eq_main_call3_call0_v10 V) (eq_main_call3_call0_v11 V) (eq_main_call3_call0_cst_3 V) (eq_main_call3_call0_v12 V) (eq_main_call3_call0_cst_4 V) (eq_main_call3_call0_call0_v0 V) (eq_main_call3_call0_call0_v1 V) (eq_main_call3_v0 V) j

/-- Their guarded standard deviations. -/
theorem w_v38 (i : Fin 512) : (fin_main_v38 V) (ix1 i) = Cert.Spec.sdev ((fin_main_call3_v0 V) (ix1 i)) :=
  sdev_chain (eq_main_v36 V) (eq_main_cst_12 V) (eq_main_v37 V) (eq_main_v38 V) i

/-- The cross products of the centred samples and the centred residuals. -/
theorem w_v40 (i j : Fin 512) :
    (fin_main_v40 V) (ix2 i j) = ∑ n : Fin 65536, (fin_main_v26 V) (ix2 n i) * (fin_main_v32 V) (ix2 n j) :=
  cross_chain (eq_main_v39 V) (eq_main_v40 V) i j

/-- The normalised absolute cross terms. -/
theorem w_v49 (i j : Fin 512) : (fin_main_v49 V) (ix2 i j)
    = Cert.Spec.corr ((fin_main_v40 V) (ix2 i j)) ((fin_main_v35 V) (ix1 i)) ((fin_main_v38 V) (ix1 j)) :=
  corr_chain (eq_main_cst_13 V) (eq_main_v41 V) (eq_main_v42 V) (eq_main_v43 V) (eq_main_v44 V) (eq_main_v45 V) (eq_main_v46 V) (eq_main_v47 V) (eq_main_v48 V) (eq_main_v49 V) i j

/-- The identity matrix. -/
theorem w_v55 (i j : Fin 512) : (fin_main_v55 V) (ix2 i j) = Cert.Spec.eye i j :=
  eye_chain (eq_main_v50 V) (eq_main_v51 V) (eq_main_c_14 V) (eq_main_v52 V) (eq_main_v53 V) (eq_main_v54 V) (eq_main_v55 V) i j

/-- The result from the two penalties. -/
theorem w_v64 : (fin_main_v64 V) ix0 = Cert.Spec.tenth * ((fin_main_v18 V) ix0 + Cert.Spec.half
    * Ideal.div (∑ i : Fin 512, ∑ j : Fin 512, (fin_main_arg1 V) (ix2 i j) * ((fin_main_v49 V) (ix2 i j) * (Cert.Spec.one - (fin_main_v55 V) (ix2 i j)))) ((fin_main_v1 V) ix0)) :=
  close_chain (eq_main_cst_15 V) (eq_main_v56 V) (eq_main_v57 V) (eq_main_v58 V) (eq_main_v59 V) (eq_main_cst_16 V) (eq_main_v60 V) (eq_main_v61 V) (eq_main_cst_17 V) (eq_main_v62 V) (eq_main_v63 V) (eq_main_cst_18 V) (eq_main_v64 V)

/-- The result buffer's one element is the two-pass penalty of the two argument buffers' final contents. -/
theorem w_result : (fin_main_v64 V) ix0 = Cert.Spec.TwoPass.result (fun n k => (fin_main_arg0 V) (ix2 n k)) (fun i j => (fin_main_arg1 V) (ix2 i j)) := by
  have f26 : (fun n k => (fin_main_v26 V) (ix2 n k)) = Cert.Spec.TwoPass.cen (fun n k => (fin_main_arg0 V) (ix2 n k)) :=
    funext fun n => funext fun k => w_v26 V n k
  have f20 : (fun n k => (fin_main_v20 V) (ix2 n k)) = Cert.Spec.TwoPass.res (fun n k => (fin_main_arg0 V) (ix2 n k)) (fun i j => (fin_main_arg1 V) (ix2 i j)) :=
    funext fun n => funext fun k => w_v20 V n k
  have f32 : (fun n k => (fin_main_v32 V) (ix2 n k)) = Cert.Spec.TwoPass.cen (Cert.Spec.TwoPass.res (fun n k => (fin_main_arg0 V) (ix2 n k)) (fun i j => (fin_main_arg1 V) (ix2 i j))) := by
    funext n k
    rw [w_v32 V, f20]
  have hs : ∀ i, (fin_main_v35 V) (ix1 i) = Cert.Spec.sdev (Cert.Spec.TwoPass.var (Cert.Spec.TwoPass.cen (fun n k => (fin_main_arg0 V) (ix2 n k))) i) := fun i => by
    rw [w_v35 V, w_call2_v0 V, f26]
  have hr : ∀ j, (fin_main_v38 V) (ix1 j)
      = Cert.Spec.sdev (Cert.Spec.TwoPass.var (Cert.Spec.TwoPass.cen (Cert.Spec.TwoPass.res (fun n k => (fin_main_arg0 V) (ix2 n k)) (fun i j => (fin_main_arg1 V) (ix2 i j)))) j) := fun j => by
    rw [w_v38 V, w_call3_v0 V, f32]
  have hM : ∀ i j, (fin_main_v40 V) (ix2 i j) = Cert.Spec.TwoPass.M (fun n k => (fin_main_arg0 V) (ix2 n k)) (fun i j => (fin_main_arg1 V) (ix2 i j)) i j := fun i j => by
    rw [w_v40 V]
    exact Finset.sum_congr rfl fun n _ => by rw [w_v26 V, w_v32 V, f20]
  have he : ∀ i, (fin_main_v9 V) (ix1 i) = Cert.Spec.ent (Cert.Spec.TwoPass.var (fun n k => (fin_main_arg0 V) (ix2 n k)) i) := fun i => by
    rw [w_v9 V, w_v2 V]
  rw [w_v64 V, w_v18 V, w_v1 V]
  simp only [he, w_v49 V, w_v55 V, hM, hs, hr]
  rfl

/-- The final contents of the result buffer: at its one index, the two-pass penalty of the launch contents of the
    two argument buffers. -/
theorem ref_value (V : Valuation τ sig (Elt Ideal)) :
    after (Cert.ReferenceIdeal.HandRun.ops (F := Ideal)) V (Proc.devRef .tc main_v64)
      = fun _ => Cert.Spec.TwoPass.result (fun n j => V (Proc.devRef .tc main_arg0) (ValueIdx.ix2 n j))
          (fun i j => V (Proc.devRef .tc main_arg1) (ValueIdx.ix2 i j)) := by
  have h := w_result V
  have h0 : fin_main_arg0 V = V (Proc.devRef .tc main_arg0) := arg0_kept V
  have h1 : fin_main_arg1 V = V (Proc.devRef .tc main_arg1) := arg1_kept V
  rw [h0, h1] at h
  funext i0
  rw [eq_ix0 i0]
  exact h

end Cert.ReferenceIdeal.HandRead

end
-- ==== Proof.lean ====
/-
  The certificate of the orientation penalty: a Pallas program that makes one pass over the sample matrix against the
  jnp reference that centres the samples first.

  The kernel program is two kernel regions and a reshape. The first region sweeps the 65536 × 512 sample matrix in 16
  blocks of 4096 rows, two cores of eight steps each, and accumulates per core the column sums and the Gram matrix
  XᵀX; the second, at one grid point, adds the two cores' parts and computes from them the scatter matrix, the
  variances on its diagonal, the products with I − A, the entropy penalty, the residual penalty and the final scalar.
  The reference computes the same penalty from centred arrays: variances by centring and squaring, the residuals
  X − X A centred, their cross products with the centred samples.

  The frames of the two kernel programs are the generated frame certificates. The reference has no kernel: its frame
  and its value come from its run written as the list of its host operations. The idealization rewrote nothing, so the
  preservation claim is trivial. The algebraic claim is the assembly of: the kernel program's run with its result named
  and read back through both regions to the launch memory; the reference's result read back operation by operation;
  the precondition read as "every input entry is a real number"; and the identity of the two arrangements on real
  entries (the one-pass scatter matrix S₂ − N μ μᵀ is the centred Gram matrix, and centring commutes with the product
  by I − A).
-/
import proofs.«176857_j82240033784130_2_alg».proof.Defs
import proofs.«176857_j82240033784130_2_alg».proof.Proof.Gen.Kernel
import proofs.«176857_j82240033784130_2_alg».proof.Proof.Gen.Kernel.Skeleton
import proofs.«176857_j82240033784130_2_alg».proof.Proof.Gen.Kernel.Launch
import proofs.«176857_j82240033784130_2_alg».proof.Proof.Gen.Kernel.Points
import proofs.«176857_j82240033784130_2_alg».proof.Proof.Gen.Kernel.Frame
import proofs.«176857_j82240033784130_2_alg».proof.Proof.Gen.KernelIdeal
import proofs.«176857_j82240033784130_2_alg».proof.Proof.Gen.KernelIdeal.Skeleton
import proofs.«176857_j82240033784130_2_alg».proof.Proof.Gen.KernelIdeal.Launch
import proofs.«176857_j82240033784130_2_alg».proof.Proof.Gen.KernelIdeal.Points
import proofs.«176857_j82240033784130_2_alg».proof.Proof.Gen.KernelIdeal.Frame
import proofs.«176857_j82240033784130_2_alg».proof.Proof.Gen.ReferenceIdeal
import proofs.«176857_j82240033784130_2_alg».proof.Proof.Gen.Pre_finite_inputs
import proofs.«176857_j82240033784130_2_alg».proof.Proof.Assembly
import proofs.«176857_j82240033784130_2_alg».proof.Proof.EpiValue
import proofs.«176857_j82240033784130_2_alg».proof.Proof.StatsValue
import proofs.«176857_j82240033784130_2_alg».proof.Proof.RefRead
import Idealize.ShloMosaic.Adequacy
import Idealize.ShloMosaic.Init

set_option maxRecDepth 16384

noncomputable section

namespace Cert.Proof

open Idealize.ShloMosaic Idealize.SL.Sem

/-- The word-level kernel program's frame: the generated frame certificate. -/
theorem frame_kernel : Cert.frame_Kernel := fun m ρ _ => Cert.Kernel.Gen.frame m ρ

/-- The idealized kernel program's frame: the generated frame certificate. -/
theorem frame_kernel_ideal : Cert.frame_KernelIdeal := fun m ρ _ => Cert.KernelIdeal.Gen.frame m ρ

/-- The two idealized programs end with equal results: the assembly at the second kernel's stored value, the first
    region's two accumulated arrays and the reference's result read back. -/
theorem algebraic : Cert.algebraic_KernelIdeal_ReferenceIdeal :=
  Cert.Proof.Assembly.algebraic Cert.KernelIdeal.EpiValue.out1_3_value
    (fun V c k j => Cert.KernelIdeal.StatsValue.sums_arr V c k j)
    (fun V c k i j => Cert.KernelIdeal.StatsValue.gram_arr V c k i j)
    (fun V => Cert.ReferenceIdeal.HandRead.ref_value V)

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.Assembly.frame_reference, trivial, algebraic⟩

end Cert.Proof

end
